-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_temp" .f32 0x41200000#32 ((134217728 / 13421773 : ℝ) : EReal)
  ∧ IdealRules.named_const.Statement Cert.KernelIdeal.κ "neg_big" .f32 0xFF333332#32 ⊥
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1 : Shape := ⟨2, ![8192, 1]⟩
abbrev S8192x256 : Shape := ⟨2, ![8192, 256]⟩
abbrev S_ : Shape := ⟨0, ![]⟩

class Facts : Prop where
  bcast_S_S8192x1 : S_.BroadcastsInDim S8192x1 (![] : Fin 0 → Fin S8192x1.rank)
  reducesTo_S8192x1_S_d0_1 : S8192x1.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_

variable [Facts]

def fn_part2 {F : FTy → Type} [FloatOps F] (main_arg7 : FVec F S8192x256 .f32) (main_v33 : IVec S_ 1) : IVec S_ 1 :=
  let main_v34 : FVec F S8192x256 .f32 := Host.absf main_arg7
  let main_cst_12 : FVec F S_ .f32 := constant S_ .f32 0x7F800000#32
  let main_v35 : FVec F S8192x256 .f32 := broadcastInDim S8192x256 ![] bcast_S_S8192x256 main_cst_12
  let main_v36 : IVec S8192x256 1 := cmpf .olt main_v34 main_v35
  let main_c_13 : IVec S_ 1 := constantI S_ 1 1#1
  let main_v37 : IVec S_ 1 := (fun x v => Host.reduce IntOp.andi x v reducesTo_S8192x256_S_d0_1 h_S_) main_v36 main_c_13
  let main_v38 : IVec S_ 1 := andi main_v33 main_v37
  main_v38

def fn_part1 {F : FTy → Type} [FloatOps F] (main_arg4 : FVec F S8192x1 .f32) (main_arg5 : FVec F S8192x1 .f32) (main_arg6 : FVec F S8192x256 .f32) (main_arg7 : FVec F S8192x256 .f32) (main_v13 : IVec S_ 1) (main_v16 : IVec S8192x1 1) : IVec S_ 1 :=
  let main_c_5 : IVec S_ 1 := constantI S_ 1 1#1
  let main_v17 : IVec S_ 1 := (fun x v => Host.reduce IntOp.andi x v reducesTo_S8192x1_S_d0_1 h_S_) main_v16 main_c_5
  let main_v18 : IVec S_ 1 := andi main_v13 main_v17
  let main_v19 : FVec F S8192x1 .f32 := Host.absf main_arg4
  let main_cst_6 : FVec F S_ .f32 := constant S_ .f32 0x7F800000#32
  let main_v20 : FVec F S8192x1 .f32 := broadcastInDim S8192x1 ![] bcast_S_S8192x1 main_cst_6
  let main_v21 : IVec S8192x1 1 := cmpf .olt main_v19 main_v20
  let main_c_7 : IVec S_ 1 := constantI S_ 1 1#1
  let main_v22 : IVec S_ 1 := (fun x v => Host.reduce IntOp.andi x v reducesTo_S8192x1_S_d0_1 h_S_) main_v21 main_c_7
  let main_v23 : IVec S_ 1 := andi main_v18 main_v22
  let main_v24 : FVec F S8192x1 .f32 := Host.absf main_arg5
  let main_cst_8 : FVec F S_ .f32 := constant S_ .f32 0x7F800000#32
  let main_v25 : FVec F S8192x1 .f32 := broadcastInDim S8192x1 ![] bcast_S_S8192x1 main_cst_8
  let main_v26 : IVec S8192x1 1 := cmpf .olt main_v24 main_v25
  let main_c_9 : IVec S_ 1 := constantI S_ 1 1#1
  let main_v27 : IVec S_ 1 := (fun x v => Host.reduce IntOp.andi x v reducesTo_S8192x1_S_d0_1 h_S_) main_v26 main_c_9
  let main_v28 : IVec S_ 1 := andi main_v23 main_v27
  let main_v29 : FVec F S8192x256 .f32 := Host.absf main_arg6
  let main_cst_10 : FVec F S_ .f32 := constant S_ .f32 0x7F800000#32
  let main_v30 : FVec F S8192x256 .f32 := broadcastInDim S8192x256 ![] bcast_S_S8192x256 main_cst_10
  let main_v31 : IVec S8192x256 1 := cmpf .olt main_v29 main_v30
  let main_c_11 : IVec S_ 1 := constantI S_ 1 1#1
  let main_v32 : IVec S_ 1 := (fun x v => Host.reduce IntOp.andi x v reducesTo_S8192x256_S_d0_1 h_S_) main_v31 main_c_11
  let main_v33 : IVec S_ 1 := andi main_v28 main_v32
  fn_part2 (F := F) main_arg7 main_v33

def fn {F : FTy → Type} [FloatOps F] (main_arg0 : FVec F S8192x1 .f32) (main_arg1 : FVec F S8192x1 .f32) (main_arg2 : FVec F S8192x1 .f32) (main_arg3 : FVec F S8192x1 .f32) (main_arg4 : FVec F S8192x1 .f32) (main_arg5 : FVec F S8192x1 .f32) (main_arg6 : FVec F S8192x256 .f32) (main_arg7 : FVec F S8192x256 .f32) : IVec S_ 1 :=
  let main_v0 : FVec F S8192x1 .f32 := Host.absf main_arg0
  let main_cst : FVec F S_ .f32 := constant S_ .f32 0x7F800000#32
  let main_v1 : FVec F S8192x1 .f32 := broadcastInDim S8192x1 ![] bcast_S_S8192x1 main_cst
  let main_v2 : IVec S8192x1 1 := cmpf .olt main_v0 main_v1
  let main_c : IVec S_ 1 := constantI S_ 1 1#1
  let main_v3 : IVec S_ 1 := (fun x v => Host.reduce IntOp.andi x v reducesTo_S8192x1_S_d0_1 h_S_) main_v2 main_c
  let main_v4 : FVec F S8192x1 .f32 := Host.absf main_arg1
  let main_cst_0 : FVec F S_ .f32 := constant S_ .f32 0x7F800000#32
  let main_v5 : FVec F S8192x1 .f32 := broadcastInDim S8192x1 ![] bcast_S_S8192x1 main_cst_0
  let main_v6 : IVec S8192x1 1 := cmpf .olt main_v4 main_v5
  let main_c_1 : IVec S_ 1 := constantI S_ 1 1#1
  let main_v7 : IVec S_ 1 := (fun x v => Host.reduce IntOp.andi x v reducesTo_S8192x1_S_d0_1 h_S_) main_v6 main_c_1
  let main_v8 : IVec S_ 1 := andi main_v3 main_v7
  let main_v9 : FVec F S8192x1 .f32 := Host.absf main_arg2
  let main_cst_2 : FVec F S_ .f32 := constant S_ .f32 0x7F800000#32
  let main_v10 : FVec F S8192x1 .f32 := broadcastInDim S8192x1 ![] bcast_S_S8192x1 main_cst_2
  let main_v11 : IVec S8192x1 1 := cmpf .olt main_v9 main_v10
  let main_c_3 : IVec S_ 1 := constantI S_ 1 1#1
  let main_v12 : IVec S_ 1 := (fun x v => Host.reduce IntOp.andi x v reducesTo_S8192x1_S_d0_1 h_S_) main_v11 main_c_3
  let main_v13 : IVec S_ 1 := andi main_v8 main_v12
  let main_v14 : FVec F S8192x1 .f32 := Host.absf main_arg3
  let main_cst_4 : FVec F S_ .f32 := constant S_ .f32 0x7F800000#32
  let main_v15 : FVec F S8192x1 .f32 := broadcastInDim S8192x1 ![] bcast_S_S8192x1 main_cst_4
  let main_v16 : IVec S8192x1 1 := cmpf .olt main_v14 main_v15
  fn_part1 (F := F) main_arg4 main_arg5 main_arg6 main_arg7 main_v13 main_v16
-- ==== Kernel.lean ====
abbrev S8192x1 : Shape := ⟨2, ![8192, 1]⟩
abbrev S8192x256 : Shape := ⟨2, ![8192, 256]⟩
abbrev S_ : Shape := ⟨0, ![]⟩
abbrev S8192 : Shape := ⟨1, ![8192]⟩
abbrev S16384x256 : Shape := ⟨2, ![16384, 256]⟩
abbrev S16384x1 : Shape := ⟨2, ![16384, 1]⟩
abbrev S1024x256 : Shape := ⟨2, ![1024, 256]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 81
  | .vmem => 7
  | .smem => 0
  | _ => 0

abbrev bufTy : (tb : Table) → Fin (tcTables nBuf tb) → BufTy
  | .hbm, ⟨0, _⟩ => ⟨S8192x1, .f32⟩
  | .hbm, ⟨1, _⟩ => ⟨S8192x1, .f32⟩
  | .hbm, ⟨2, _⟩ => ⟨S8192x1, .f32⟩
  | .hbm, ⟨3, _⟩ => ⟨S8192x1, .f32⟩
  | .hbm, ⟨4, _⟩ => ⟨S8192x1, .f32⟩
  | .hbm, ⟨5, _⟩ => ⟨S8192x1, .f32⟩
  | .hbm, ⟨6, _⟩ => ⟨S8192x256, .f32⟩
  | .hbm, ⟨7, _⟩ => ⟨S8192x256, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8192x256, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x256, .f32⟩
  | .hbm, ⟨51, _⟩ => ⟨S8192x256, .f32⟩
  | .hbm, ⟨52, _⟩ => ⟨S8192x256, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x256, .f32⟩
  | .hbm, ⟨61, _⟩ => ⟨S8192x256, .f32⟩
  | .hbm, ⟨62, _⟩ => ⟨S16384x256, .f32⟩
  | .hbm, ⟨63, _⟩ => ⟨S16384x256, .bf16⟩
  | .hbm, ⟨64, _⟩ => ⟨S16384x1, .f32⟩
  | .hbm, ⟨65, _⟩ => ⟨S8192x256, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S16384x1, .f32⟩
  | .hbm, ⟨73, _⟩ => ⟨S16384x1, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_cst_8 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_9 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_10 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_11 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_12 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_13 : Ref sig .tc := ⟨.hbm, 66, rfl⟩
abbrev main_v44 : Ref sig .tc := ⟨.hbm, 67, rfl⟩
abbrev main_v45 : Ref sig .tc := ⟨.hbm, 68, rfl⟩
abbrev main_cst_14 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_15 : Ref sig .tc := ⟨.hbm, 74, rfl⟩
abbrev main_v50 : Ref sig .tc := ⟨.hbm, 75, rfl⟩
abbrev main_cst_16 : Ref sig .tc := ⟨.hbm, 76, rfl⟩
abbrev main_v51 : Ref sig .tc := ⟨.hbm, 77, rfl⟩
abbrev main_cst_17 : Ref sig .tc := ⟨.hbm, 78, rfl⟩
abbrev main_v52 : Ref sig .tc := ⟨.hbm, 79, rfl⟩
abbrev main_v53 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v31 : BitVec 1 := Scalar.cmpi .eq arg1 c15_i32
  let v32 : BitVec 32 := Scalar.extui v31
  let c0_i32_13 : BitVec 32 := 0#32
  let v33 : BitVec 1 := Scalar.cmpi .ne v32 c0_i32_13
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S8192x1_S_d0_1 : S8192x1.ReducesTo [0, 1] S_
  h_S_ : 0 < S_.numel
  bcast_S_S8192x1 : S_.BroadcastsInDim S8192x1 (![] : Fin 0 → Fin S8192x1.rank)
  reducesTo_S8192x256_S8192_d1 : S8192x256.ReducesTo [1] S8192
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  concatenates_S8192x256_S8192x256_S16384x256_d0 : Shape.Concatenates [S8192x256, S8192x256] S16384x256 0
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  concatenates_S8192x1_S8192x1_S16384x1_d0 : Shape.Concatenates [S8192x1, S8192x1] S16384x1 0
  reducesTo_S16384x1_S_d0_1 : S16384x1.ReducesTo [0, 1] S_
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .bf16 = 32 ∨ (Rect.block (s := S16384x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S16384x256.size a
  hwx0_1 : ∀ i : grid0.Coords, EltTy.bits .bf16 = 32 ∨ (Rect.block (s := S16384x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v41) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x1 : Shape := ⟨2, ![8192, 1]⟩
abbrev S8192x256 : Shape := ⟨2, ![8192, 256]⟩
abbrev S_ : Shape := ⟨0, ![]⟩
abbrev S8192 : Shape := ⟨1, ![8192]⟩
abbrev S16384x256 : Shape := ⟨2, ![16384, 256]⟩
abbrev S256x16384 : Shape := ⟨2, ![256, 16384]⟩
abbrev S16384x16384 : Shape := ⟨2, ![16384, 16384]⟩
abbrev S16384 : Shape := ⟨1, ![16384]⟩
abbrev S16384x1 : Shape := ⟨2, ![16384, 1]⟩
abbrev S16384x2 : Shape := ⟨2, ![16384, 2]⟩

abbrev nBuf : Space → Nat
  | .hbm => 136
  | .vmem => 0
  | .smem => 0
  | _ => 0

abbrev hbmTy0_0 (i : Nat) : BufTy := match i % 128 with
  | 0 => ⟨S8192x1, .f32⟩
  | 1 => ⟨S8192x1, .f32⟩
  | 2 => ⟨S8192x1, .f32⟩
  | 3 => ⟨S8192x1, .f32⟩
  | 4 => ⟨S8192x1, .f32⟩
  | 5 => ⟨S8192x1, .f32⟩
  | 6 => ⟨S8192x256, .f32⟩
  | 7 => ⟨S8192x256, .f32⟩
  | 8 => ⟨S8192x1, .f32⟩
  | 9 => ⟨S8192x1, .f32⟩
  | 10 => ⟨S_, .f32⟩
  | 11 => ⟨S_, .f32⟩
  | 12 => ⟨S_, .f32⟩
  | 13 => ⟨S_, .f32⟩
  | 14 => ⟨S8192x1, .f32⟩
  | 15 => ⟨S8192x1, .f32⟩
  | 16 => ⟨S_, .f32⟩
  | 17 => ⟨S_, .f32⟩
  | 18 => ⟨S_, .f32⟩
  | 19 => ⟨S_, .f32⟩
  | 20 => ⟨S_, .f32⟩
  | 21 => ⟨S8192x1, .f32⟩
  | 22 => ⟨S8192x1, .f32⟩
  | 23 => ⟨S8192x1, .f32⟩
  | 24 => ⟨S8192x1, .f32⟩
  | 25 => ⟨S8192x1, .f32⟩
  | 26 => ⟨S8192x1, .f32⟩
  | 27 => ⟨S8192x1, .f32⟩
  | 28 => ⟨S8192x1, .f32⟩
  | 29 => ⟨S8192x1, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S8192x256, .f32⟩
  | 43 => ⟨S_, .f32⟩
  | 44 => ⟨S8192, .f32⟩
  | 45 => ⟨S8192x1, .f32⟩
  | 46 => ⟨S8192x1, .f32⟩
  | 47 => ⟨S_, .f32⟩
  | 48 => ⟨S8192x1, .f32⟩
  | 49 => ⟨S8192x1, .f32⟩
  | 50 => ⟨S8192x256, .f32⟩
  | 51 => ⟨S8192x256, .f32⟩
  | 52 => ⟨S8192x256, .f32⟩
  | 53 => ⟨S_, .f32⟩
  | 54 => ⟨S8192, .f32⟩
  | 55 => ⟨S8192x1, .f32⟩
  | 56 => ⟨S8192x1, .f32⟩
  | 57 => ⟨S_, .f32⟩
  | 58 => ⟨S8192x1, .f32⟩
  | 59 => ⟨S8192x1, .f32⟩
  | 60 => ⟨S8192x256, .f32⟩
  | 61 => ⟨S8192x256, .f32⟩
  | 62 => ⟨S16384x256, .f32⟩
  | 63 => ⟨S256x16384, .f32⟩
  | 64 => ⟨S16384x16384, .f32⟩
  | 65 => ⟨S_, .f32⟩
  | 66 => ⟨S16384x16384, .f32⟩
  | 67 => ⟨S16384x16384, .f32⟩
  | 68 => ⟨S16384, .i32⟩
  | 69 => ⟨S_, .i32⟩
  | 70 => ⟨S16384, .i32⟩
  | 71 => ⟨S16384, .i1⟩
  | 72 => ⟨S_, .i32⟩
  | 73 => ⟨S16384, .i32⟩
  | 74 => ⟨S16384, .i32⟩
  | 75 => ⟨S16384, .i32⟩
  | 76 => ⟨S_, .i32⟩
  | 77 => ⟨S16384, .i32⟩
  | 78 => ⟨S16384, .i1⟩
  | 79 => ⟨S_, .i32⟩
  | 80 => ⟨S16384, .i32⟩
  | 81 => ⟨S16384, .i32⟩
  | 82 => ⟨S16384, .i32⟩
  | 83 => ⟨S16384x1, .i32⟩
  | 84 => ⟨S16384x1, .i32⟩
  | 85 => ⟨S16384x2, .i32⟩
  | 86 => ⟨S_, .f32⟩
  | 87 => ⟨S16384, .f32⟩
  | 88 => ⟨S16384x16384, .f32⟩
  | 89 => ⟨S8192, .i32⟩
  | 90 => ⟨S_, .i32⟩
  | 91 => ⟨S8192, .i32⟩
  | 92 => ⟨S8192, .i32⟩
  | 93 => ⟨S8192, .i32⟩
  | 94 => ⟨S16384, .i32⟩
  | 95 => ⟨S_, .f32⟩
  | 96 => ⟨S16384, .f32⟩
  | 97 => ⟨S_, .f32⟩
  | 98 => ⟨S16384, .f32⟩
  | 99 => ⟨S16384, .f32⟩
  | 100 => ⟨S16384x1, .f32⟩
  | 101 => ⟨S16384x16384, .f32⟩
  | 102 => ⟨S16384x16384, .f32⟩
  | 103 => ⟨S16384x16384, .f32⟩
  | 104 => ⟨S_, .f32⟩
  | 105 => ⟨S16384, .f32⟩
  | 106 => ⟨S16384x1, .f32⟩
  | 107 => ⟨S16384x1, .f32⟩
  | 108 => ⟨S16384x16384, .f32⟩
  | 109 => ⟨S16384x16384, .f32⟩
  | 110 => ⟨S_, .i32⟩
  | 111 => ⟨S16384, .i32⟩
  | 112 => ⟨S16384, .i1⟩
  | 113 => ⟨S_, .i32⟩
  | 114 => ⟨S16384, .i32⟩
  | 115 => ⟨S16384, .i32⟩
  | 116 => ⟨S16384, .i32⟩
  | 117 => ⟨S_, .i32⟩
  | 118 => ⟨S16384, .i32⟩
  | 119 => ⟨S16384, .i1⟩
  | 120 => ⟨S_, .i32⟩
  | 121 => ⟨S16384, .i32⟩
  | 122 => ⟨S16384, .i32⟩
  | 123 => ⟨S16384, .i32⟩
  | 124 => ⟨S16384x1, .i32⟩
  | 125 => ⟨S16384x1, .i32⟩
  | 126 => ⟨S16384x2, .i32⟩
  | 127 => ⟨S16384, .f32⟩
  | _ => ⟨S8192x1, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | _ => ⟨S8192x1, .f32⟩

abbrev hbmTy (i : Nat) : BufTy := match i / 128 with
  | 0 => hbmTy0_0 i
  | 1 => hbmTy0_1 i
  | _ => ⟨S8192x1, .f32⟩

abbrev bufTy : (tb : Table) → Fin (tcTables nBuf tb) → BufTy
  | .hbm, ⟨i, _⟩ => hbmTy i
  | _, _ => ⟨S8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_cst_8 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_9 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_10 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_11 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_12 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_13 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c : Ref sig .tc := ⟨.hbm, 69, rfl⟩
abbrev main_v46 : Ref sig .tc := ⟨.hbm, 70, rfl⟩
abbrev main_v47 : Ref sig .tc := ⟨.hbm, 71, rfl⟩
abbrev main_c_14 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_15 : Ref sig .tc := ⟨.hbm, 76, rfl⟩
abbrev main_v51 : Ref sig .tc := ⟨.hbm, 77, rfl⟩
abbrev main_v52 : Ref sig .tc := ⟨.hbm, 78, rfl⟩
abbrev main_c_16 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_17 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_18 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_call0_cst : Ref sig .tc := ⟨.hbm, 95, rfl⟩
abbrev main_call0_v0 : Ref sig .tc := ⟨.hbm, 96, rfl⟩
abbrev main_call0_cst_0 : Ref sig .tc := ⟨.hbm, 97, rfl⟩
abbrev main_call0_v1 : Ref sig .tc := ⟨.hbm, 98, rfl⟩
abbrev main_call0_v2 : Ref sig .tc := ⟨.hbm, 99, rfl⟩
abbrev main_call0_v3 : Ref sig .tc := ⟨.hbm, 100, rfl⟩
abbrev main_call0_v4 : Ref sig .tc := ⟨.hbm, 101, rfl⟩
abbrev main_call0_v5 : Ref sig .tc := ⟨.hbm, 102, rfl⟩
abbrev main_call0_v6 : Ref sig .tc := ⟨.hbm, 103, rfl⟩
abbrev main_call0_cst_1 : Ref sig .tc := ⟨.hbm, 104, rfl⟩
abbrev main_call0_v7 : Ref sig .tc := ⟨.hbm, 105, rfl⟩
abbrev main_call0_v8 : Ref sig .tc := ⟨.hbm, 106, rfl⟩
abbrev main_call0_v9 : Ref sig .tc := ⟨.hbm, 107, rfl⟩
abbrev main_call0_v10 : Ref sig .tc := ⟨.hbm, 108, rfl⟩
abbrev main_v66 : Ref sig .tc := ⟨.hbm, 109, rfl⟩
abbrev main_c_19 : Ref sig .tc := ⟨.hbm, 110, rfl⟩
abbrev main_v67 : Ref sig .tc := ⟨.hbm, 111, rfl⟩
abbrev main_v68 : Ref sig .tc := ⟨.hbm, 112, rfl⟩
abbrev main_c_20 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_c_21 : Ref sig .tc := ⟨.hbm, 117, rfl⟩
abbrev main_v72 : Ref sig .tc := ⟨.hbm, 118, rfl⟩
abbrev main_v73 : Ref sig .tc := ⟨.hbm, 119, rfl⟩
abbrev main_c_22 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_cst_23 : Ref sig .tc := ⟨.hbm, 128, rfl⟩
abbrev main_v81 : Ref sig .tc := ⟨.hbm, 129, rfl⟩
abbrev main_cst_24 : Ref sig .tc := ⟨.hbm, 130, rfl⟩
abbrev main_v82 : Ref sig .tc := ⟨.hbm, 131, rfl⟩
abbrev main_v83 : Ref sig .tc := ⟨.hbm, 132, rfl⟩
abbrev main_cst_25 : Ref sig .tc := ⟨.hbm, 133, rfl⟩
abbrev main_v84 : Ref sig .tc := ⟨.hbm, 134, rfl⟩
abbrev main_v85 : Ref sig .tc := ⟨.hbm, 135, rfl⟩

abbrev nD : Nat := 1
abbrev τ : Topo := Topo.v7x

variable {F : FTy → Type} [FloatOps F]

class Facts₀ : Prop where
  reducesTo_S8192x1_S_d0_1 : S8192x1.ReducesTo [0, 1] S_
  h_S_ : 0 < S_.numel
  bcast_S_S8192x1 : S_.BroadcastsInDim S8192x1 (![] : Fin 0 → Fin S8192x1.rank)
  reducesTo_S8192x256_S8192_d1 : S8192x256.ReducesTo [1] S8192
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  concatenates_S8192x256_S8192x256_S16384x256_d0 : Shape.Concatenates [S8192x256, S8192x256] S16384x256 0
  transposes_S16384x256_S256x16384_1_0 : S16384x256.Transposes [1, 0] S256x16384
  bcast_S_S16384x16384 : S_.BroadcastsInDim S16384x16384 (![] : Fin 0 → Fin S16384x16384.rank)
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  bcast_S_S8192 : S_.BroadcastsInDim S8192 (![] : Fin 0 → Fin S8192.rank)
  concatenates_S8192_S8192_S16384_d0 : Shape.Concatenates [S8192, S8192] S16384 0
  reducesTo_S16384x16384_S16384_d1 : S16384x16384.ReducesTo [1] S16384
  bcast_S16384x1_S16384x16384_0_1 : S16384x1.BroadcastsInDim S16384x16384 (![0, 1] : Fin 2 → Fin S16384x16384.rank)
  reducesTo_S16384_S_d0 : S16384.ReducesTo [0] S_
  dot_S16384x256_S256x16384_S16384x16384_1_0_0_1_n_n_wf : DotDims.WF S16384x256 S256x16384 S16384x16384 [1] [0] [0] [1] [] []
  scatter_S16384x16384_S16384x2_S16384_n_01_01_1_wf : ScatterDims.WF S16384x16384 S16384x2 S16384 [] [0, 1] [0, 1] 1
  gather_S16384x16384_S16384x2_S16384_n_01_n_n_01_1_11_wf : GatherDims.WF S16384x16384 S16384x2 S16384 [] [0, 1] [] [0, 1] [] 1 ![1, 1]

variable [Facts₀]

def dot_S16384x256_S256x16384_S16384x16384_1_0_0_1_n_n : DotDims S16384x256 S256x16384 S16384x16384 where
  lhsContracting := [1]
  rhsContracting := [0]
  lhsNonContracting := [0]
  rhsNonContracting := [1]
  lhsBatch := []
  rhsBatch := []
  wf := dot_S16384x256_S256x16384_S16384x16384_1_0_0_1_n_n_wf
def scatter_S16384x16384_S16384x2_S16384_n_01_01_1 : ScatterDims S16384x16384 S16384x2 S16384 where
  updateWindowDims := []
  insertedWindowDims := [0, 1]
  scatterDimsToOperandDims := [0, 1]
  indexVectorDim := 1
  wf := scatter_S16384x16384_S16384x2_S16384_n_01_01_1_wf
def gather_S16384x16384_S16384x2_S16384_n_01_n_n_01_1_11 : GatherDims S16384x16384 S16384x2 S16384 where
  offsetDims := []
  collapsedSliceDims := [0, 1]
  operandBatchingDims := []
  startIndicesBatchingDims := []
  startIndexMap := [0, 1]
  indexVectorDim := 1
  sliceSizes := ![1, 1]
  wf := gather_S16384x16384_S16384x2_S16384_n_01_n_n_01_1_11_wf

class Facts : Prop extends Facts₀ where

variable [Facts]
-- ==== Proof.RowBlocks.lean ====
/-
  The row-wise log-sum-exp kernel walks a 16 x 16 grid: point t = 16·i + j takes the i-th block of 1024 rows
  of the normalised matrix Z (window 0) against the j-th block of 1024 rows of the same matrix (window 1), and
  adds, for each of its rows, the sum over the block's 1024 columns of exp(s − μ) to a running row total kept in
  a scratch column; the total is reset when j = 0 and turned into μ + log(total), the block of results (window
  2), when j = 15.

  This module fixes what every later module speaks of: the memory the region is entered from (the 56 host
  lines before it have run), that @main is those lines, the region, and 16 more lines; the block of each
  window at a point; that an input window's staging buffer holds its block at EVERY point (the row block is
  fetched only when i advances, and is still there for j > 0); the two branch conditions as residues of t
  modulo 16; and where the result window is untouched.
-/
import proofs.«138523_j48455821033481_2_alg».proof.Proof.Gen.KernelIdeal.Skeleton
import proofs.«138523_j48455821033481_2_alg».proof.Proof.Gen.KernelIdeal.Launch
import proofs.«138523_j48455821033481_2_alg».proof.Proof.Gen.KernelIdeal.Points
import Idealize.ShloMosaic.Lib.Pipeline.FrameSuffix
import Idealize.ShloMosaic.Lib.Pipeline.FrameBody
import Idealize.ShloMosaic.Lib.Tactic

set_option maxRecDepth 16384

noncomputable section

namespace Cert.KernelIdeal.RowLse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- The memory the region is entered from, as a valuation: the 56 host lines before it have run. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the lines before the region, the region, and the lines after it: it reduces to the region continued
    by the later lines, entered from `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub
    hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row block's staging buffer holds the row block at every point: it is fetched when the row index advances
    and not touched by the body, so for the later columns of the same row block it is still there. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column block's staging buffer holds the column block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions -/

/-- "This is the first column block": the running totals are reset. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 16 = 0 :=
  (by decide +kernel : ∀ t : Fin grid0.N, condFirst (grid0.coords t) ↔ t.val % 16 = 0)

/-- "This is the last column block": the totals are turned into the results. -/
abbrev condLast (i : grid0.Coords) : Prop := k0_cond2 i = 1#1
theorem hcondLast : ∀ t : Fin cfg0.N, condLast (grid0.coords t) ↔ t.val % 16 = 15 :=
  (by decide +kernel : ∀ t : Fin grid0.N, condLast (grid0.coords t) ↔ t.val % 16 = 15)

/-! ## Where the windows are untouched -/

theorem liveAt0_0 : ∀ t : Fin cfg0.N, cfg0.idle 0 (grid0.coords t) = false := by decide +kernel
theorem liveAt0_1 : ∀ t : Fin cfg0.N, cfg0.idle 1 (grid0.coords t) = false := by decide +kernel
/-- Before the last column block nothing is stored into the result window, and it is not written back. -/
theorem idleAt0_2 : ∀ t : Fin cfg0.N, ¬condLast (grid0.coords t) → cfg0.idle 2 (grid0.coords t) = true := by decide +kernel
theorem noFlush0_2 : ∀ t : Fin cfg0.N, ¬condLast (grid0.coords t) → (cfg0.win 2).flush t = false := by decide +kernel
/-- At the last column block it is stored whole. -/
theorem liveAt0_2 : ∀ t : Fin cfg0.N, condLast (grid0.coords t) → cfg0.idle 2 (grid0.coords t) = false := by decide +kernel

/-! ## The memrefs the body is called with -/

abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The column of running row totals. -/
abbrev scM : Memref sig .tc .vmem S1024x1 .f32 := Memref.whole cc0_scratch0
abbrev VS : View sig .tc .vmem S1024x1 .f32 := scM.view
/-- One staging buffer of the result window, through which its contents are stated. -/
abbrev VO : View sig .tc .vmem S1024x1 .f32 := (Memref.whole cc0_stg2_0 : Memref sig .tc .vmem S1024x1 .f32).view

/-- What the region's invariant holds between points when nothing is said of the totals: the column at some
    contents and the generator register. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.RowLse

end
-- ==== Proof.ColFirst.lean ====
/-
  The body at a FIRST column block (j = 0) that is not also the last: the column of running totals is reset to zero, then the block's row sums are added to it; the result window is not touched.
-/
import proofs.«138523_j48455821033481_2_alg».proof.Proof.RowBlocks

set_option maxRecDepth 16384

noncomputable section

namespace Cert.KernelIdeal.RowLse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the result window's buffer (`L2`) and in the column of running totals
    (`LS`), with the proof that from whole memrefs — the two input blocks at their contents `x0`, `x1` — the body
    runs to its end holding the inputs as they were and those pieces written. -/
noncomputable def runFirst (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : condFirst i) (hc1 : ¬condLast i)
    (x0 : Vec F S1024x256 .bf16) (x1 : Vec F S1024x256 .bf16) :
    Σ' (L2 : List (View.Piece (Elt F) S1024x1 .f32)), { LS : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__lse_kernel i arg2 harg2 arg3 harg3 arg4 harg4 arg5 harg5) K } := by
  refine ⟨[], ?_, fun xi2 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.RowLse

end
-- ==== Proof.ColMiddle.lean ====
/-
  The body at a MIDDLE column block (0 < j < 15): the block's row sums are added to the running totals the column block before left; the result window is not touched.
-/
import proofs.«138523_j48455821033481_2_alg».proof.Proof.RowBlocks

set_option maxRecDepth 16384

noncomputable section

namespace Cert.KernelIdeal.RowLse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the result window's buffer (`L2`) and in the column of running totals
    (`LS`), with the proof that from whole memrefs — the two input blocks at their contents `x0`, `x1` — the body
    runs to its end holding the inputs as they were and those pieces written. -/
noncomputable def runMiddle (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬condFirst i) (hc1 : ¬condLast i)
    (x0 : Vec F S1024x256 .bf16) (x1 : Vec F S1024x256 .bf16) (xs : Vec F S1024x1 .f32) :
    Σ' (L2 : List (View.Piece (Elt F) S1024x1 .f32)), { LS : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__lse_kernel i arg2 harg2 arg3 harg3 arg4 harg4 arg5 harg5) K } := by
  refine ⟨[], ?_, fun xi2 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.RowLse

end
-- ==== Proof.ColLast.lean ====
/-
  The body at the LAST column block (j = 15): the block's row sums are added to the running totals, and the shift plus the logarithm of the totals is stored, whole, into the result window.
-/
import proofs.«138523_j48455821033481_2_alg».proof.Proof.RowBlocks

set_option maxRecDepth 16384

noncomputable section

namespace Cert.KernelIdeal.RowLse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the result window's buffer (`L2`) and in the column of running totals
    (`LS`), with the proof that from whole memrefs — the two input blocks at their contents `x0`, `x1` — the body
    runs to its end holding the inputs as they were and those pieces written. -/
noncomputable def runLast (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬condFirst i) (hc1 : condLast i)
    (x0 : Vec F S1024x256 .bf16) (x1 : Vec F S1024x256 .bf16) (xs : Vec F S1024x1 .f32) :
    Σ' (L2 : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__lse_kernel i arg2 harg2 arg3 harg3 arg4 harg4 arg5 harg5) K } := by
  refine ⟨?_, ?_, fun E K => ?run⟩
  case run =>
    simp only [cc0__lse_kernel_eq_skeleton]; unfold cc0__lse_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.RowLse

end
-- ==== Proof.Accumulate.lean ====
/-
  What the result window's buffer and the column of running row totals hold after each grid point, by recursion
  on the point: at a first column block (t ≡ 0 mod 16) the totals are the block's row sums over zero; at a later
  one they are the block's row sums over what the point before left; at the last (t ≡ 15 mod 16) the result
  block is stored from them. With that, the proof data of the pipeline (each input's buffer at its block, the
  result's at what the recursion says, the invariant carrying the totals from point to point) and the body
  obligation at every point: the residues of t select the case, and the case's run applies.
-/
import proofs.«138523_j48455821033481_2_alg».proof.Proof.ColFirst
import proofs.«138523_j48455821033481_2_alg».proof.Proof.ColMiddle
import proofs.«138523_j48455821033481_2_alg».proof.Proof.ColLast
import Idealize.ShloMosaic.Lib.Ring

set_option maxRecDepth 16384

noncomputable section

namespace Cert.KernelIdeal.RowLse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each case leaves -/

/-- A first column block stores nothing into the result window: a placeholder nothing consults. -/
def outFirst (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : condFirst i) (hc1 : ¬condLast i) (x0 : Vec F S1024x256 .bf16) (x1 : Vec F S1024x256 .bf16) : Vec F S1024x1 .f32 :=
  VO.read (Elt F) (VO.writes (Elt F) VO.junk (runFirst c i arg2 harg2 arg3 harg3 arg4 harg4 arg5 harg5 hc0 hc1 x0 x1).1)
theorem scoverFirst (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : condFirst i) (hc1 : ¬condLast i) (x0 : Vec F S1024x256 .bf16) (x1 : Vec F S1024x256 .bf16) (y : S1024x1.Idx) :
    ∃ pc ∈ (runFirst c i arg2 harg2 arg3 harg3 arg4 harg4 arg5 harg5 hc0 hc1 x0 x1).2.1, y ∈ pc.1.set :=
  View.cover_of_tiledL (runFirst c i arg2 harg2 arg3 harg3 arg4 harg4 arg5 harg5 hc0 hc1 x0 x1).2.1 S1024x1.size (by sl_kernel_rfl) y
/-- The totals after a first column block. -/
def totFirst (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : condFirst i) (hc1 : ¬condLast i) (x0 : Vec F S1024x256 .bf16) (x1 : Vec F S1024x256 .bf16) : Vec F S1024x1 .f32 :=
  VS.read (Elt F) (VS.writes (Elt F) VS.junk (runFirst c i arg2 harg2 arg3 harg3 arg4 harg4 arg5 harg5 hc0 hc1 x0 x1).2.1)

def outMiddle (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬condFirst i) (hc1 : ¬condLast i) (x0 : Vec F S1024x256 .bf16) (x1 : Vec F S1024x256 .bf16) (xs : Vec F S1024x1 .f32) : Vec F S1024x1 .f32 :=
  VO.read (Elt F) (VO.writes (Elt F) VO.junk (runMiddle c i arg2 harg2 arg3 harg3 arg4 harg4 arg5 harg5 hc0 hc1 x0 x1 xs).1)
theorem scoverMiddle (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬condFirst i) (hc1 : ¬condLast i) (x0 : Vec F S1024x256 .bf16) (x1 : Vec F S1024x256 .bf16) (xs : Vec F S1024x1 .f32) (y : S1024x1.Idx) :
    ∃ pc ∈ (runMiddle c i arg2 harg2 arg3 harg3 arg4 harg4 arg5 harg5 hc0 hc1 x0 x1 xs).2.1, y ∈ pc.1.set :=
  View.cover_of_tiledL (runMiddle c i arg2 harg2 arg3 harg3 arg4 harg4 arg5 harg5 hc0 hc1 x0 x1 xs).2.1 S1024x1.size (by sl_kernel_rfl) y
/-- The totals after a middle column block, over the totals `xs` it found. -/
def totMiddle (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬condFirst i) (hc1 : ¬condLast i) (x0 : Vec F S1024x256 .bf16) (x1 : Vec F S1024x256 .bf16) (xs : Vec F S1024x1 .f32) : Vec F S1024x1 .f32 :=
  VS.read (Elt F) (VS.writes (Elt F) VS.junk (runMiddle c i arg2 harg2 arg3 harg3 arg4 harg4 arg5 harg5 hc0 hc1 x0 x1 xs).2.1)

theorem coverLast (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬condFirst i) (hc1 : condLast i) (x0 : Vec F S1024x256 .bf16) (x1 : Vec F S1024x256 .bf16) (xs : Vec F S1024x1 .f32) (y : S1024x1.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1024x1.size (by sl_kernel_rfl) y
/-- The result block the last column block stores. -/
def outLast (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬condFirst i) (hc1 : condLast i) (x0 : Vec F S1024x256 .bf16) (x1 : Vec F S1024x256 .bf16) (xs : Vec F S1024x1 .f32) : Vec F S1024x1 .f32 :=
  VO.read (Elt F) (VO.writes (Elt F) VO.junk (runLast c i arg2 harg2 arg3 harg3 arg4 harg4 arg5 harg5 hc0 hc1 x0 x1 xs).1)
theorem scoverLast (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬condFirst i) (hc1 : condLast i) (x0 : Vec F S1024x256 .bf16) (x1 : Vec F S1024x256 .bf16) (xs : Vec F S1024x1 .f32) (y : S1024x1.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S1024x1.size (by sl_kernel_rfl) y
def totLast (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬condFirst i) (hc1 : condLast i) (x0 : Vec F S1024x256 .bf16) (x1 : Vec F S1024x256 .bf16) (xs : Vec F S1024x1 .f32) : Vec F S1024x1 .f32 :=
  VS.read (Elt F) (VS.writes (Elt F) VS.junk (runLast c i arg2 harg2 arg3 harg3 arg4 harg4 arg5 harg5 hc0 hc1 x0 x1 xs).2.1)

/-! ## The accumulation, point by point -/

/-- After the body at position `n`: (the result window's buffer, the column of running totals). -/
def outsAt (c : Dev nD) : (n : ℕ) → n < cfg0.N → Vec F S1024x1 .f32 × Vec F S1024x1 .f32
  | 0, hn => (outFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩),
      totFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩))
  | n + 1, hn =>
    if h0 : (n + 1) % 16 = 0 then
      if h1 : (n + 1) % 16 = 15 then
        False.elim (by omega)
      else
        (outFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩),
          totFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩))
    else
      if h1 : (n + 1) % 16 = 15 then
        (outLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (outsAt c n (Nat.lt_of_succ_lt hn)).2,
          totLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (outsAt c n (Nat.lt_of_succ_lt hn)).2)
      else
        (outMiddle c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (outsAt c n (Nat.lt_of_succ_lt hn)).2,
          totMiddle c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (outsAt c n (Nat.lt_of_succ_lt hn)).2)

theorem outsAt_First (c : Dev nD) (t : Fin cfg0.N) (h0 : t.val % 16 = 0) (h1 : ¬t.val % 16 = 15) :
    outsAt m c t.val t.isLt = (outFirst c (grid0.coords t) (ms0_0 t) (hs0_0 t) (ms0_1 t) (hs0_1 t) (ms0_2 t) (hs0_2 t) scM (Memref.isWhole_whole _) ((hcondFirst t).mpr h0) (fun h => h1 ((hcondLast t).mp h)) (iblk m c 0 t) (iblk m c 1 t),
      totFirst c (grid0.coords t) (ms0_0 t) (hs0_0 t) (ms0_1 t) (hs0_1 t) (ms0_2 t) (hs0_2 t) scM (Memref.isWhole_whole _) ((hcondFirst t).mpr h0) (fun h => h1 ((hcondLast t).mp h)) (iblk m c 0 t) (iblk m c 1 t)) := by
  obtain ⟨n, hn⟩ := t
  cases n with
  | zero => exact rfl
  | succ n => exact (dif_pos h0).trans ((dif_neg h1).trans rfl)

theorem outsAt_Middle (c : Dev nD) (t : Fin cfg0.N) (h0 : ¬t.val % 16 = 0) (h1 : ¬t.val % 16 = 15) :
    outsAt m c t.val t.isLt = (outMiddle c (grid0.coords t) (ms0_0 t) (hs0_0 t) (ms0_1 t) (hs0_1 t) (ms0_2 t) (hs0_2 t) scM (Memref.isWhole_whole _) (fun h => h0 ((hcondFirst t).mp h)) (fun h => h1 ((hcondLast t).mp h)) (iblk m c 0 t) (iblk m c 1 t) (outsAt m c (t.val - 1) (Nat.lt_of_le_of_lt (Nat.sub_le _ _) t.isLt)).2,
      totMiddle c (grid0.coords t) (ms0_0 t) (hs0_0 t) (ms0_1 t) (hs0_1 t) (ms0_2 t) (hs0_2 t) scM (Memref.isWhole_whole _) (fun h => h0 ((hcondFirst t).mp h)) (fun h => h1 ((hcondLast t).mp h)) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_Last (c : Dev nD) (t : Fin cfg0.N) (h0 : ¬t.val % 16 = 0) (h1 : t.val % 16 = 15) :
    outsAt m c t.val t.isLt = (outLast c (grid0.coords t) (ms0_0 t) (hs0_0 t) (ms0_1 t) (hs0_1 t) (ms0_2 t) (hs0_2 t) scM (Memref.isWhole_whole _) (fun h => h0 ((hcondFirst t).mp h)) ((hcondLast t).mpr h1) (iblk m c 0 t) (iblk m c 1 t) (outsAt m c (t.val - 1) (Nat.lt_of_le_of_lt (Nat.sub_le _ _) t.isLt)).2,
      totLast c (grid0.coords t) (ms0_0 t) (hs0_0 t) (ms0_1 t) (hs0_1 t) (ms0_2 t) (hs0_2 t) scM (Memref.isWhole_whole _) (fun h => h0 ((hcondFirst t).mp h)) ((hcondLast t).mpr h1) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point nothing is said of the totals; afterwards
    the column holds what the point before left. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The pipeline's proof data -/

/-- The two input windows read ONE array, the normalised matrix: each holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt m c t.val t.isLt).1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the residue of `t` modulo 16 says which case the
    point is in; the invariant hands the body the running totals the point before left (anything, at a first
    column block) and takes them back as this point leaves them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcondLast t).mp h))) (noFlush0_2 t (fun h => h1 ((hcondLast t).mp h)))]
      rw [outsAt_First m c t h0 h1]
      unfold totFirst; (try dsimp only)
      by_cases hz : t.val = 0
      · rw [PhiS_castSucc m c t, PhiS_zero m c _ _ hz, PhiA0_eq]
        iintro ⟨⟨HS, Hg⟩, Ho, ⟨%d0, H0⟩, ⟨%d1, H1⟩, ⟨%d2, H2⟩⟩
        iapply ((runFirst c (grid0.coords t) _ _ _ _ _ _ _ _ ((hcondFirst t).mpr h0) (fun h => h1 ((hcondLast t).mp h)) (iblk m c 0 t) (iblk m c 1 t)).2.2 _ Set.univ _)
        isplitl [H0]; · iexact H0
        isplitl [H1]; · iexact H1
        isplitl [H2]; · iexact H2
        isplitl [HS]; · iexact HS
        iintro ⟨H0, H1, H2, ⟨%es, HS⟩⟩
        isplitl [HS Hg]
        · isplitl [HS]
          · unfold owns; iexists _; isplitr
            swap; · iexact HS
            ipureintro; exact View.read_writes_of_cover _ _ _ _ _ (scoverFirst c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS, Hg⟩, Ho, ⟨%d0, H0⟩, ⟨%d1, H1⟩, ⟨%d2, H2⟩⟩
        iapply ((runFirst c (grid0.coords t) _ _ _ _ _ _ _ _ ((hcondFirst t).mpr h0) (fun h => h1 ((hcondLast t).mp h)) (iblk m c 0 t) (iblk m c 1 t)).2.2 _ Set.univ _)
        isplitl [H0]; · iexact H0
        isplitl [H1]; · iexact H1
        isplitl [H2]; · iexact H2
        isplitl [HS]; · iexists _; iexact HS
        iintro ⟨H0, H1, H2, ⟨%es, HS⟩⟩
        isplitl [HS Hg]
        · isplitl [HS]
          · unfold owns; iexists _; isplitr
            swap; · iexact HS
            ipureintro; exact View.read_writes_of_cover _ _ _ _ _ (scoverFirst c _ _ _ _ _ _ _ _ _ _ _ _ _)
          iexact Hg
        isplitl [Ho]; · iexact Ho
        isplitl [H0]; · iexact H0
        isplitl [H1]; · iexact H1
        iexists _; iexact H2
  · by_cases h1 : t.val % 16 = 15
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t ((hcondLast t).mpr h1)], after0_2]
      rw [outsAt_Last m c t h0 h1]
      unfold outLast totLast; (try dsimp only)
      by_cases hz : t.val = 0
      · exfalso; omega
      · rw [PhiS_castSucc m c t, PhiS_pos m c _ _ hz]
        iintro ⟨⟨HS, Hg⟩, Ho, ⟨%d0, H0⟩, ⟨%d1, H1⟩, ⟨%d2, H2⟩⟩
        iapply ((runLast c (grid0.coords t) _ _ _ _ _ _ _ _ (fun h => h0 ((hcondFirst t).mp h)) ((hcondLast t).mpr h1) (iblk m c 0 t) (iblk m c 1 t) _).2.2 Set.univ _)
        isplitl [H0]; · iexact H0
        isplitl [H1]; · iexact H1
        isplitl [H2]; · iexists _; iexact H2
        isplitl [HS]; · iexact HS
        iintro ⟨H0, H1, ⟨%e2, H2⟩, ⟨%es, HS⟩⟩
        isplitl [HS Hg]
        · isplitl [HS]
          · unfold owns; iexists _; isplitr
            swap; · iexact HS
            ipureintro; exact View.read_writes_of_cover _ _ _ _ _ (scoverLast c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (coverLast c _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcondLast t).mp h))) (noFlush0_2 t (fun h => h1 ((hcondLast t).mp h)))]
      rw [outsAt_Middle m c t h0 h1]
      unfold totMiddle; (try dsimp only)
      by_cases hz : t.val = 0
      · exfalso; omega
      · rw [PhiS_castSucc m c t, PhiS_pos m c _ _ hz]
        iintro ⟨⟨HS, Hg⟩, Ho, ⟨%d0, H0⟩, ⟨%d1, H1⟩, ⟨%d2, H2⟩⟩
        iapply ((runMiddle c (grid0.coords t) _ _ _ _ _ _ _ _ (fun h => h0 ((hcondFirst t).mp h)) (fun h => h1 ((hcondLast t).mp h)) (iblk m c 0 t) (iblk m c 1 t) _).2.2 _ Set.univ _)
        isplitl [H0]; · iexact H0
        isplitl [H1]; · iexact H1
        isplitl [H2]; · iexact H2
        isplitl [HS]; · iexact HS
        iintro ⟨H0, H1, H2, ⟨%es, HS⟩⟩
        isplitl [HS Hg]
        · isplitl [HS]
          · unfold owns; iexists _; isplitr
            swap; · iexact HS
            ipureintro; exact View.read_writes_of_cover _ _ _ _ _ (scoverMiddle c _ _ _ _ _ _ _ _ _ _ _ _ _ _)
          iexact Hg
        isplitl [Ho]; · iexact Ho
        isplitl [H0]; · iexact H0
        isplitl [H1]; · iexact H1
        iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives that back: the totals' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 256 := N_0; omega)

end Cert.KernelIdeal.RowLse

end
-- ==== Proof.RegionLaunch.lean ====
/-
  The launch. The region's three windows stand on TWO arrays: the normalised matrix (bf16), read both as the
  row block and as the column block, and the column of results. At the region's entry the matrix' buffer is
  dealt to the two input windows in halves; at its exit the halves, both still at the contents the region was
  entered with (an input array is never written), are put together again, and the 16 host lines after the
  region run over the two arrays and the buffers that bypassed the region. The run: every weakly fair
  execution of @main terminates, the arrays end at what the write-backs left, every other buffer at what
  the host lines leave.
-/
import proofs.«138523_j48455821033481_2_alg».proof.Proof.Accumulate
import Idealize.ShloMosaic.Lib.Pipeline.FrameSuffix

set_option maxRecDepth 16384

noncomputable section

namespace Cert.KernelIdeal.RowLse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (arrRef arrBufs arrPts withArrays unscopedRestP tail_seqs)
variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The two arrays behind the three windows -/

/-- One window per array: the row-block window for the matrix, the result window for the results. -/
abbrev spec2 : Fin 2 → Pipeline.WinSpec sig grid0.rank := fun | 0 => spec0 0 | 1 => spec0 2 | ⟨_ + 2, h⟩ => absurd h (Nat.not_lt.2 (Nat.le_add_left _ _))
theorem arr_inj2 : Function.Injective (arrRef spec2) := by decide
theorem arr_unscoped2 : ∀ w, (arrRef spec2 w).isScoped = false := by decide
theorem arr_image2 : Finset.univ.image (arrRef spec2) = Finset.univ.image (arrRef spec0) := by decide

theorem share0 (c : Dev nD) : (dats m 0 c).share 0 = fullShare.left := rfl
theorem share1 (c : Dev nD) : (dats m 0 c).share 1 = fullShare.right := rfl
theorem share2 (c : Dev nD) : (dats m 0 c).share 2 = fullShare := rfl

/-- The arrays at contents `Fa`, window by window: two halves of the matrix' buffer and the results' buffer. -/
theorem arrays_eq3 (c : Dev nD) (Fa) :
    ((dats m 0 c).arrays Fa : sProp 𝕄)
      = iprop((((c : Thread nD τ).loc main_v41) ↦{fullShare.left} Fa 0) ∗ (((c : Thread nD τ).loc main_v41) ↦{fullShare.right} Fa 1)
          ∗ (((c : Thread nD τ).loc main_v42) ↦{fullShare} Fa 2)) := by
  unfold Dat.arrays
  rw [bigSep_W0, (arr_whole0 0).set_eq_univ, (arr_whole0 2).set_eq_univ, share0, share1, share2]

/-- ENTRY: the matrix' buffer, whole at the entry contents, is dealt to the two input windows in halves. -/
theorem hsplit (c : Dev nD) : (arrBufs spec0 c (V m c) : sProp 𝕄) ⊢ (dats m 0 c).arrays ((dats m 0 c).arrAt · 0) := by
  rw [arrays_eq3]
  unfold arrBufs
  rw [bigSep_eq_bigSepL_of_eq [main_v41, main_v42] (by decide) (by decide)]
  show iprop((((c : Thread nD τ).loc main_v41) ↦{fullShare} V m c main_v41) ∗ (((c : Thread nD τ).loc main_v42) ↦{fullShare} V m c main_v42)) ⊢ _
  iintro ⟨H41, H42⟩
  ihave H := (pointsTo_share (PosShare.mem_left_op_right fullShare)).1 $$ H41
  icases H with ⟨HL, HR⟩
  isplitl [HL]; · iexact HL
  isplitl [HR]; · iexact HR
  iexact H42

/-! ## The lines after the region -/

/-- The two arrays' contents when the region is left. -/
def finalArr (c : Dev nD) : (w : Fin 2) → Buf (Elt F) ((spec2 w).arr.view.loc (c : Thread nD τ))
  | 0 => (dats m 0 c).arrAt 0 cfg0.N
  | 1 => (dats m 0 c).arrAt 2 cfg0.N
  | ⟨_ + 2, h⟩ => absurd h (Nat.not_lt.2 (Nat.le_add_left _ _))

/-- Every TensorCore buffer after the 16 host lines that follow the region. -/
def afterTail (c : Dev nD) (b : Ref sig .tc) : Buf (Elt F) ((c : Thread nD τ).loc b) :=
  StableHlo.after ([hostOps1] : List (List (HloOp τ sig (Elt F)))).flatten (withArrays spec2 c (V0 m c) (finalArr m c)) (Proc.devRef .tc b)

theorem sfx_sub : ∀ ops ∈ ([hostOps1] : List (List (HloOp τ sig (Elt F)))), ∀ op ∈ ops,
    op.bufs ⊆ Pipeline.tailRefs sig Pipeline.Prefetch.none spec2 := by
  rw [Pipeline.tailRefs_none spec2 arr_unscoped2]
  intro ops hops op hop
  simp only [List.mem_cons, List.mem_nil_iff, or_false] at hops
  rcases hops with rfl
  · exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- The lines write neither the matrix nor the results. -/
theorem sfx_keeps : ∀ ops ∈ ([hostOps1] : List (List (HloOp τ sig (Elt F)))), ∀ op ∈ ops,
    ∀ w, Proc.devRef .tc (arrRef spec2 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, Finset.mem_singleton] <;> exact StableHlo.devRef_ne_of_ne (by decide)

theorem restP_eq (c : Dev nD) (W : (b : Ref sig .tc) → Buf (Elt F) ((c : Thread nD τ).loc b)) :
    (unscopedRestP Pipeline.Prefetch.none spec0 c W : sProp 𝕄) = unscopedRestP Pipeline.Prefetch.none spec2 c W := by
  unfold unscopedRestP; rw [arr_image2]

theorem arrPts2 (c : Dev nD) (A : (w : Fin 2) → Buf (Elt F) ((spec2 w).arr.view.loc (c : Thread nD τ))) :
    (arrPts spec2 c A : sProp 𝕄) = iprop((((c : Thread nD τ).loc main_v41) ↦{fullShare} A 0) ∗ (((c : Thread nD τ).loc main_v42) ↦{fullShare} A 1)) := by
  unfold arrPts
  rw [bigSep_univ_eq_bigSepL [(0 : Fin 2), (1 : Fin 2)] (by decide) (by decide)]
  rfl

/-- EXIT: the halves of the matrix' buffer are put together, and the host lines run over the two arrays and
    the bypassing buffers; what they leave is dealt out again. -/
theorem htail (c : Dev nD) (Q' : PUnit → sProp 𝕄) :
    iprop((iprop((dats m 0 c).arrays ((dats m 0 c).arrAt · cfg0.N) ∗ unscopedRestP Pipeline.Prefetch.none spec0 c (afterTail m c)) -∗ Q' ⟨⟩)
        ∗ boundary (c : Thread nD τ) ∗ (dats m 0 c).arrays ((dats m 0 c).arrAt · cfg0.N) ∗ unscopedRestP Pipeline.Prefetch.none spec0 c (V m c))
      ⊢ wp frame (wpE (Pipeline.defs (fun q => (cfgs q).toPCfg (Val := Elt F)) defs₀) (Variants.lift Variants.none) (c : Thread nD τ) none) Set.univ
          (Pipeline.chain [StableHlo.seq hostOps1]) Q' := by
  have e1 : (dats m 0 c).arrAt 1 cfg0.N = (dats m 0 c).arrAt 0 cfg0.N :=
    ((dats m 0 c).arrAt_in 1 rfl _).trans ((dats m 0 c).arrAt_in 0 rfl _).symm
  rw [arrays_eq3, restP_eq, restP_eq, e1]
  iintro ⟨Hk, Hb, ⟨HL, HR, H42⟩, HZ⟩
  ihave H41 := (pointsTo_share (PosShare.mem_left_op_right fullShare)).2 $$ [HL HR]
  · isplitl [HL]; · iexact HL
    iexact HR
  iapply (tail_seqs (fun q => (cfgs q).toPCfg (Val := Elt F)) defs₀ Variants.none Pipeline.Prefetch.none spec2 arr_inj2 c (V0 m c) (finalArr m c)
    [hostOps1] sfx_sub sfx_fresh sfx_keeps Q')
  rw [arrPts2]
  isplitl [Hk]
  · iintro ⟨⟨H41, H42⟩, HZ⟩
    iapply Hk
    ihave H := (pointsTo_share (PosShare.mem_left_op_right fullShare)).1 $$ H41
    icases H with ⟨HL, HR⟩
    isplitr [HZ]
    · isplitl [HL]; · iexact HL
      isplitl [HR]; · iexact HR
      iexact H42
    · iexact HZ
  isplitl [Hb]; · iexact Hb
  isplitr [HZ]
  · isplitl [H41]; · iexact H41
    iexact H42
  · iexact HZ

/-! ## The run -/

set_option maxHeartbeats 16000000 in
set_option backward.isDefEq.respectTransparency.types false in
/-- From any memory with zero counters every weakly fair execution of @main terminates, nothing faulting; each
    window's array ends at what the write-backs left, every other unscoped buffer at what the host lines leave. -/
theorem run_main : θ_run defs (onTc (τ := τ) (main (F := F))) (s₀ m ρ) (fun r => ∀ c : Dev nD,
      (∀ w, r.2.mem ((spec0 w).arr.view.loc (c : Thread nD τ)) = (dats m 0 c).arrAt w cfg0.N)
      ∧ ∀ b ∈ Pipeline.restRefsP sig Pipeline.Prefetch.none spec0, r.2.mem ((c : Thread nD τ).loc b) = afterTail m c b) := by
  classical
  exact Pipeline.θ_run_region_pf_tail (fun q => (cfgs q).toPCfg (Val := Elt F)) (fun q => (cfgs q).toPCfg_adm) (dats m) () cellOf_inj 0 winFacts₀0
    (Pipeline.OwnSemFacts.none spec0) (Pipeline.PreFacts.none spec0) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Pipeline.Prefetch.none spec0 c (V m c))
    (Z' := fun c => unscopedRestP (Ix := Unit) (Name := ℕ) (U := UR sig nD τ) (Lvl := ℕ) Pipeline.Prefetch.none spec0 c (afterTail m c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m c Q')
    (QY := fun c s => ∀ b ∈ Pipeline.restRefsP sig Pipeline.Prefetch.none spec0, s.mem ((c : Thread nD τ).loc b) = afterTail m c b)
    (hY := fun c s' => by
      iintro ⟨-, HU, HSI⟩
      unfold unscopedRestP
      imodintro
      iapply (pointsTo_read_all (Pipeline.restRefsP sig Pipeline.Prefetch.none spec0) (fun b => (c : Thread nD τ).loc b) (afterTail m c) s')
      isplitl [HU] <;> iassumption)
    (hQ := fun s h c => ⟨(h c).1, (h c).2.2⟩)

end Cert.KernelIdeal.RowLse

end
-- ==== Proof.ArgsKept.lean ====
/-
  No host line, before the region or after it, writes an argument array, and no window stands on one: each
  argument ends the run as it began. That is the frame, for any reading of the floats.
-/
import proofs.«138523_j48455821033481_2_alg».proof.Proof.RegionLaunch

set_option maxRecDepth 16384

noncomputable section

namespace Cert.KernelIdeal.RowLse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (arrRef)
variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem tail_arg0 (c : Dev nD) : afterTail m c main_arg0 = m ((c : Thread nD τ).loc main_arg0) :=
  (StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))).trans
    ((Pipeline.withArrays_of_ne spec2 c (V0 m c) (finalArr m c) main_arg0 (by decide)).trans (V_arg0 m c))
theorem mem_arg0 : main_arg0 ∈ Pipeline.restRefsP sig Pipeline.Prefetch.none spec0 :=
  Finset.mem_sdiff.mpr ⟨Pipeline.mem_restRefs_of main_arg0 (by decide) (by decide),
    fun h => by obtain ⟨k, -, -⟩ := Finset.mem_image.mp h; exact k.elim0⟩

theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem tail_arg1 (c : Dev nD) : afterTail m c main_arg1 = m ((c : Thread nD τ).loc main_arg1) :=
  (StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))).trans
    ((Pipeline.withArrays_of_ne spec2 c (V0 m c) (finalArr m c) main_arg1 (by decide)).trans (V_arg1 m c))
theorem mem_arg1 : main_arg1 ∈ Pipeline.restRefsP sig Pipeline.Prefetch.none spec0 :=
  Finset.mem_sdiff.mpr ⟨Pipeline.mem_restRefs_of main_arg1 (by decide) (by decide),
    fun h => by obtain ⟨k, -, -⟩ := Finset.mem_image.mp h; exact k.elim0⟩

theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem tail_arg2 (c : Dev nD) : afterTail m c main_arg2 = m ((c : Thread nD τ).loc main_arg2) :=
  (StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))).trans
    ((Pipeline.withArrays_of_ne spec2 c (V0 m c) (finalArr m c) main_arg2 (by decide)).trans (V_arg2 m c))
theorem mem_arg2 : main_arg2 ∈ Pipeline.restRefsP sig Pipeline.Prefetch.none spec0 :=
  Finset.mem_sdiff.mpr ⟨Pipeline.mem_restRefs_of main_arg2 (by decide) (by decide),
    fun h => by obtain ⟨k, -, -⟩ := Finset.mem_image.mp h; exact k.elim0⟩

theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem tail_arg3 (c : Dev nD) : afterTail m c main_arg3 = m ((c : Thread nD τ).loc main_arg3) :=
  (StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))).trans
    ((Pipeline.withArrays_of_ne spec2 c (V0 m c) (finalArr m c) main_arg3 (by decide)).trans (V_arg3 m c))
theorem mem_arg3 : main_arg3 ∈ Pipeline.restRefsP sig Pipeline.Prefetch.none spec0 :=
  Finset.mem_sdiff.mpr ⟨Pipeline.mem_restRefs_of main_arg3 (by decide) (by decide),
    fun h => by obtain ⟨k, -, -⟩ := Finset.mem_image.mp h; exact k.elim0⟩

theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem tail_arg4 (c : Dev nD) : afterTail m c main_arg4 = m ((c : Thread nD τ).loc main_arg4) :=
  (StableHlo.after_of_forall_not_mem (b := Proc.devRef .tc main_arg4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))).trans
    ((Pipeline.withArrays_of_ne spec2 c (V0 m c) (finalArr m c) main_arg4 (by decide)).trans (V_arg4 m c))
theorem mem_arg4 : main_arg4 ∈ Pipeline.restRefsP sig Pipeline.Prefetch.none spec0 :=
  Finset.mem_sdiff.mpr ⟨Pipeline.mem_restRefs_of main_arg4 (by decide) (by decide),
    fun h => by obtain ⟨k, -, -⟩ := Finset.mem_image.mp h; exact k.elim0⟩

theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem tail_arg5 (c : Dev nD) : afterTail m c main_arg5 = m ((c : Thread nD τ).loc main_arg5) :=
  (StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))).trans
    ((Pipeline.withArrays_of_ne spec2 c (V0 m c) (finalArr m c) main_arg5 (by decide)).trans (V_arg5 m c))
theorem mem_arg5 : main_arg5 ∈ Pipeline.restRefsP sig Pipeline.Prefetch.none spec0 :=
  Finset.mem_sdiff.mpr ⟨Pipeline.mem_restRefs_of main_arg5 (by decide) (by decide),
    fun h => by obtain ⟨k, -, -⟩ := Finset.mem_image.mp h; exact k.elim0⟩

theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem tail_arg6 (c : Dev nD) : afterTail m c main_arg6 = m ((c : Thread nD τ).loc main_arg6) :=
  (StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))).trans
    ((Pipeline.withArrays_of_ne spec2 c (V0 m c) (finalArr m c) main_arg6 (by decide)).trans (V_arg6 m c))
theorem mem_arg6 : main_arg6 ∈ Pipeline.restRefsP sig Pipeline.Prefetch.none spec0 :=
  Finset.mem_sdiff.mpr ⟨Pipeline.mem_restRefs_of main_arg6 (by decide) (by decide),
    fun h => by obtain ⟨k, -, -⟩ := Finset.mem_image.mp h; exact k.elim0⟩

theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem tail_arg7 (c : Dev nD) : afterTail m c main_arg7 = m ((c : Thread nD τ).loc main_arg7) :=
  (StableHlo.after_of_forall_not_mem (b := Proc.devRef .tc main_arg7) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))).trans
    ((Pipeline.withArrays_of_ne spec2 c (V0 m c) (finalArr m c) main_arg7 (by decide)).trans (V_arg7 m c))
theorem mem_arg7 : main_arg7 ∈ Pipeline.restRefsP sig Pipeline.Prefetch.none spec0 :=
  Finset.mem_sdiff.mpr ⟨Pipeline.mem_restRefs_of main_arg7 (by decide) (by decide),
    fun h => by obtain ⟨k, -, -⟩ := Finset.mem_image.mp h; exact k.elim0⟩

/-- THE FRAME, at any `F`: @main runs to its end, nothing faulting, and its eight argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 mem_arg0).trans (tail_arg0 m c),
    ((h c).2 main_arg1 mem_arg1).trans (tail_arg1 m c),
    ((h c).2 main_arg2 mem_arg2).trans (tail_arg2 m c),
    ((h c).2 main_arg3 mem_arg3).trans (tail_arg3 m c),
    ((h c).2 main_arg4 mem_arg4).trans (tail_arg4 m c),
    ((h c).2 main_arg5 mem_arg5).trans (tail_arg5 m c),
    ((h c).2 main_arg6 mem_arg6).trans (tail_arg6 m c),
    ((h c).2 main_arg7 mem_arg7).trans (tail_arg7 m c)⟩) (run_main m ρ)

end Cert.KernelIdeal.RowLse

end
-- ==== Proof.WRowBlocks.lean ====
/-
  (The program as printed, word for word: the same argument as for its idealization, which differs from it only
  in how four scalar constants inside the stored values are read; no step below opens a stored value.)

  The row-wise log-sum-exp kernel walks a 16 x 16 grid: point t = 16·i + j takes the i-th block of 1024 rows
  of the normalised matrix Z (window 0) against the j-th block of 1024 rows of the same matrix (window 1), and
  adds, for each of its rows, the sum over the block's 1024 columns of exp(s − μ) to a running row total kept in
  a scratch column; the total is reset when j = 0 and turned into μ + log(total), the block of results (window
  2), when j = 15.

  This module fixes what every later module speaks of: the memory the region is entered from (the 56 host
  lines before it have run), that @main is those lines, the region, and 16 more lines; the block of each
  window at a point; that an input window's staging buffer holds its block at EVERY point (the row block is
  fetched only when i advances, and is still there for j > 0); the two branch conditions as residues of t
  modulo 16; and where the result window is untouched.
-/
import proofs.«138523_j48455821033481_2_alg».proof.Proof.Gen.Kernel.Skeleton
import proofs.«138523_j48455821033481_2_alg».proof.Proof.Gen.Kernel.Launch
import proofs.«138523_j48455821033481_2_alg».proof.Proof.Gen.Kernel.Points
import Idealize.ShloMosaic.Lib.Pipeline.FrameSuffix
import Idealize.ShloMosaic.Lib.Pipeline.FrameBody
import Idealize.ShloMosaic.Lib.Tactic

set_option maxRecDepth 16384

noncomputable section

namespace Cert.Kernel.RowLse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The memory the region is entered from, as a valuation: the 56 host lines before it have run. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the lines before the region, the region, and the lines after it: it reduces to the region continued
    by the later lines, entered from `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub
    hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row block's staging buffer holds the row block at every point: it is fetched when the row index advances
    and not touched by the body, so for the later columns of the same row block it is still there. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column block's staging buffer holds the column block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions -/

/-- "This is the first column block": the running totals are reset. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 16 = 0 :=
  (by decide +kernel : ∀ t : Fin grid0.N, condFirst (grid0.coords t) ↔ t.val % 16 = 0)

/-- "This is the last column block": the totals are turned into the results. -/
abbrev condLast (i : grid0.Coords) : Prop := k0_cond2 i = 1#1
theorem hcondLast : ∀ t : Fin cfg0.N, condLast (grid0.coords t) ↔ t.val % 16 = 15 :=
  (by decide +kernel : ∀ t : Fin grid0.N, condLast (grid0.coords t) ↔ t.val % 16 = 15)

/-! ## Where the windows are untouched -/

theorem liveAt0_0 : ∀ t : Fin cfg0.N, cfg0.idle 0 (grid0.coords t) = false := by decide +kernel
theorem liveAt0_1 : ∀ t : Fin cfg0.N, cfg0.idle 1 (grid0.coords t) = false := by decide +kernel
/-- Before the last column block nothing is stored into the result window, and it is not written back. -/
theorem idleAt0_2 : ∀ t : Fin cfg0.N, ¬condLast (grid0.coords t) → cfg0.idle 2 (grid0.coords t) = true := by decide +kernel
theorem noFlush0_2 : ∀ t : Fin cfg0.N, ¬condLast (grid0.coords t) → (cfg0.win 2).flush t = false := by decide +kernel
/-- At the last column block it is stored whole. -/
theorem liveAt0_2 : ∀ t : Fin cfg0.N, condLast (grid0.coords t) → cfg0.idle 2 (grid0.coords t) = false := by decide +kernel

/-! ## The memrefs the body is called with -/

abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The column of running row totals. -/
abbrev scM : Memref sig .tc .vmem S1024x1 .f32 := Memref.whole cc0_scratch0
abbrev VS : View sig .tc .vmem S1024x1 .f32 := scM.view
/-- One staging buffer of the result window, through which its contents are stated. -/
abbrev VO : View sig .tc .vmem S1024x1 .f32 := (Memref.whole cc0_stg2_0 : Memref sig .tc .vmem S1024x1 .f32).view

/-- What the region's invariant holds between points when nothing is said of the totals: the column at some
    contents and the generator register. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.RowLse

end
-- ==== Proof.WColFirst.lean ====
/-
  (The program as printed, word for word: the same argument as for its idealization, which differs from it only
  in how four scalar constants inside the stored values are read; no step below opens a stored value.)

  The body at a FIRST column block (j = 0) that is not also the last: the column of running totals is reset to zero, then the block's row sums are added to it; the result window is not touched.
-/
import proofs.«138523_j48455821033481_2_alg».proof.Proof.WRowBlocks

set_option maxRecDepth 16384

noncomputable section

namespace Cert.Kernel.RowLse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the result window's buffer (`L2`) and in the column of running totals
    (`LS`), with the proof that from whole memrefs — the two input blocks at their contents `x0`, `x1` — the body
    runs to its end holding the inputs as they were and those pieces written. -/
noncomputable def runFirst (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : condFirst i) (hc1 : ¬condLast i)
    (x0 : Vec F S1024x256 .bf16) (x1 : Vec F S1024x256 .bf16) :
    Σ' (L2 : List (View.Piece (Elt F) S1024x1 .f32)), { LS : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__lse_kernel i arg2 harg2 arg3 harg3 arg4 harg4 arg5 harg5) K } := by
  refine ⟨[], ?_, fun xi2 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.RowLse

end
-- ==== Proof.WColMiddle.lean ====
/-
  (The program as printed, word for word: the same argument as for its idealization, which differs from it only
  in how four scalar constants inside the stored values are read; no step below opens a stored value.)

  The body at a MIDDLE column block (0 < j < 15): the block's row sums are added to the running totals the column block before left; the result window is not touched.
-/
import proofs.«138523_j48455821033481_2_alg».proof.Proof.WRowBlocks

set_option maxRecDepth 16384

noncomputable section

namespace Cert.Kernel.RowLse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the result window's buffer (`L2`) and in the column of running totals
    (`LS`), with the proof that from whole memrefs — the two input blocks at their contents `x0`, `x1` — the body
    runs to its end holding the inputs as they were and those pieces written. -/
noncomputable def runMiddle (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬condFirst i) (hc1 : ¬condLast i)
    (x0 : Vec F S1024x256 .bf16) (x1 : Vec F S1024x256 .bf16) (xs : Vec F S1024x1 .f32) :
    Σ' (L2 : List (View.Piece (Elt F) S1024x1 .f32)), { LS : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__lse_kernel i arg2 harg2 arg3 harg3 arg4 harg4 arg5 harg5) K } := by
  refine ⟨[], ?_, fun xi2 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.RowLse

end
-- ==== Proof.WColLast.lean ====
/-
  (The program as printed, word for word: the same argument as for its idealization, which differs from it only
  in how four scalar constants inside the stored values are read; no step below opens a stored value.)

  The body at the LAST column block (j = 15): the block's row sums are added to the running totals, and the shift plus the logarithm of the totals is stored, whole, into the result window.
-/
import proofs.«138523_j48455821033481_2_alg».proof.Proof.WRowBlocks

set_option maxRecDepth 16384

noncomputable section

namespace Cert.Kernel.RowLse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the result window's buffer (`L2`) and in the column of running totals
    (`LS`), with the proof that from whole memrefs — the two input blocks at their contents `x0`, `x1` — the body
    runs to its end holding the inputs as they were and those pieces written. -/
noncomputable def runLast (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬condFirst i) (hc1 : condLast i)
    (x0 : Vec F S1024x256 .bf16) (x1 : Vec F S1024x256 .bf16) (xs : Vec F S1024x1 .f32) :
    Σ' (L2 : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__lse_kernel i arg2 harg2 arg3 harg3 arg4 harg4 arg5 harg5) K } := by
  refine ⟨?_, ?_, fun E K => ?run⟩
  case run =>
    simp only [cc0__lse_kernel_eq_skeleton]; unfold cc0__lse_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.RowLse

end
-- ==== Proof.WAccumulate.lean ====
/-
  (The program as printed, word for word: the same argument as for its idealization, which differs from it only
  in how four scalar constants inside the stored values are read; no step below opens a stored value.)

  What the result window's buffer and the column of running row totals hold after each grid point, by recursion
  on the point: at a first column block (t ≡ 0 mod 16) the totals are the block's row sums over zero; at a later
  one they are the block's row sums over what the point before left; at the last (t ≡ 15 mod 16) the result
  block is stored from them. With that, the proof data of the pipeline (each input's buffer at its block, the
  result's at what the recursion says, the invariant carrying the totals from point to point) and the body
  obligation at every point: the residues of t select the case, and the case's run applies.
-/
import proofs.«138523_j48455821033481_2_alg».proof.Proof.WColFirst
import proofs.«138523_j48455821033481_2_alg».proof.Proof.WColMiddle
import proofs.«138523_j48455821033481_2_alg».proof.Proof.WColLast
import Idealize.ShloMosaic.Lib.Ring

set_option maxRecDepth 16384

noncomputable section

namespace Cert.Kernel.RowLse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- A first column block stores nothing into the result window: a placeholder nothing consults. -/
def outFirst (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : condFirst i) (hc1 : ¬condLast i) (x0 : Vec F S1024x256 .bf16) (x1 : Vec F S1024x256 .bf16) : Vec F S1024x1 .f32 :=
  VO.read (Elt F) (VO.writes (Elt F) VO.junk (runFirst c i arg2 harg2 arg3 harg3 arg4 harg4 arg5 harg5 hc0 hc1 x0 x1).1)
theorem scoverFirst (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : condFirst i) (hc1 : ¬condLast i) (x0 : Vec F S1024x256 .bf16) (x1 : Vec F S1024x256 .bf16) (y : S1024x1.Idx) :
    ∃ pc ∈ (runFirst c i arg2 harg2 arg3 harg3 arg4 harg4 arg5 harg5 hc0 hc1 x0 x1).2.1, y ∈ pc.1.set :=
  View.cover_of_tiledL (runFirst c i arg2 harg2 arg3 harg3 arg4 harg4 arg5 harg5 hc0 hc1 x0 x1).2.1 S1024x1.size (by sl_kernel_rfl) y
/-- The totals after a first column block. -/
def totFirst (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : condFirst i) (hc1 : ¬condLast i) (x0 : Vec F S1024x256 .bf16) (x1 : Vec F S1024x256 .bf16) : Vec F S1024x1 .f32 :=
  VS.read (Elt F) (VS.writes (Elt F) VS.junk (runFirst c i arg2 harg2 arg3 harg3 arg4 harg4 arg5 harg5 hc0 hc1 x0 x1).2.1)

def outMiddle (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬condFirst i) (hc1 : ¬condLast i) (x0 : Vec F S1024x256 .bf16) (x1 : Vec F S1024x256 .bf16) (xs : Vec F S1024x1 .f32) : Vec F S1024x1 .f32 :=
  VO.read (Elt F) (VO.writes (Elt F) VO.junk (runMiddle c i arg2 harg2 arg3 harg3 arg4 harg4 arg5 harg5 hc0 hc1 x0 x1 xs).1)
theorem scoverMiddle (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬condFirst i) (hc1 : ¬condLast i) (x0 : Vec F S1024x256 .bf16) (x1 : Vec F S1024x256 .bf16) (xs : Vec F S1024x1 .f32) (y : S1024x1.Idx) :
    ∃ pc ∈ (runMiddle c i arg2 harg2 arg3 harg3 arg4 harg4 arg5 harg5 hc0 hc1 x0 x1 xs).2.1, y ∈ pc.1.set :=
  View.cover_of_tiledL (runMiddle c i arg2 harg2 arg3 harg3 arg4 harg4 arg5 harg5 hc0 hc1 x0 x1 xs).2.1 S1024x1.size (by sl_kernel_rfl) y
/-- The totals after a middle column block, over the totals `xs` it found. -/
def totMiddle (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬condFirst i) (hc1 : ¬condLast i) (x0 : Vec F S1024x256 .bf16) (x1 : Vec F S1024x256 .bf16) (xs : Vec F S1024x1 .f32) : Vec F S1024x1 .f32 :=
  VS.read (Elt F) (VS.writes (Elt F) VS.junk (runMiddle c i arg2 harg2 arg3 harg3 arg4 harg4 arg5 harg5 hc0 hc1 x0 x1 xs).2.1)

theorem coverLast (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬condFirst i) (hc1 : condLast i) (x0 : Vec F S1024x256 .bf16) (x1 : Vec F S1024x256 .bf16) (xs : Vec F S1024x1 .f32) (y : S1024x1.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1024x1.size (by sl_kernel_rfl) y
/-- The result block the last column block stores. -/
def outLast (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬condFirst i) (hc1 : condLast i) (x0 : Vec F S1024x256 .bf16) (x1 : Vec F S1024x256 .bf16) (xs : Vec F S1024x1 .f32) : Vec F S1024x1 .f32 :=
  VO.read (Elt F) (VO.writes (Elt F) VO.junk (runLast c i arg2 harg2 arg3 harg3 arg4 harg4 arg5 harg5 hc0 hc1 x0 x1 xs).1)
theorem scoverLast (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬condFirst i) (hc1 : condLast i) (x0 : Vec F S1024x256 .bf16) (x1 : Vec F S1024x256 .bf16) (xs : Vec F S1024x1 .f32) (y : S1024x1.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S1024x1.size (by sl_kernel_rfl) y
def totLast (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬condFirst i) (hc1 : condLast i) (x0 : Vec F S1024x256 .bf16) (x1 : Vec F S1024x256 .bf16) (xs : Vec F S1024x1 .f32) : Vec F S1024x1 .f32 :=
  VS.read (Elt F) (VS.writes (Elt F) VS.junk (runLast c i arg2 harg2 arg3 harg3 arg4 harg4 arg5 harg5 hc0 hc1 x0 x1 xs).2.1)

/-! ## The accumulation, point by point -/

/-- After the body at position `n`: (the result window's buffer, the column of running totals). -/
def outsAt (c : Dev nD) : (n : ℕ) → n < cfg0.N → Vec F S1024x1 .f32 × Vec F S1024x1 .f32
  | 0, hn => (outFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩),
      totFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩))
  | n + 1, hn =>
    if h0 : (n + 1) % 16 = 0 then
      if h1 : (n + 1) % 16 = 15 then
        False.elim (by omega)
      else
        (outFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩),
          totFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM (Memref.isWhole_whole _) ((hcondFirst ⟨n + 1, hn⟩).mpr h0) (fun h => h1 ((hcondLast ⟨n + 1, hn⟩).mp h)) (iblk m c 0 ⟨n + 1, hn⟩) (iblk m c 1 ⟨n + 1, hn⟩))
    else
      if h1 : (n + 1) % 16 = 15 then
        (outLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (outsAt c n (Nat.lt_of_succ_lt hn)).2,
          totLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (outsAt c n (Nat.lt_of_succ_lt hn)).2)
      else
        (outMiddle c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (outsAt c n (Nat.lt_of_succ_lt hn)).2,
          totMiddle c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (outsAt c n (Nat.lt_of_succ_lt hn)).2)

theorem outsAt_First (c : Dev nD) (t : Fin cfg0.N) (h0 : t.val % 16 = 0) (h1 : ¬t.val % 16 = 15) :
    outsAt m c t.val t.isLt = (outFirst c (grid0.coords t) (ms0_0 t) (hs0_0 t) (ms0_1 t) (hs0_1 t) (ms0_2 t) (hs0_2 t) scM (Memref.isWhole_whole _) ((hcondFirst t).mpr h0) (fun h => h1 ((hcondLast t).mp h)) (iblk m c 0 t) (iblk m c 1 t),
      totFirst c (grid0.coords t) (ms0_0 t) (hs0_0 t) (ms0_1 t) (hs0_1 t) (ms0_2 t) (hs0_2 t) scM (Memref.isWhole_whole _) ((hcondFirst t).mpr h0) (fun h => h1 ((hcondLast t).mp h)) (iblk m c 0 t) (iblk m c 1 t)) := by
  obtain ⟨n, hn⟩ := t
  cases n with
  | zero => exact rfl
  | succ n => exact (dif_pos h0).trans ((dif_neg h1).trans rfl)

theorem outsAt_Middle (c : Dev nD) (t : Fin cfg0.N) (h0 : ¬t.val % 16 = 0) (h1 : ¬t.val % 16 = 15) :
    outsAt m c t.val t.isLt = (outMiddle c (grid0.coords t) (ms0_0 t) (hs0_0 t) (ms0_1 t) (hs0_1 t) (ms0_2 t) (hs0_2 t) scM (Memref.isWhole_whole _) (fun h => h0 ((hcondFirst t).mp h)) (fun h => h1 ((hcondLast t).mp h)) (iblk m c 0 t) (iblk m c 1 t) (outsAt m c (t.val - 1) (Nat.lt_of_le_of_lt (Nat.sub_le _ _) t.isLt)).2,
      totMiddle c (grid0.coords t) (ms0_0 t) (hs0_0 t) (ms0_1 t) (hs0_1 t) (ms0_2 t) (hs0_2 t) scM (Memref.isWhole_whole _) (fun h => h0 ((hcondFirst t).mp h)) (fun h => h1 ((hcondLast t).mp h)) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_Last (c : Dev nD) (t : Fin cfg0.N) (h0 : ¬t.val % 16 = 0) (h1 : t.val % 16 = 15) :
    outsAt m c t.val t.isLt = (outLast c (grid0.coords t) (ms0_0 t) (hs0_0 t) (ms0_1 t) (hs0_1 t) (ms0_2 t) (hs0_2 t) scM (Memref.isWhole_whole _) (fun h => h0 ((hcondFirst t).mp h)) ((hcondLast t).mpr h1) (iblk m c 0 t) (iblk m c 1 t) (outsAt m c (t.val - 1) (Nat.lt_of_le_of_lt (Nat.sub_le _ _) t.isLt)).2,
      totLast c (grid0.coords t) (ms0_0 t) (hs0_0 t) (ms0_1 t) (hs0_1 t) (ms0_2 t) (hs0_2 t) scM (Memref.isWhole_whole _) (fun h => h0 ((hcondFirst t).mp h)) ((hcondLast t).mpr h1) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point nothing is said of the totals; afterwards
    the column holds what the point before left. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The pipeline's proof data -/

/-- The two input windows read ONE array, the normalised matrix: each holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt m c t.val t.isLt).1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the residue of `t` modulo 16 says which case the
    point is in; the invariant hands the body the running totals the point before left (anything, at a first
    column block) and takes them back as this point leaves them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcondLast t).mp h))) (noFlush0_2 t (fun h => h1 ((hcondLast t).mp h)))]
      rw [outsAt_First m c t h0 h1]
      unfold totFirst; (try dsimp only)
      by_cases hz : t.val = 0
      · rw [PhiS_castSucc m c t, PhiS_zero m c _ _ hz, PhiA0_eq]
        iintro ⟨⟨HS, Hg⟩, Ho, ⟨%d0, H0⟩, ⟨%d1, H1⟩, ⟨%d2, H2⟩⟩
        iapply ((runFirst c (grid0.coords t) _ _ _ _ _ _ _ _ ((hcondFirst t).mpr h0) (fun h => h1 ((hcondLast t).mp h)) (iblk m c 0 t) (iblk m c 1 t)).2.2 _ Set.univ _)
        isplitl [H0]; · iexact H0
        isplitl [H1]; · iexact H1
        isplitl [H2]; · iexact H2
        isplitl [HS]; · iexact HS
        iintro ⟨H0, H1, H2, ⟨%es, HS⟩⟩
        isplitl [HS Hg]
        · isplitl [HS]
          · unfold owns; iexists _; isplitr
            swap; · iexact HS
            ipureintro; exact View.read_writes_of_cover _ _ _ _ _ (scoverFirst c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS, Hg⟩, Ho, ⟨%d0, H0⟩, ⟨%d1, H1⟩, ⟨%d2, H2⟩⟩
        iapply ((runFirst c (grid0.coords t) _ _ _ _ _ _ _ _ ((hcondFirst t).mpr h0) (fun h => h1 ((hcondLast t).mp h)) (iblk m c 0 t) (iblk m c 1 t)).2.2 _ Set.univ _)
        isplitl [H0]; · iexact H0
        isplitl [H1]; · iexact H1
        isplitl [H2]; · iexact H2
        isplitl [HS]; · iexists _; iexact HS
        iintro ⟨H0, H1, H2, ⟨%es, HS⟩⟩
        isplitl [HS Hg]
        · isplitl [HS]
          · unfold owns; iexists _; isplitr
            swap; · iexact HS
            ipureintro; exact View.read_writes_of_cover _ _ _ _ _ (scoverFirst c _ _ _ _ _ _ _ _ _ _ _ _ _)
          iexact Hg
        isplitl [Ho]; · iexact Ho
        isplitl [H0]; · iexact H0
        isplitl [H1]; · iexact H1
        iexists _; iexact H2
  · by_cases h1 : t.val % 16 = 15
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t ((hcondLast t).mpr h1)], after0_2]
      rw [outsAt_Last m c t h0 h1]
      unfold outLast totLast; (try dsimp only)
      by_cases hz : t.val = 0
      · exfalso; omega
      · rw [PhiS_castSucc m c t, PhiS_pos m c _ _ hz]
        iintro ⟨⟨HS, Hg⟩, Ho, ⟨%d0, H0⟩, ⟨%d1, H1⟩, ⟨%d2, H2⟩⟩
        iapply ((runLast c (grid0.coords t) _ _ _ _ _ _ _ _ (fun h => h0 ((hcondFirst t).mp h)) ((hcondLast t).mpr h1) (iblk m c 0 t) (iblk m c 1 t) _).2.2 Set.univ _)
        isplitl [H0]; · iexact H0
        isplitl [H1]; · iexact H1
        isplitl [H2]; · iexists _; iexact H2
        isplitl [HS]; · iexact HS
        iintro ⟨H0, H1, ⟨%e2, H2⟩, ⟨%es, HS⟩⟩
        isplitl [HS Hg]
        · isplitl [HS]
          · unfold owns; iexists _; isplitr
            swap; · iexact HS
            ipureintro; exact View.read_writes_of_cover _ _ _ _ _ (scoverLast c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (coverLast c _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcondLast t).mp h))) (noFlush0_2 t (fun h => h1 ((hcondLast t).mp h)))]
      rw [outsAt_Middle m c t h0 h1]
      unfold totMiddle; (try dsimp only)
      by_cases hz : t.val = 0
      · exfalso; omega
      · rw [PhiS_castSucc m c t, PhiS_pos m c _ _ hz]
        iintro ⟨⟨HS, Hg⟩, Ho, ⟨%d0, H0⟩, ⟨%d1, H1⟩, ⟨%d2, H2⟩⟩
        iapply ((runMiddle c (grid0.coords t) _ _ _ _ _ _ _ _ (fun h => h0 ((hcondFirst t).mp h)) (fun h => h1 ((hcondLast t).mp h)) (iblk m c 0 t) (iblk m c 1 t) _).2.2 _ Set.univ _)
        isplitl [H0]; · iexact H0
        isplitl [H1]; · iexact H1
        isplitl [H2]; · iexact H2
        isplitl [HS]; · iexact HS
        iintro ⟨H0, H1, H2, ⟨%es, HS⟩⟩
        isplitl [HS Hg]
        · isplitl [HS]
          · unfold owns; iexists _; isplitr
            swap; · iexact HS
            ipureintro; exact View.read_writes_of_cover _ _ _ _ _ (scoverMiddle c _ _ _ _ _ _ _ _ _ _ _ _ _ _)
          iexact Hg
        isplitl [Ho]; · iexact Ho
        isplitl [H0]; · iexact H0
        isplitl [H1]; · iexact H1
        iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives that back: the totals' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 256 := N_0; omega)

end Cert.Kernel.RowLse

end
-- ==== Proof.WRegionLaunch.lean ====
/-
  (The program as printed, word for word: the same argument as for its idealization, which differs from it only
  in how four scalar constants inside the stored values are read; no step below opens a stored value.)

  The launch. The region's three windows stand on TWO arrays: the normalised matrix (bf16), read both as the
  row block and as the column block, and the column of results. At the region's entry the matrix' buffer is
  dealt to the two input windows in halves; at its exit the halves, both still at the contents the region was
  entered with (an input array is never written), are put together again, and the 16 host lines after the
  region run over the two arrays and the buffers that bypassed the region. The run: every weakly fair
  execution of @main terminates, the arrays end at what the write-backs left, every other buffer at what
  the host lines leave.
-/
import proofs.«138523_j48455821033481_2_alg».proof.Proof.WAccumulate
import Idealize.ShloMosaic.Lib.Pipeline.FrameSuffix

set_option maxRecDepth 16384

noncomputable section

namespace Cert.Kernel.RowLse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (arrRef arrBufs arrPts withArrays unscopedRestP tail_seqs)
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two arrays behind the three windows -/

/-- One window per array: the row-block window for the matrix, the result window for the results. -/
abbrev spec2 : Fin 2 → Pipeline.WinSpec sig grid0.rank := fun | 0 => spec0 0 | 1 => spec0 2 | ⟨_ + 2, h⟩ => absurd h (Nat.not_lt.2 (Nat.le_add_left _ _))
theorem arr_inj2 : Function.Injective (arrRef spec2) := by decide
theorem arr_unscoped2 : ∀ w, (arrRef spec2 w).isScoped = false := by decide
theorem arr_image2 : Finset.univ.image (arrRef spec2) = Finset.univ.image (arrRef spec0) := by decide

theorem share0 (c : Dev nD) : (dats m 0 c).share 0 = fullShare.left := rfl
theorem share1 (c : Dev nD) : (dats m 0 c).share 1 = fullShare.right := rfl
theorem share2 (c : Dev nD) : (dats m 0 c).share 2 = fullShare := rfl

/-- The arrays at contents `Fa`, window by window: two halves of the matrix' buffer and the results' buffer. -/
theorem arrays_eq3 (c : Dev nD) (Fa) :
    ((dats m 0 c).arrays Fa : sProp 𝕄)
      = iprop((((c : Thread nD τ).loc main_v41) ↦{fullShare.left} Fa 0) ∗ (((c : Thread nD τ).loc main_v41) ↦{fullShare.right} Fa 1)
          ∗ (((c : Thread nD τ).loc main_v42) ↦{fullShare} Fa 2)) := by
  unfold Dat.arrays
  rw [bigSep_W0, (arr_whole0 0).set_eq_univ, (arr_whole0 2).set_eq_univ, share0, share1, share2]

/-- ENTRY: the matrix' buffer, whole at the entry contents, is dealt to the two input windows in halves. -/
theorem hsplit (c : Dev nD) : (arrBufs spec0 c (V m c) : sProp 𝕄) ⊢ (dats m 0 c).arrays ((dats m 0 c).arrAt · 0) := by
  rw [arrays_eq3]
  unfold arrBufs
  rw [bigSep_eq_bigSepL_of_eq [main_v41, main_v42] (by decide) (by decide)]
  show iprop((((c : Thread nD τ).loc main_v41) ↦{fullShare} V m c main_v41) ∗ (((c : Thread nD τ).loc main_v42) ↦{fullShare} V m c main_v42)) ⊢ _
  iintro ⟨H41, H42⟩
  ihave H := (pointsTo_share (PosShare.mem_left_op_right fullShare)).1 $$ H41
  icases H with ⟨HL, HR⟩
  isplitl [HL]; · iexact HL
  isplitl [HR]; · iexact HR
  iexact H42

/-! ## The lines after the region -/

/-- The two arrays' contents when the region is left. -/
def finalArr (c : Dev nD) : (w : Fin 2) → Buf (Elt F) ((spec2 w).arr.view.loc (c : Thread nD τ))
  | 0 => (dats m 0 c).arrAt 0 cfg0.N
  | 1 => (dats m 0 c).arrAt 2 cfg0.N
  | ⟨_ + 2, h⟩ => absurd h (Nat.not_lt.2 (Nat.le_add_left _ _))

/-- Every TensorCore buffer after the 16 host lines that follow the region. -/
def afterTail (c : Dev nD) (b : Ref sig .tc) : Buf (Elt F) ((c : Thread nD τ).loc b) :=
  StableHlo.after ([hostOps1] : List (List (HloOp τ sig (Elt F)))).flatten (withArrays spec2 c (V0 m c) (finalArr m c)) (Proc.devRef .tc b)

theorem sfx_sub : ∀ ops ∈ ([hostOps1] : List (List (HloOp τ sig (Elt F)))), ∀ op ∈ ops,
    op.bufs ⊆ Pipeline.tailRefs sig Pipeline.Prefetch.none spec2 := by
  rw [Pipeline.tailRefs_none spec2 arr_unscoped2]
  intro ops hops op hop
  simp only [List.mem_cons, List.mem_nil_iff, or_false] at hops
  rcases hops with rfl
  · exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- The lines write neither the matrix nor the results. -/
theorem sfx_keeps : ∀ ops ∈ ([hostOps1] : List (List (HloOp τ sig (Elt F)))), ∀ op ∈ ops,
    ∀ w, Proc.devRef .tc (arrRef spec2 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, Finset.mem_singleton] <;> exact StableHlo.devRef_ne_of_ne (by decide)

theorem restP_eq (c : Dev nD) (W : (b : Ref sig .tc) → Buf (Elt F) ((c : Thread nD τ).loc b)) :
    (unscopedRestP Pipeline.Prefetch.none spec0 c W : sProp 𝕄) = unscopedRestP Pipeline.Prefetch.none spec2 c W := by
  unfold unscopedRestP; rw [arr_image2]

theorem arrPts2 (c : Dev nD) (A : (w : Fin 2) → Buf (Elt F) ((spec2 w).arr.view.loc (c : Thread nD τ))) :
    (arrPts spec2 c A : sProp 𝕄) = iprop((((c : Thread nD τ).loc main_v41) ↦{fullShare} A 0) ∗ (((c : Thread nD τ).loc main_v42) ↦{fullShare} A 1)) := by
  unfold arrPts
  rw [bigSep_univ_eq_bigSepL [(0 : Fin 2), (1 : Fin 2)] (by decide) (by decide)]
  rfl

/-- EXIT: the halves of the matrix' buffer are put together, and the host lines run over the two arrays and
    the bypassing buffers; what they leave is dealt out again. -/
theorem htail (c : Dev nD) (Q' : PUnit → sProp 𝕄) :
    iprop((iprop((dats m 0 c).arrays ((dats m 0 c).arrAt · cfg0.N) ∗ unscopedRestP Pipeline.Prefetch.none spec0 c (afterTail m c)) -∗ Q' ⟨⟩)
        ∗ boundary (c : Thread nD τ) ∗ (dats m 0 c).arrays ((dats m 0 c).arrAt · cfg0.N) ∗ unscopedRestP Pipeline.Prefetch.none spec0 c (V m c))
      ⊢ wp frame (wpE (Pipeline.defs (fun q => (cfgs q).toPCfg (Val := Elt F)) defs₀) (Variants.lift Variants.none) (c : Thread nD τ) none) Set.univ
          (Pipeline.chain [StableHlo.seq hostOps1]) Q' := by
  have e1 : (dats m 0 c).arrAt 1 cfg0.N = (dats m 0 c).arrAt 0 cfg0.N :=
    ((dats m 0 c).arrAt_in 1 rfl _).trans ((dats m 0 c).arrAt_in 0 rfl _).symm
  rw [arrays_eq3, restP_eq, restP_eq, e1]
  iintro ⟨Hk, Hb, ⟨HL, HR, H42⟩, HZ⟩
  ihave H41 := (pointsTo_share (PosShare.mem_left_op_right fullShare)).2 $$ [HL HR]
  · isplitl [HL]; · iexact HL
    iexact HR
  iapply (tail_seqs (fun q => (cfgs q).toPCfg (Val := Elt F)) defs₀ Variants.none Pipeline.Prefetch.none spec2 arr_inj2 c (V0 m c) (finalArr m c)
    [hostOps1] sfx_sub sfx_fresh sfx_keeps Q')
  rw [arrPts2]
  isplitl [Hk]
  · iintro ⟨⟨H41, H42⟩, HZ⟩
    iapply Hk
    ihave H := (pointsTo_share (PosShare.mem_left_op_right fullShare)).1 $$ H41
    icases H with ⟨HL, HR⟩
    isplitr [HZ]
    · isplitl [HL]; · iexact HL
      isplitl [HR]; · iexact HR
      iexact H42
    · iexact HZ
  isplitl [Hb]; · iexact Hb
  isplitr [HZ]
  · isplitl [H41]; · iexact H41
    iexact H42
  · iexact HZ

/-! ## The run -/

set_option maxHeartbeats 16000000 in
set_option backward.isDefEq.respectTransparency.types false in
/-- From any memory with zero counters every weakly fair execution of @main terminates, nothing faulting; each
    window's array ends at what the write-backs left, every other unscoped buffer at what the host lines leave. -/
theorem run_main : θ_run defs (onTc (τ := τ) (main (F := F))) (s₀ m ρ) (fun r => ∀ c : Dev nD,
      (∀ w, r.2.mem ((spec0 w).arr.view.loc (c : Thread nD τ)) = (dats m 0 c).arrAt w cfg0.N)
      ∧ ∀ b ∈ Pipeline.restRefsP sig Pipeline.Prefetch.none spec0, r.2.mem ((c : Thread nD τ).loc b) = afterTail m c b) := by
  classical
  exact Pipeline.θ_run_region_pf_tail (fun q => (cfgs q).toPCfg (Val := Elt F)) (fun q => (cfgs q).toPCfg_adm) (dats m) () cellOf_inj 0 winFacts₀0
    (Pipeline.OwnSemFacts.none spec0) (Pipeline.PreFacts.none spec0) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Pipeline.Prefetch.none spec0 c (V m c))
    (Z' := fun c => unscopedRestP (Ix := Unit) (Name := ℕ) (U := UR sig nD τ) (Lvl := ℕ) Pipeline.Prefetch.none spec0 c (afterTail m c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m c Q')
    (QY := fun c s => ∀ b ∈ Pipeline.restRefsP sig Pipeline.Prefetch.none spec0, s.mem ((c : Thread nD τ).loc b) = afterTail m c b)
    (hY := fun c s' => by
      iintro ⟨-, HU, HSI⟩
      unfold unscopedRestP
      imodintro
      iapply (pointsTo_read_all (Pipeline.restRefsP sig Pipeline.Prefetch.none spec0) (fun b => (c : Thread nD τ).loc b) (afterTail m c) s')
      isplitl [HU] <;> iassumption)
    (hQ := fun s h c => ⟨(h c).1, (h c).2.2⟩)

end Cert.Kernel.RowLse

end
-- ==== Proof.WArgsKept.lean ====
/-
  (The program as printed, word for word: the same argument as for its idealization, which differs from it only
  in how four scalar constants inside the stored values are read; no step below opens a stored value.)

  No host line, before the region or after it, writes an argument array, and no window stands on one: each
  argument ends the run as it began. That is the frame, for any reading of the floats.
-/
import proofs.«138523_j48455821033481_2_alg».proof.Proof.WRegionLaunch

set_option maxRecDepth 16384

noncomputable section

namespace Cert.Kernel.RowLse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (arrRef)
variable {F : FTy → Type} [FloatOps F]

local notation "𝕄" => MT nD τ sig Unit (Elt F) ℕ (UR sig nD τ) ℕ

variable (m : (ℓ : Loc nD τ sig) → Buf (Elt F) ℓ) (ρ : Dev nD → PrngReg)

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem tail_arg0 (c : Dev nD) : afterTail m c main_arg0 = m ((c : Thread nD τ).loc main_arg0) :=
  (StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))).trans
    ((Pipeline.withArrays_of_ne spec2 c (V0 m c) (finalArr m c) main_arg0 (by decide)).trans (V_arg0 m c))
theorem mem_arg0 : main_arg0 ∈ Pipeline.restRefsP sig Pipeline.Prefetch.none spec0 :=
  Finset.mem_sdiff.mpr ⟨Pipeline.mem_restRefs_of main_arg0 (by decide) (by decide),
    fun h => by obtain ⟨k, -, -⟩ := Finset.mem_image.mp h; exact k.elim0⟩

theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem tail_arg1 (c : Dev nD) : afterTail m c main_arg1 = m ((c : Thread nD τ).loc main_arg1) :=
  (StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))).trans
    ((Pipeline.withArrays_of_ne spec2 c (V0 m c) (finalArr m c) main_arg1 (by decide)).trans (V_arg1 m c))
theorem mem_arg1 : main_arg1 ∈ Pipeline.restRefsP sig Pipeline.Prefetch.none spec0 :=
  Finset.mem_sdiff.mpr ⟨Pipeline.mem_restRefs_of main_arg1 (by decide) (by decide),
    fun h => by obtain ⟨k, -, -⟩ := Finset.mem_image.mp h; exact k.elim0⟩

theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem tail_arg2 (c : Dev nD) : afterTail m c main_arg2 = m ((c : Thread nD τ).loc main_arg2) :=
  (StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))).trans
    ((Pipeline.withArrays_of_ne spec2 c (V0 m c) (finalArr m c) main_arg2 (by decide)).trans (V_arg2 m c))
theorem mem_arg2 : main_arg2 ∈ Pipeline.restRefsP sig Pipeline.Prefetch.none spec0 :=
  Finset.mem_sdiff.mpr ⟨Pipeline.mem_restRefs_of main_arg2 (by decide) (by decide),
    fun h => by obtain ⟨k, -, -⟩ := Finset.mem_image.mp h; exact k.elim0⟩

theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem tail_arg3 (c : Dev nD) : afterTail m c main_arg3 = m ((c : Thread nD τ).loc main_arg3) :=
  (StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))).trans
    ((Pipeline.withArrays_of_ne spec2 c (V0 m c) (finalArr m c) main_arg3 (by decide)).trans (V_arg3 m c))
theorem mem_arg3 : main_arg3 ∈ Pipeline.restRefsP sig Pipeline.Prefetch.none spec0 :=
  Finset.mem_sdiff.mpr ⟨Pipeline.mem_restRefs_of main_arg3 (by decide) (by decide),
    fun h => by obtain ⟨k, -, -⟩ := Finset.mem_image.mp h; exact k.elim0⟩

theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem tail_arg4 (c : Dev nD) : afterTail m c main_arg4 = m ((c : Thread nD τ).loc main_arg4) :=
  (StableHlo.after_of_forall_not_mem (b := Proc.devRef .tc main_arg4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))).trans
    ((Pipeline.withArrays_of_ne spec2 c (V0 m c) (finalArr m c) main_arg4 (by decide)).trans (V_arg4 m c))
theorem mem_arg4 : main_arg4 ∈ Pipeline.restRefsP sig Pipeline.Prefetch.none spec0 :=
  Finset.mem_sdiff.mpr ⟨Pipeline.mem_restRefs_of main_arg4 (by decide) (by decide),
    fun h => by obtain ⟨k, -, -⟩ := Finset.mem_image.mp h; exact k.elim0⟩

theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem tail_arg5 (c : Dev nD) : afterTail m c main_arg5 = m ((c : Thread nD τ).loc main_arg5) :=
  (StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))).trans
    ((Pipeline.withArrays_of_ne spec2 c (V0 m c) (finalArr m c) main_arg5 (by decide)).trans (V_arg5 m c))
theorem mem_arg5 : main_arg5 ∈ Pipeline.restRefsP sig Pipeline.Prefetch.none spec0 :=
  Finset.mem_sdiff.mpr ⟨Pipeline.mem_restRefs_of main_arg5 (by decide) (by decide),
    fun h => by obtain ⟨k, -, -⟩ := Finset.mem_image.mp h; exact k.elim0⟩

theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem tail_arg6 (c : Dev nD) : afterTail m c main_arg6 = m ((c : Thread nD τ).loc main_arg6) :=
  (StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))).trans
    ((Pipeline.withArrays_of_ne spec2 c (V0 m c) (finalArr m c) main_arg6 (by decide)).trans (V_arg6 m c))
theorem mem_arg6 : main_arg6 ∈ Pipeline.restRefsP sig Pipeline.Prefetch.none spec0 :=
  Finset.mem_sdiff.mpr ⟨Pipeline.mem_restRefs_of main_arg6 (by decide) (by decide),
    fun h => by obtain ⟨k, -, -⟩ := Finset.mem_image.mp h; exact k.elim0⟩

theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem tail_arg7 (c : Dev nD) : afterTail m c main_arg7 = m ((c : Thread nD τ).loc main_arg7) :=
  (StableHlo.after_of_forall_not_mem (b := Proc.devRef .tc main_arg7) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))).trans
    ((Pipeline.withArrays_of_ne spec2 c (V0 m c) (finalArr m c) main_arg7 (by decide)).trans (V_arg7 m c))
theorem mem_arg7 : main_arg7 ∈ Pipeline.restRefsP sig Pipeline.Prefetch.none spec0 :=
  Finset.mem_sdiff.mpr ⟨Pipeline.mem_restRefs_of main_arg7 (by decide) (by decide),
    fun h => by obtain ⟨k, -, -⟩ := Finset.mem_image.mp h; exact k.elim0⟩

/-- THE FRAME, at any `F`: @main runs to its end, nothing faulting, and its eight argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 mem_arg0).trans (tail_arg0 m c),
    ((h c).2 main_arg1 mem_arg1).trans (tail_arg1 m c),
    ((h c).2 main_arg2 mem_arg2).trans (tail_arg2 m c),
    ((h c).2 main_arg3 mem_arg3).trans (tail_arg3 m c),
    ((h c).2 main_arg4 mem_arg4).trans (tail_arg4 m c),
    ((h c).2 main_arg5 mem_arg5).trans (tail_arg5 m c),
    ((h c).2 main_arg6 mem_arg6).trans (tail_arg6 m c),
    ((h c).2 main_arg7 mem_arg7).trans (tail_arg7 m c)⟩) (run_main m ρ)

end Cert.Kernel.RowLse

end
-- ==== Proof.TailValue.lean ====
/-
  The 16 host lines after the region, as ONE function of the four buffers they read: the supervised scalar s,
  the column of row-wise log-sum-exps the region left, and the two normalised inputs a, b. They form, per row r
  of the inputs, the partner similarity over the temperature  p_r = (Σ_d a_rd · b_rd) / c, lay the column p
  twice one above the other (row i of the second half has the same partner similarity as row i − 8192), subtract
  it from the log-sum-exps, average over the 16384 rows, scale by the weight word and add s.
-/
import proofs.«138523_j48455821033481_2_alg».proof.Proof.RegionLaunch
import Idealize.ShloMosaic.Lib.StableHlo.Run

set_option maxRecDepth 16384

noncomputable section

namespace Cert.KernelIdeal.RowLse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (arrRef withArrays)
variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The partner similarities over the temperature word, one per row of the inputs. -/
def partnerCol (a b : FVec F S8192x256 .f32) : FVec F S8192x1 .f32 :=
  Host.divf
    (broadcastInDim S8192x1 ![0] bcast_S8192_S8192x1_0
      (Host.reduceAdd (mulf a b) (constant S_ .f32 0x00000000#32) reducesTo_S8192x256_S8192_d1 h_S_))
    (broadcastInDim S8192x1 ![] bcast_S_S8192x1 (constant S_ .f32 0x3DCCCCCD#32))

/-- The lines after the region: `s + w · mean(lse − [p; p])`. -/
def tailFn (s : FVec F S_ .f32) (lse : FVec F S16384x1 .f32) (a b : FVec F S8192x256 .f32) : FVec F S_ .f32 :=
  addf s
    (mulf (constant S_ .f32 0x3DCCCCCD#32)
      (Host.divf
        (Host.reduceAdd
          (subf lse (concatenate S16384x1 0 [⟨S8192x1, partnerCol a b⟩, ⟨S8192x1, partnerCol a b⟩] concatenates_S8192x1_S8192x1_S16384x1_d0))
          (constant S_ .f32 0x00000000#32) reducesTo_S16384x1_S_d0_1 h_S_)
        (constant S_ .f32 0x46800000#32)))

set_option maxHeartbeats 4000000 in
/-- The program's result after the host lines: that function of what the region left in the result column and
    of three buffers that bypassed the region. -/
theorem tail_result (c : Dev nD) :
    afterTail m c main_v53 = tailFn (V m c main_v23) ((dats m 0 c).arrAt 2 cfg0.N) (V m c main_v31) (V m c main_v39) := by
  have h42 : withArrays spec2 c (V0 m c) (finalArr m c) (Proc.devRef .tc main_v42) = (dats m 0 c).arrAt 2 cfg0.N :=
    Pipeline.withArrays_arr spec2 arr_inj2 c (V0 m c) (finalArr m c) 1
  have h23 : withArrays spec2 c (V0 m c) (finalArr m c) (Proc.devRef .tc main_v23) = V m c main_v23 :=
    Pipeline.withArrays_of_ne spec2 c (V0 m c) (finalArr m c) main_v23 (by decide)
  have h31 : withArrays spec2 c (V0 m c) (finalArr m c) (Proc.devRef .tc main_v31) = V m c main_v31 :=
    Pipeline.withArrays_of_ne spec2 c (V0 m c) (finalArr m c) main_v31 (by decide)
  have h39 : withArrays spec2 c (V0 m c) (finalArr m c) (Proc.devRef .tc main_v39) = V m c main_v39 :=
    Pipeline.withArrays_of_ne spec2 c (V0 m c) (finalArr m c) main_v39 (by decide)
  unfold afterTail
  simp only [List.flatten_cons, List.flatten_nil, List.append_nil]
  after_results
  rw [h42, h23, h31, h39]
  rfl

end Cert.KernelIdeal.RowLse

end
-- ==== Proof.PayloadAt.lean ====
/- The three values the kernel's body stores, each read at one index, over the extended reals.

   The body keeps a running row sum in a column of totals. At a row block's first column block it stores zeros
   (the first value); at every column block it adds to the totals, row by row, the sum over the block's 1024
   columns of `exp (T - μ)`, where `T` is `-∞` on the diagonal of the whole matrix and otherwise the inner product of
   the two operand rows times `μ` (the second value); at the last column block it stores `μ + log` of the totals
   (the third value). `μ` is the named constant `inv_temp`. -/
import proofs.«138523_j48455821033481_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayloadAt

open Idealize.ShloMosaic Idealize.ShloMosaic.ValueIdx Cert.KernelIdeal

/-! ## The named constants -/

/-- The named reciprocal of the temperature denotes the rational `2^27 / 13421773`. -/
theorem inv_temp :
    Named.named (F := Ideal) κ "inv_temp" (φ := .f32) 0x41200000#32 = ((134217728 / 13421773 : ℝ) : EReal) :=
  IdealRules.named_const.ideal_named_scalar _ _ _ _ rfl

/-- The named mask value denotes `-∞`. -/
theorem neg_big : Named.named (F := Ideal) κ "neg_big" (φ := .f32) 0xFF333332#32 = (⊥ : EReal) :=
  IdealRules.named_const.ideal_named_scalar _ _ _ _ rfl

/-! ## The first value: zeros -/

theorem pay1_at (r : Fin 1024) : Gen.k0_pay1 (F := Ideal) (ix2 r (0 : Fin 1)) = 0 := by
  unfold Gen.k0_pay1
  rw [shapeCast_self]
  exact Ideal.ofBits_zero_f32

/-! ## The diagonal test

  The body compares the global row `1024 * i₀ + r` with the global column `1024 * i₁ + k` in 32-bit words; the grid
  has 16 × 16 points, so neither sum wraps and the word comparison is the comparison of the naturals. -/

theorem diag_word (a b r k : ℕ) (ha : a < 16) (hb : b < 16) (hr : r < 1024) (hk : k < 1024) :
    IntOp.cmpi .eq (IntOp.addi (BitVec.ofNat 32 r) (Scalar.muli (BitVec.ofNat 32 a) 1024#32))
        (IntOp.addi (BitVec.ofNat 32 k) (Scalar.muli (BitVec.ofNat 32 b) 1024#32))
      = if 1024 * a + r = 1024 * b + k then 1#1 else 0#1 := by
  have h : (BitVec.ofNat 32 r + BitVec.ofNat 32 a * 1024#32 = BitVec.ofNat 32 k + BitVec.ofNat 32 b * 1024#32)
      ↔ 1024 * a + r = 1024 * b + k := by
    rw [← BitVec.toNat_inj]
    simp only [BitVec.toNat_add, BitVec.toNat_mul, BitVec.toNat_ofNat]
    omega
  unfold IntOp.cmpi IntOp.addi Scalar.muli IntOp.muli
  by_cases e : 1024 * a + r = 1024 * b + k
  · rw [if_pos e]
    have := h.2 e
    simp [this]
  · rw [if_neg e]
    have : ¬ (BitVec.ofNat 32 r + BitVec.ofNat 32 a * 1024#32 = BitVec.ofNat 32 k + BitVec.ofNat 32 b * 1024#32) :=
      fun h' => e (h.1 h')
    rw [beq_eq_false_iff_ne.2 this]
    rfl

/-- A select on a decided bit is the `if`. -/
theorem select_ite {α : Type} (P : Prop) [Decidable P] (A B : α) :
    Scalar.select (if P then 1#1 else 0#1) A B = if P then A else B := by
  split_ifs
  · exact select_one A B
  · exact select_zero A B

/-! ## The product of the two operand blocks at `(r, k)`: the inner product of row `r` and row `k` -/

abbrev D := dot_S1024x256_S1024x256_S1024x1024_1_1_0_0_n_n

theorem lhs_0 (j : S1024x1024.Idx) (q : D.contr.Idx) : (D.lhsIdx j q 0).val = (j 0).val := by
  unfold DotDims.lhsIdx
  rw [dif_neg (show ¬(0 : Fin S1024x256.rank) ∈ D.lhsBatch by decide),
    dif_pos (show (0 : Fin S1024x256.rank) ∈ D.lhsNonContracting by decide)]
  rfl

theorem lhs_1 (j : S1024x1024.Idx) (q : D.contr.Idx) : (D.lhsIdx j q 1).val = (q ⟨0, by decide⟩).val :=
  D.lhsIdx_val_of_single rfl j q

theorem rhs_0 (j : S1024x1024.Idx) (q : D.contr.Idx) : (D.rhsIdx j q 0).val = (j 1).val := by
  unfold DotDims.rhsIdx
  rw [dif_neg (show ¬(0 : Fin S1024x256.rank) ∈ D.rhsBatch by decide),
    dif_pos (show (0 : Fin S1024x256.rank) ∈ D.rhsNonContracting by decide)]
  rfl

theorem rhs_1 (j : S1024x1024.Idx) (q : D.contr.Idx) : (D.rhsIdx j q 1).val = (q ⟨0, by decide⟩).val :=
  D.rhsIdx_val_of_single rfl j q

theorem matmul_at (v4 v6 : FVec Ideal S1024x256 .bf16) (r k : Fin 1024) :
    matmul D none v4 v6 (constant S1024x1024 .f32 0x00000000#32) (ix2 r k)
      = ∑ d : Fin 256, v4 (ix2 r d) * v6 (ix2 k d) := by
  refine (Ideal.matmul_constant_zero_apply D none v4 v6 (ix2 r k)).trans ?_
  rw [← Equiv.sum_comp (contrEquiv1 D 256 rfl rfl).symm]
  refine Finset.sum_congr rfl fun d _ => ?_
  have hd := contrEquiv1_symm_val D 256 rfl rfl d
  have el : D.lhsIdx (ix2 r k) ((contrEquiv1 D 256 rfl rfl).symm d) = ix2 r d := funext fun a => Fin.ext (by
    match a with
    | ⟨0, _⟩ => exact lhs_0 _ _
    | ⟨1, _⟩ => exact (lhs_1 _ _).trans hd)
  have er : D.rhsIdx (ix2 r k) ((contrEquiv1 D 256 rfl rfl).symm d) = ix2 k d := funext fun a => Fin.ext (by
    match a with
    | ⟨0, _⟩ => exact rhs_0 _ _
    | ⟨1, _⟩ => exact (rhs_1 _ _).trans hd)
  rw [el, er]

/-! ## The lane sum, and its column form -/

/-- The sum over the columns of a `1024 × 1024` block, at row `r`. -/
theorem rowsum_at (v : FVec Ideal S1024x1024 .f32) (hφ : FKind.Formats .f32)
    (hacc : (0x00000000#32 : BitVec 32) = 0x00000000#32) (r : Fin 1024) :
    multiReduction .add [1] S1024 v 0x00000000#32 Facts₀.reduces_S1024x1024_S1024 hφ hacc (ix1 r)
      = ∑ k : Fin 1024, v (ix2 r k) := by
  refine (Ideal.multiReduction_add_single v 0x00000000#32 Facts₀.reduces_S1024x1024_S1024 hφ hacc (ix1 r)).trans ?_
  refine Finset.sum_congr rfl fun k _ => congrArg v (funext fun a => Fin.ext ?_)
  match a with
  | ⟨0, _⟩ => rfl
  | ⟨1, _⟩ => rfl

/-- A `[1024]` vector cast to a `[1024, 1]` column reads, at `(r, 0)`, the vector at `r`. -/
theorem column_at {α : Type} (x : S1024.Idx → α) (h : S1024.ShapeCasts S1024x1) (r : Fin 1024) :
    shapeCast S1024x1 x h (ix2 r (0 : Fin 1)) = x (ix1 r) :=
  shapeCast_apply x h _ _ (by
    rw [Shape.rowMajor_val_two, Shape.rowMajor_val_one]
    show r.val = r.val * 1 + 0
    omega)

/-! ## Pointwise operations at an index -/

theorem exp_apply {s : Shape} {φ : FTy} (a : FVec Ideal s φ) (j : s.Idx) : exp a j = Ideal.exp (a j) := rfl
theorem log_apply {s : Shape} {φ : FTy} (a : FVec Ideal s φ) (j : s.Idx) : log a j = Ideal.log (a j) := rfl
theorem cmpi_apply {s : Shape} {w : ℕ} (p : CmpIPredicate) (x y : IVec s w) (j : s.Idx) :
    cmpi p x y j = IntOp.cmpi p (x j) (y j) := rfl
theorem addi_apply {s : Shape} {w : ℕ} (x y : IVec s w) (j : s.Idx) : addi x y j = IntOp.addi (x j) (y j) := rfl

theorem iota0_at (h : S1024x1024.Iotas .tc 32 [0]) (r k : Fin 1024) :
    iota .tc S1024x1024 32 [0] h (ix2 r k) = BitVec.ofNat 32 r.val := by
  rw [iota_single_apply]

theorem iota1_at (h : S1024x1024.Iotas .tc 32 [1]) (r k : Fin 1024) :
    iota .tc S1024x1024 32 [1] h (ix2 r k) = BitVec.ofNat 32 k.val := by
  rw [iota_single_apply]

/-! ## The second value: the totals found plus the block's row sum of masked, shifted exponentials -/

theorem pay2_at (i : grid0.Coords) (v3 v5 : Vec Ideal S1024x256 .bf16) (v24 : Vec Ideal S1024x1 .f32) (r : Fin 1024) :
    Gen.k0_pay2 (F := Ideal) i v3 v5 v24 (ix2 r (0 : Fin 1))
      = v24 (ix2 r (0 : Fin 1)) + ∑ k : Fin 1024, Ideal.exp
          ((if 1024 * (i 0).val + r.val = 1024 * (i 1).val + k.val then ⊥
            else (∑ d : Fin 256, v3 (ix2 r d) * v5 (ix2 k d)) * ((134217728 / 13421773 : ℝ) : EReal))
           - ((134217728 / 13421773 : ℝ) : EReal)) := by
  unfold Gen.k0_pay2
  dsimp only []
  rw [shapeCast_self, addf_apply, column_at, rowsum_at]
  refine congrArg (v24 (ix2 r (0 : Fin 1)) + ·) (Finset.sum_congr rfl fun k _ => ?_)
  rw [exp_apply, subf_apply, select_apply, mulf_apply, cmpi_apply, addi_apply, addi_apply, iota0_at, iota1_at,
    matmul_at]
  simp only [broadcast_apply]
  rw [diag_word (i 0).val (i 1).val r.val k.val (i 0).isLt (i 1).isLt r.isLt k.isLt, select_ite, inv_temp, neg_big,
    shapeCast_self, shapeCast_self]

/-! ## The third value: `μ + log` of the totals -/

theorem pay3_at (v34 : Vec Ideal S1024x1 .f32) (r : Fin 1024) :
    Gen.k0_pay3 (F := Ideal) v34 (ix2 r (0 : Fin 1))
      = ((134217728 / 13421773 : ℝ) : EReal) + Ideal.log (v34 (ix2 r (0 : Fin 1))) := by
  unfold Gen.k0_pay3
  show Named.named (F := Ideal) κ "inv_temp" (φ := .f32) 0x41200000#32 + Ideal.log (v34 (ix2 r (0 : Fin 1))) = _
  rw [inv_temp]

end Cert.KernelIdeal.PayloadAt

end
-- ==== Proof.TotalsValue.lean ====
/- What the kernel's accumulation holds, as values.

   At each grid point the body leaves, in the column of running row totals, the second stored value of the body
   (the totals it found plus the block's row sums) — over zeros at a first column block — and, at a last column
   block, the third stored value (`μ + log` of the totals) in the result block. Read at a row `r` over the
   extended reals, the totals after point `t = 16·I + J` are the sum over the column blocks `0 … J` of row block
   `I` of each block's row sum of masked, shifted exponentials, and the result block at `J = 15` is `μ + log` of
   that sum. -/
import proofs.«138523_j48455821033481_2_alg».proof.Proof.Accumulate
import proofs.«138523_j48455821033481_2_alg».proof.Proof.PayloadAt
import Idealize.ShloMosaic.Lib.Pipeline.Value
import Idealize.ShloMosaic.Lib.Tactic

set_option maxRecDepth 16384

noncomputable section

namespace Cert.KernelIdeal.TotalsValue

open Cert.KernelIdeal Cert.KernelIdeal.Gen Cert.KernelIdeal.RowLse
open Idealize.ShloMosaic Idealize.ShloMosaic.TcCoe Idealize.ShloMosaic.Tactic Idealize.SL.Sem
open Idealize.ShloMosaic.ValueIdx
open Idealize.ShloMosaic.Pipeline (Dat)

/-! ## What each case's stores leave, for any float values -/

section Pieces

variable {F : FTy → Type} [FloatOps F] [Named F]

theorem hz : (![0, 0] : Fin 2 → Nat) = fun _ => 0 := funext fun a => by fin_cases a <;> rfl

/-- A first column block leaves the block's row sums over zeros. -/
theorem totFirst_eq (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : condFirst i) (hc1 : ¬condLast i) (x0 x1 : Vec F S1024x256 .bf16) :
    totFirst c i arg2 harg2 arg3 harg3 arg4 harg4 arg5 harg5 hc0 hc1 x0 x1 = k0_pay2 i x0 x1 (k0_pay1 (F := F)) := by
  unfold totFirst
  rw [View.read_writes_eq_canon _ _ _ (scoverFirst c i arg2 harg2 arg3 harg3 arg4 harg4 arg5 harg5 hc0 hc1 x0 x1)]
  unfold runFirst
  dsimp only
  sl_unfold_words
  rw [View.canon_cons_unit_zero (S := S1024x1) hz, View.readCov_unit_zero (S := S1024x1) _ hz]
  simp only [View.readAt_eq_ld, harg2.read_unread, harg3.read_unread, View.ld_unit_zero (S := S1024x256) hz]

/-- A middle column block leaves the block's row sums over the totals it found. -/
theorem totMiddle_eq (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬condFirst i) (hc1 : ¬condLast i) (x0 x1 : Vec F S1024x256 .bf16) (xs : Vec F S1024x1 .f32) :
    totMiddle c i arg2 harg2 arg3 harg3 arg4 harg4 arg5 harg5 hc0 hc1 x0 x1 xs = k0_pay2 i x0 x1 xs := by
  unfold totMiddle
  rw [View.read_writes_eq_canon _ _ _ (scoverMiddle c i arg2 harg2 arg3 harg3 arg4 harg4 arg5 harg5 hc0 hc1 x0 x1 xs)]
  unfold runMiddle
  dsimp only
  rw [View.canon_unit_zero hz]
  simp only [View.readAt_eq_ld, harg2.read_unread, harg3.read_unread, harg5.read_unread,
    View.ld_unit_zero (S := S1024x256) hz, View.ld_unit_zero (S := S1024x1) hz]

/-- So does a last column block … -/
theorem totLast_eq (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬condFirst i) (hc1 : condLast i) (x0 x1 : Vec F S1024x256 .bf16) (xs : Vec F S1024x1 .f32) :
    totLast c i arg2 harg2 arg3 harg3 arg4 harg4 arg5 harg5 hc0 hc1 x0 x1 xs = k0_pay2 i x0 x1 xs := by
  unfold totLast
  rw [View.read_writes_eq_canon _ _ _ (scoverLast c i arg2 harg2 arg3 harg3 arg4 harg4 arg5 harg5 hc0 hc1 x0 x1 xs)]
  unfold runLast
  dsimp only
  sl_unfold_words
  rw [View.canon_unit_zero hz]
  simp only [View.readAt_eq_ld, harg2.read_unread, harg3.read_unread, harg5.read_unread,
    View.ld_unit_zero (S := S1024x256) hz, View.ld_unit_zero (S := S1024x1) hz]

/-- … which also stores, in the result block, `μ + log` of those totals. -/
theorem outLast_eq (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬condFirst i) (hc1 : condLast i) (x0 x1 : Vec F S1024x256 .bf16) (xs : Vec F S1024x1 .f32) :
    outLast c i arg2 harg2 arg3 harg3 arg4 harg4 arg5 harg5 hc0 hc1 x0 x1 xs = k0_pay3 (k0_pay2 i x0 x1 xs) := by
  unfold outLast
  rw [View.read_writes_eq_canon _ _ _ (coverLast c i arg2 harg2 arg3 harg3 arg4 harg4 arg5 harg5 hc0 hc1 x0 x1 xs)]
  unfold runLast
  dsimp only
  sl_unfold_words
  rw [View.canon_unit_zero hz, View.readCov_unit_zero (S := S1024x1) _ hz]
  simp only [View.readAt_eq_ld, harg2.read_unread, harg3.read_unread, harg5.read_unread,
    View.ld_unit_zero (S := S1024x256) hz, View.ld_unit_zero (S := S1024x1) hz]

end Pieces

/-! ## The totals and the result block at a row, over the extended reals -/

section AtIdeal

variable (m : (ℓ : Loc nD τ sig) → Buf (Elt Ideal) ℓ)

/-- The reciprocal of the temperature. -/
abbrev μ : EReal := ((134217728 / 13421773 : ℝ) : EReal)

/-- One block's contribution to row `r` of row block `I`, against column block `J`: the sum over the block's 1024
    columns of `exp (T - μ)`, `T` being `-∞` where the global row is the global column and otherwise the inner
    product of row `r` of `x0` with row `k` of `x1`, times `μ`. -/
def blockSum (I J : ℕ) (x0 x1 : Vec Ideal S1024x256 .bf16) (r : Fin 1024) : EReal :=
  ∑ k : Fin 1024, Ideal.exp
    ((if 1024 * I + r.val = 1024 * J + k.val then ⊥ else (∑ d : Fin 256, x0 (ix2 r d) * x1 (ix2 k d)) * μ) - μ)

/-- The second stored value at row `r`: the totals found plus the block's contribution. -/
theorem pay2_row (i : grid0.Coords) (x0 x1 : Vec Ideal S1024x256 .bf16) (xs : Vec Ideal S1024x1 .f32) (r : Fin 1024) :
    k0_pay2 (F := Ideal) i x0 x1 xs (ix2 r (0 : Fin 1)) = xs (ix2 r (0 : Fin 1)) + blockSum (i 0).val (i 1).val x0 x1 r :=
  PayloadAt.pay2_at i x0 x1 xs r

/-- Point `t` of the 16 × 16 grid is row block `t / 16`, column block `t % 16`. -/
theorem coords_val : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

/-- Point `n`'s contribution to row `r` of its row block (zero past the grid). -/
def term (c : Dev nD) (n : ℕ) (r : Fin 1024) : EReal :=
  if h : n < cfg0.N then blockSum (n / 16) (n % 16) (iblk m c 0 ⟨n, h⟩) (iblk m c 1 ⟨n, h⟩) r else 0

theorem term_of_lt (c : Dev nD) (t : Fin cfg0.N) (r : Fin 1024) :
    term m c t.val r = blockSum (t.val / 16) (t.val % 16) (iblk m c 0 t) (iblk m c 1 t) r := by
  unfold term; rw [dif_pos t.isLt]

/-- The totals at row `r` after point `n`: the contributions of the points of the same row block up to `n`. -/
def rowTot (c : Dev nD) (n : ℕ) (r : Fin 1024) : EReal :=
  ∑ j ∈ Finset.range (n % 16 + 1), term m c (16 * (n / 16) + j) r

/-- What the body's second stored value is at point `t`, over totals `xs`. -/
theorem pay2_point (c : Dev nD) (t : Fin cfg0.N) (xs : Vec Ideal S1024x1 .f32) (r : Fin 1024) :
    k0_pay2 (F := Ideal) (grid0.coords t) (iblk m c 0 t) (iblk m c 1 t) xs (ix2 r (0 : Fin 1))
      = xs (ix2 r (0 : Fin 1)) + term m c t.val r := by
  rw [term_of_lt, ← (coords_val t).1, ← (coords_val t).2]
  exact pay2_row (grid0.coords t) (iblk m c 0 t) (iblk m c 1 t) xs r

/-- THE TOTALS, in closed form: after point `n` the column of running totals holds, at row `r`, `rowTot`. -/
theorem totals_eq (c : Dev nD) (r : Fin 1024) :
    ∀ (n : ℕ) (h : n < cfg0.N), (outsAt m c n h).2 (ix2 r (0 : Fin 1)) = rowTot m c n r := by
  intro n
  induction n with
  | zero =>
    intro h
    have e := outsAt_First m c ⟨0, h⟩ (Nat.zero_mod _) (by show ¬ (0 % 16 = 15); decide)
    rw [show outsAt m c 0 h = outsAt m c (⟨0, h⟩ : Fin cfg0.N).val (⟨0, h⟩ : Fin cfg0.N).isLt from rfl, e]
    dsimp only
    rw [totFirst_eq, pay2_point, PayloadAt.pay1_at, zero_add]
    unfold rowTot
    simp
  | succ n ih =>
    intro h
    have hN : cfg0.N = 256 := N_0
    by_cases h0 : (n + 1) % 16 = 0
    · have h1 : ¬ (n + 1) % 16 = 15 := by omega
      have e := outsAt_First m c ⟨n + 1, h⟩ h0 h1
      rw [show outsAt m c (n + 1) h = outsAt m c (⟨n + 1, h⟩ : Fin cfg0.N).val (⟨n + 1, h⟩ : Fin cfg0.N).isLt from rfl, e]
      dsimp only
      rw [totFirst_eq, pay2_point, PayloadAt.pay1_at, zero_add]
      unfold rowTot
      rw [h0, Finset.sum_range_one]
      show term m c (n + 1) r = _
      congr 1
      omega
    · have hprev := ih (Nat.lt_of_succ_lt h)
      have hsum : rowTot m c (n + 1) r = rowTot m c n r + term m c (n + 1) r := by
        unfold rowTot
        have e1 : (n + 1) % 16 = n % 16 + 1 := by omega
        have e2 : (n + 1) / 16 = n / 16 := by omega
        rw [e1, e2, Finset.sum_range_succ]
        congr 2
        omega
      by_cases h1 : (n + 1) % 16 = 15
      · have e := outsAt_Last m c ⟨n + 1, h⟩ h0 h1
        rw [show outsAt m c (n + 1) h = outsAt m c (⟨n + 1, h⟩ : Fin cfg0.N).val (⟨n + 1, h⟩ : Fin cfg0.N).isLt from rfl, e]
        dsimp only
        rw [totLast_eq, pay2_point, hsum]
        exact congrArg (· + term m c (n + 1) r) hprev
      · have e := outsAt_Middle m c ⟨n + 1, h⟩ h0 h1
        rw [show outsAt m c (n + 1) h = outsAt m c (⟨n + 1, h⟩ : Fin cfg0.N).val (⟨n + 1, h⟩ : Fin cfg0.N).isLt from rfl, e]
        dsimp only
        rw [totMiddle_eq, pay2_point, hsum]
        exact congrArg (· + term m c (n + 1) r) hprev

/-- THE RESULT BLOCK: at a last column block it holds, at row `r`, `μ + log` of the row's totals. -/
theorem result_eq (c : Dev nD) (t : Fin cfg0.N) (h1 : t.val % 16 = 15) (r : Fin 1024) :
    (outsAt m c t.val t.isLt).1 (ix2 r (0 : Fin 1)) = μ + Ideal.log (rowTot m c t.val r) := by
  have h0 : ¬ t.val % 16 = 0 := by omega
  have ht := totals_eq m c r t.val t.isLt
  rw [outsAt_Last m c t h0 h1] at ht ⊢
  dsimp only at ht ⊢
  rw [outLast_eq, PayloadAt.pay3_at]
  rw [totLast_eq] at ht
  rw [ht]

end AtIdeal

end Cert.KernelIdeal.TotalsValue

end
-- ==== Proof.LseAlgebra.lean ====
/- The pure mathematics of the contrastive-loss certificate, over the extended reals, with no program in sight.

   Both programs compute, for each row `i` of a similarity matrix whose diagonal entry is masked to `-∞`,
   a log-sum-exp of the row. One program shifts the exponentials by the row's maximum `M`, the other by a
   fixed constant `μ`; the value `s + log (∑ₖ exp (yₖ - s))` does not depend on the real shift `s` as long
   as at least one entry of the row is real (a masked entry contributes `exp (-∞) = 0`). This module proves
   that law with exactly the extended-real operations the programs use, and the bookkeeping around it:
   negation and division by a nonzero real pushed through finite sums of reals, the product with a folded
   reciprocal against the quotient, the normalisation of a row by its (clamped) Euclidean norm staying real,
   the float constants the programs spell, and a row sum accumulated block by block. -/
import Idealize.ShloMosaic.PureOps.Ideal

noncomputable section

namespace Cert.LseAlgebra

open Idealize.ShloMosaic
open scoped BigOperators

/-! ## Coercions through finite sums -/

/-- The coercion `ℝ → EReal` commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of extended reals each of which is a real is that real sum. -/
theorem sum_eq_coe {ι : Type*} (s : Finset ι) (f : ι → EReal) (r : ι → ℝ) (h : ∀ i ∈ s, f i = (r i : EReal)) :
    ∑ i ∈ s, f i = ((∑ i ∈ s, r i : ℝ) : EReal) := by
  rw [coe_sum]; exact Finset.sum_congr rfl h

/-- A finite sum of reals is a real. -/
theorem sum_real {ι : Type*} (s : Finset ι) (f : ι → EReal) (h : ∀ i ∈ s, ∃ r : ℝ, f i = (r : EReal)) :
    ∃ r : ℝ, ∑ i ∈ s, f i = (r : EReal) := by
  classical
  choose! r hr using h
  exact ⟨_, sum_eq_coe s f r hr⟩

/-- A product of two reals is a real. -/
theorem mul_real {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb
  exact ⟨x * y, (EReal.coe_mul x y).symm⟩

/-- An inner product of two real vectors is the real inner product. -/
theorem dot_eq_coe {ι : Type*} (s : Finset ι) (u v : ι → ℝ) :
    ∑ d ∈ s, (u d : EReal) * (v d : EReal) = ((∑ d ∈ s, u d * v d : ℝ) : EReal) :=
  sum_eq_coe s _ _ fun d _ => (EReal.coe_mul (u d) (v d)).symm

/-! ## The log-sum-exp of a masked row

  `y : K → EReal` is a row: the entry at a masked index is `⊥`, the entry at any other index the real
  `x k`. `Z` is the real `∑_{k unmasked} exp (x k)`, positive as soon as one index is unmasked. -/

section Lse

variable {K : Type*} [Fintype K] (masked : K → Prop) [DecidablePred masked] (x : K → ℝ)

/-- The real partition sum of the unmasked entries. -/
def Z : ℝ := ∑ k, if masked k then 0 else Real.exp (x k)

theorem Z_pos (hne : ∃ j, ¬ masked j) : 0 < Z masked x := by
  obtain ⟨j, hj⟩ := hne
  refine Finset.sum_pos' (fun k _ => ?_) ⟨j, Finset.mem_univ j, ?_⟩
  · split_ifs
    · exact le_rfl
    · exact (Real.exp_pos _).le
  · rw [if_neg hj]; exact Real.exp_pos _

variable {masked x}
variable {y : K → EReal} (hy : ∀ k, y k = if masked k then ⊥ else (x k : EReal))
include hy

/-- One shifted exponential: `exp (-∞ - s) = 0` at a masked index, the real `exp (x k - s)` elsewhere. -/
theorem exp_sub_shift (s : ℝ) (k : K) :
    Ideal.exp (y k - (s : EReal)) = (((if masked k then 0 else Real.exp (x k - s)) : ℝ) : EReal) := by
  rw [hy k]
  split_ifs with h
  · rw [EReal.bot_sub, Ideal.exp_bot, EReal.coe_zero]
  · rw [← EReal.coe_sub, Ideal.exp_coe]

/-- The row's sum of shifted exponentials is the real `exp (-s) * Z`. -/
theorem sum_exp_sub_shift (s : ℝ) :
    ∑ k, Ideal.exp (y k - (s : EReal)) = ((Real.exp (-s) * Z masked x : ℝ) : EReal) := by
  rw [sum_eq_coe Finset.univ _ _ fun k _ => exp_sub_shift hy s k]
  congr 1
  rw [Z, Finset.mul_sum]
  refine Finset.sum_congr rfl fun k _ => ?_
  split_ifs
  · rw [mul_zero]
  · rw [← Real.exp_add]; congr 1; ring

/-- Its logarithm: `log Z - s`, a real, when some index is unmasked. -/
theorem log_sum_exp_sub_shift (hne : ∃ j, ¬ masked j) (s : ℝ) :
    Ideal.log (∑ k, Ideal.exp (y k - (s : EReal))) = ((Real.log (Z masked x) - s : ℝ) : EReal) := by
  have hZ := Z_pos masked x hne
  rw [sum_exp_sub_shift hy s, Ideal.log_coe, if_neg (not_le.2 (mul_pos (Real.exp_pos _) hZ)),
    Real.log_mul (Real.exp_pos _).ne' hZ.ne', Real.log_exp]
  congr 1; ring

/-- SHIFT INVARIANCE, value form: `s + log (∑ₖ exp (yₖ - s))` is the real `log Z` whatever the real `s`. -/
theorem shift_add_log_sum_exp (hne : ∃ j, ¬ masked j) (s : ℝ) :
    (s : EReal) + Ideal.log (∑ k, Ideal.exp (y k - (s : EReal))) = ((Real.log (Z masked x) : ℝ) : EReal) := by
  rw [log_sum_exp_sub_shift hy hne s, ← EReal.coe_add]
  congr 1; ring

/-- SHIFT INVARIANCE: two real shifts give the same extended real. -/
theorem shift_invariance (hne : ∃ j, ¬ masked j) (a b : ℝ) :
    (a : EReal) + Ideal.log (∑ k, Ideal.exp (y k - (a : EReal)))
      = (b : EReal) + Ideal.log (∑ k, Ideal.exp (y k - (b : EReal))) := by
  rw [shift_add_log_sum_exp hy hne a, shift_add_log_sum_exp hy hne b]

/-- The log-softmax form, at an unmasked index `j` and with any real shift `M` (the row's maximum in the
    program that takes one): `(y j - M) - log (∑ₖ exp (yₖ - M))` is the real `x j - log Z`. -/
theorem log_softmax_at (hne : ∃ j, ¬ masked j) (M : ℝ) {j : K} (hj : ¬ masked j) :
    (y j - (M : EReal)) - Ideal.log (∑ k, Ideal.exp (y k - (M : EReal)))
      = ((x j - Real.log (Z masked x) : ℝ) : EReal) := by
  rw [log_sum_exp_sub_shift hy hne M, hy j, if_neg hj, ← EReal.coe_sub, ← EReal.coe_sub]
  congr 1; ring

/-- The shifted log-sum-exp minus a real `p`: the real `log Z - p`. -/
theorem lse_sub (hne : ∃ j, ¬ masked j) (μ p : ℝ) :
    ((μ : EReal) + Ideal.log (∑ k, Ideal.exp (y k - (μ : EReal)))) - (p : EReal)
      = ((Real.log (Z masked x) - p : ℝ) : EReal) := by
  rw [shift_add_log_sum_exp hy hne μ, ← EReal.coe_sub]

/-- THE ROW LAW: the log-sum-exp shifted by `μ`, minus the entry at an unmasked `j`, is the negative of
    the log-softmax shifted by `M` read at `j`. -/
theorem lse_sub_eq_neg_log_softmax (hne : ∃ j, ¬ masked j) (μ M : ℝ) {j : K} (hj : ¬ masked j) :
    ((μ : EReal) + Ideal.log (∑ k, Ideal.exp (y k - (μ : EReal)))) - (x j : EReal)
      = -((y j - (M : EReal)) - Ideal.log (∑ k, Ideal.exp (y k - (M : EReal)))) := by
  rw [lse_sub hy hne μ (x j), log_softmax_at hy hne M hj, ← EReal.coe_neg]
  congr 1; ring

end Lse

/-! ## The row maximum is a real -/

/-- The fold of `max` from `-∞` over entries none of which is `+∞` and one of which is not `-∞` is a real. -/
theorem fold_max_real {K : Type*} (s : Finset K) (y : K → EReal)
    (hy : ∀ k ∈ s, y k ≠ ⊤) (hne : ∃ k ∈ s, y k ≠ ⊥) :
    ∃ r : ℝ, s.fold max ⊥ y = (r : EReal) := by
  have htop : s.fold max ⊥ y ≠ ⊤ := by
    rw [← lt_top_iff_ne_top, Finset.fold_max_lt]
    exact ⟨bot_lt_top, fun k hk => lt_top_iff_ne_top.2 (hy k hk)⟩
  have hbot : s.fold max ⊥ y ≠ ⊥ := by
    obtain ⟨k, hk, hk'⟩ := hne
    rw [← bot_lt_iff_ne_bot]
    exact lt_of_lt_of_le (bot_lt_iff_ne_bot.2 hk') ((Finset.le_fold_max _).2 (Or.inr ⟨k, hk, le_rfl⟩))
  exact ⟨_, (EReal.coe_toReal htop hbot).symm⟩

/-- The maximum of a masked row with an unmasked index is a real. -/
theorem fold_max_masked_real {K : Type*} [Fintype K] {masked : K → Prop} [DecidablePred masked] {x : K → ℝ}
    {y : K → EReal} (hy : ∀ k, y k = if masked k then ⊥ else (x k : EReal)) (hne : ∃ j, ¬ masked j) :
    ∃ r : ℝ, Finset.univ.fold max ⊥ y = (r : EReal) := by
  refine fold_max_real _ y (fun k _ => ?_) ?_
  · rw [hy k]; split_ifs
    · exact bot_ne_top
    · exact EReal.coe_ne_top _
  · obtain ⟨j, hj⟩ := hne
    exact ⟨j, Finset.mem_univ j, by rw [hy j, if_neg hj]; exact EReal.coe_ne_bot _⟩

/-! ## Negation and division by a nonzero real -/

/-- Negation comes out of a finite sum of reals. -/
theorem sum_neg_coe {ι : Type*} (s : Finset ι) (r : ι → ℝ) :
    ∑ i ∈ s, -(r i : EReal) = -∑ i ∈ s, (r i : EReal) := by
  rw [sum_eq_coe s (fun i => -(r i : EReal)) (fun i => -r i) (fun i _ => (EReal.coe_neg _).symm),
    Finset.sum_neg_distrib, EReal.coe_neg, coe_sum]

/-- The same for extended reals known to be reals. -/
theorem sum_neg_of_real {ι : Type*} (s : Finset ι) (f : ι → EReal) (hf : ∀ i ∈ s, ∃ r : ℝ, f i = (r : EReal)) :
    ∑ i ∈ s, -f i = -∑ i ∈ s, f i := by
  classical
  choose! r hr using hf
  rw [Finset.sum_congr rfl (fun i hi => by rw [hr i hi] : ∀ i ∈ s, -f i = -(r i : EReal)),
    Finset.sum_congr rfl hr, sum_neg_coe]

/-- The quotient of two reals, the divisor nonzero, is the real quotient. -/
theorem div_coe_coe (a : ℝ) {r : ℝ} (hr : r ≠ 0) : Ideal.div (a : EReal) (r : EReal) = ((a / r : ℝ) : EReal) := by
  rw [Ideal.div_coe hr, ← EReal.coe_mul, mul_one_div]

/-- Negation comes out of a division by a nonzero real. -/
theorem div_neg_left (x : EReal) {r : ℝ} (hr : r ≠ 0) :
    Ideal.div (-x) (r : EReal) = -Ideal.div x (r : EReal) := by
  rw [Ideal.div_coe hr, Ideal.div_coe hr, EReal.neg_mul]

/-- THE MEAN LAW: if each `d i` is the negative of the real `g i`, the mean of the `d` is the negative of
    the mean of the `g`. -/
theorem mean_neg {ι : Type*} (s : Finset ι) (d g : ι → EReal) (hg : ∀ i ∈ s, ∃ r : ℝ, g i = (r : EReal))
    (hd : ∀ i ∈ s, d i = -g i) {n : ℝ} (hn : n ≠ 0) :
    Ideal.div (∑ i ∈ s, d i) (n : EReal) = -Ideal.div (∑ i ∈ s, g i) (n : EReal) := by
  rw [Finset.sum_congr rfl hd, sum_neg_of_real s g hg, div_neg_left _ hn]

/-! ## The constants the programs spell -/

/-- The temperature: the f32 word nearest `0.1` denotes `13421773 / 2^27`. -/
theorem ofBits_temp : Ideal.ofBits .f32 0x3DCCCCCD#32 = ((13421773 / 134217728 : ℝ) : EReal) := by
  simp [Ideal.ofBits, Ideal.ieee, -EReal.coe_mul]; norm_num

/-- The norm's floor: the f32 word nearest `1e-12` denotes `9223372 / 2^63`. -/
theorem ofBits_eps : Ideal.ofBits .f32 0x2B8CBCCC#32 = ((9223372 / 9223372036854775808 : ℝ) : EReal) := by
  simp [Ideal.ofBits, Ideal.ieee, -EReal.coe_mul]; norm_num

/-- The `-∞` word. -/
theorem ofBits_neg_inf : Ideal.ofBits .f32 0xFF800000#32 = ⊥ := by
  simp [Ideal.ofBits, Ideal.ieee]

/-- The product with the folded reciprocal of the temperature is the quotient by the temperature. -/
theorem mul_inv_temp (x : EReal) :
    x * ((134217728 / 13421773 : ℝ) : EReal) = Ideal.div x ((13421773 / 134217728 : ℝ) : EReal) := by
  have h : (1 / (13421773 / 134217728 : ℝ)) = 134217728 / 13421773 := by norm_num
  rw [Ideal.div_coe (by norm_num), h]

/-- The same against the temperature's word. -/
theorem mul_inv_temp_ofBits (x : EReal) :
    x * ((134217728 / 13421773 : ℝ) : EReal) = Ideal.div x (Ideal.ofBits .f32 0x3DCCCCCD#32) := by
  rw [ofBits_temp, mul_inv_temp]

/-! ## Normalising a row by its clamped Euclidean norm keeps it real -/

theorem sqrt_coe_of_nonneg {s : ℝ} (hs : 0 ≤ s) : Ideal.sqrt (s : EReal) = ((Real.sqrt s : ℝ) : EReal) := by
  rw [Ideal.sqrt_coe, if_neg (not_lt.2 hs)]

theorem max_coe (a b : ℝ) : max (a : EReal) (b : EReal) = ((max a b : ℝ) : EReal) :=
  (EReal.coe_strictMono.monotone.map_max).symm

/-- A real divided by the larger of the root of a nonnegative real and a positive real is a real. -/
theorem normalise_coe (x : ℝ) {s e : ℝ} (hs : 0 ≤ s) (he : 0 < e) :
    Ideal.div (x : EReal) (max (Ideal.sqrt (s : EReal)) (e : EReal)) = ((x / max (Real.sqrt s) e : ℝ) : EReal) := by
  rw [sqrt_coe_of_nonneg hs, max_coe, div_coe_coe x (lt_of_lt_of_le he (le_max_right _ _)).ne']

/-- The normalised entry of a real row `u`, with the programs' floor word: a real. -/
theorem normalise_row {ι : Type*} (s : Finset ι) (u : ι → ℝ) (d : ι) :
    Ideal.div (u d : EReal)
        (max (Ideal.sqrt (∑ d' ∈ s, (u d' : EReal) * (u d' : EReal))) (Ideal.ofBits .f32 0x2B8CBCCC#32))
      = ((u d / max (Real.sqrt (∑ d' ∈ s, u d' * u d')) (9223372 / 9223372036854775808) : ℝ) : EReal) := by
  rw [dot_eq_coe, ofBits_eps,
    normalise_coe (u d) (Finset.sum_nonneg fun d' _ => mul_self_nonneg (u d')) (by norm_num)]

/-! ## A sum accumulated block by block -/

/-- A sum over `a` blocks of `b` consecutive indices is the sum over all `a * b` indices. -/
theorem sum_blocks {M : Type*} [AddCommMonoid M] (a b : ℕ) (f : Fin (a * b) → M) :
    ∑ j : Fin a, ∑ k : Fin b, f (finProdFinEquiv (j, k)) = ∑ n : Fin (a * b), f n := by
  rw [← Equiv.sum_comp finProdFinEquiv f, Fintype.sum_prod_type]

/-- The instance the row sum uses: 16 blocks of 1024 columns, the column index `1024 * j + k`. -/
theorem sum_blocks_16_1024 {M : Type*} [AddCommMonoid M] (f : Fin 16384 → M) :
    ∑ j : Fin 16, ∑ k : Fin 1024, f ⟨1024 * j.val + k.val, by omega⟩ = ∑ n : Fin 16384, f n := by
  rw [← sum_blocks 16 1024 f]
  refine Finset.sum_congr rfl fun j _ => Finset.sum_congr rfl fun k _ => congrArg f (Fin.ext ?_)
  simp [finProdFinEquiv]; omega

/-! ## The temperature on reals -/

/-- A real divided by the temperature's word: a real. -/
theorem div_temp_coe (r : ℝ) :
    Ideal.div (r : EReal) (Ideal.ofBits .f32 0x3DCCCCCD#32) = ((r / (13421773 / 134217728) : ℝ) : EReal) := by
  rw [ofBits_temp, div_coe_coe r (by norm_num)]

/-- A real times the folded reciprocal of the temperature: the same real. -/
theorem mul_inv_temp_coe (r : ℝ) :
    (r : EReal) * ((134217728 / 13421773 : ℝ) : EReal) = ((r / (13421773 / 134217728) : ℝ) : EReal) := by
  rw [mul_inv_temp_ofBits, div_temp_coe]

/-! ## All rows at once

  Rows `i : I`, columns `k : K`. Row `i` has its masked columns, at least one column unmasked, and a chosen
  unmasked column `pos i`. One side takes, per row, the log-sum-exp shifted by the constant `μ` minus the
  entry at `pos i` and averages; the other takes the log-softmax shifted by the row's own `M i`, reads it at
  `pos i`, averages, and negates. -/

theorem mean_lse_sub_eq_neg_mean_log_softmax {I K : Type*} [Fintype K] (rows : Finset I)
    {masked : I → K → Prop} [∀ i, DecidablePred (masked i)] {x : I → K → ℝ} {y : I → K → EReal}
    (hy : ∀ i ∈ rows, ∀ k, y i k = if masked i k then ⊥ else (x i k : EReal))
    (pos : I → K) (hpos : ∀ i ∈ rows, ¬ masked i (pos i))
    (μ : ℝ) (M : I → ℝ) (p : I → EReal) (hp : ∀ i ∈ rows, p i = (x i (pos i) : EReal))
    {n : ℝ} (hn : n ≠ 0) :
    Ideal.div (∑ i ∈ rows, (((μ : EReal) + Ideal.log (∑ k, Ideal.exp (y i k - (μ : EReal)))) - p i)) (n : EReal)
      = -Ideal.div (∑ i ∈ rows, ((y i (pos i) - (M i : EReal))
            - Ideal.log (∑ k, Ideal.exp (y i k - (M i : EReal))))) (n : EReal) := by
  refine mean_neg rows _ _ (fun i hi => ?_) (fun i hi => ?_) hn
  · exact ⟨_, log_softmax_at (hy i hi) ⟨pos i, hpos i hi⟩ (M i) (hpos i hi)⟩
  · rw [hp i hi]
    exact lse_sub_eq_neg_log_softmax (hy i hi) ⟨pos i, hpos i hi⟩ μ (M i) (hpos i hi)

/-! ## A sum over two halves -/

/-- A sum over `Fin 16384` is the sum over the first 8192 indices plus the sum over the last 8192. -/
theorem sum_halves {M : Type*} [AddCommMonoid M] (f : Fin 16384 → M) :
    ∑ n : Fin 16384, f n
      = ∑ i : Fin 8192, f ⟨i.val, by omega⟩ + ∑ i : Fin 8192, f ⟨i.val + 8192, by omega⟩ := by
  have h := Fin.sum_univ_add (M := M) (a := 8192) (b := 8192) (fun n => f (Fin.cast (by norm_num) n))
  have e : (∑ n : Fin 16384, f n) = ∑ n : Fin (8192 + 8192), f (Fin.cast (by norm_num) n) :=
    (Equiv.sum_comp (finCongr (by norm_num : 8192 + 8192 = 16384)) f).symm
  rw [e, h]
  refine congrArg₂ (· + ·) (Finset.sum_congr rfl fun i _ => congrArg f (Fin.ext ?_))
    (Finset.sum_congr rfl fun i _ => congrArg f (Fin.ext ?_))
  · simp
  · simp [Nat.add_comm]

/-! ## An accumulator run over the blocks -/

/-- An accumulator that starts at zero and adds the `t`-th term at step `t` holds, after `n` steps, the sum of
    the `n` terms. -/
theorem acc_eq_sum {M : Type*} [AddCommMonoid M] {n : ℕ} (s : Fin n → M) (acc : ℕ → M) (h0 : acc 0 = 0)
    (hs : ∀ t (h : t < n), acc (t + 1) = acc t + s ⟨t, h⟩) : acc n = ∑ j : Fin n, s j := by
  induction n with
  | zero => simpa using h0
  | succ m ih =>
    rw [Fin.sum_univ_castSucc, hs m (Nat.lt_succ_self m),
      ih (fun j => s j.castSucc) fun t h => hs t (Nat.lt_succ_of_lt h)]
    rfl

end Cert.LseAlgebra

end
-- ==== Proof.ResultArray.lean ====
/- The kernel's result array, as one function of the normalised matrix.

   The two input windows cut the same matrix `Z` (16384 rows of 256) into 16 blocks of 1024 rows: at grid point
   `t` the first window holds row block `t / 16`, the second row block `t % 16`. So the totals a row block has
   accumulated when its last column block is done are, for the row `ρ` of `Z`, the sum over ALL 16384 rows `n` of
   `exp (T ρ n - μ)`, `T ρ n` being `-∞` at `n = ρ` and otherwise the inner product of rows `ρ` and `n` times `μ`;
   and the result array holds, at row `ρ`, `μ + log` of that sum: the points `16·I + 15` write back the 16 blocks
   that tile it. -/
import proofs.«138523_j48455821033481_2_alg».proof.Proof.TotalsValue
import proofs.«138523_j48455821033481_2_alg».proof.Proof.RegionLaunch
import proofs.«138523_j48455821033481_2_alg».proof.Proof.LseAlgebra

set_option maxRecDepth 16384

noncomputable section

namespace Cert.KernelIdeal.ResultArray

open Cert.KernelIdeal Cert.KernelIdeal.Gen Cert.KernelIdeal.RowLse Cert.KernelIdeal.TotalsValue
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The normalised matrix as the region finds it. -/
abbrev Zb (c : Dev nD) : S16384x256.Idx → EReal := V m c main_v41

/-! ## The blocks read off the matrix -/

/-- The printed index maps, decided over the grid: the first window's block is row block `t / 16`, the second's
    row block `t % 16`, the result window's row block `t / 16`. -/
theorem idx_facts : ∀ t : Fin cfg0.N, win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0 :=
  (by decide +kernel : ∀ t : Fin grid0.N, win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0)

/-- Row `r` of the first window's block at point `t` is row `1024 · (t / 16) + r` of the matrix. -/
theorem iblk0_apply (c : Dev nD) (t : Fin cfg0.N) (r : Fin 1024) (d : Fin 256) (ρ : Fin 16384)
    (hρ : ρ.val = 1024 * (t.val / 16) + r.val) :
    (iblk m c 0 t : Vec Ideal S1024x256 .bf16) (ix2 r d) = Zb m c (ix2 ρ d) := by
  obtain ⟨e0, e1, -, -, -, -⟩ := idx_facts t
  unfold iblk
  rw [View.read_apply]
  show V m c main_v41 _ = V m c main_v41 _
  refine congrArg (V m c main_v41) (funext fun a => Fin.ext ?_)
  match a with
  | ⟨0, _⟩ => show win0_0.index t (0 : Fin 2) * 1024 + 1 * r.val = ρ.val; rw [e0, hρ]; omega
  | ⟨1, _⟩ => show win0_0.index t (1 : Fin 2) * 256 + 1 * d.val = d.val; rw [e1]; omega

/-- Row `k` of the second window's block at point `t` is row `1024 · (t % 16) + k` of the matrix. -/
theorem iblk1_apply (c : Dev nD) (t : Fin cfg0.N) (k : Fin 1024) (d : Fin 256) (n : Fin 16384)
    (hn : n.val = 1024 * (t.val % 16) + k.val) :
    (iblk m c 1 t : Vec Ideal S1024x256 .bf16) (ix2 k d) = Zb m c (ix2 n d) := by
  obtain ⟨-, -, e0, e1, -, -⟩ := idx_facts t
  unfold iblk
  rw [View.read_apply]
  show V m c main_v41 _ = V m c main_v41 _
  refine congrArg (V m c main_v41) (funext fun a => Fin.ext ?_)
  match a with
  | ⟨0, _⟩ => show win0_1.index t (0 : Fin 2) * 1024 + 1 * k.val = n.val; rw [e0, hn]; omega
  | ⟨1, _⟩ => show win0_1.index t (1 : Fin 2) * 256 + 1 * d.val = d.val; rw [e1]; omega

/-! ## A row's totals over the whole matrix -/

/-- The shifted exponential of the masked, scaled similarity of rows `ρ` and `n` of a matrix `Z`. -/
def entry (Z : S16384x256.Idx → EReal) (ρ n : Fin 16384) : EReal :=
  Ideal.exp ((if ρ = n then ⊥ else (∑ d : Fin 256, Z (ix2 ρ d) * Z (ix2 n d)) * μ) - μ)

/-- One block's contribution, when its two operand blocks are rows of `Z`: the entries of row `ρ` against the
    block's 1024 rows. -/
theorem blockSum_eq (I J : ℕ) (x0 x1 : Vec Ideal S1024x256 .bf16) (Z : S16384x256.Idx → EReal) (r : Fin 1024)
    (ρ : Fin 16384) (col : Fin 1024 → Fin 16384) (hρ : ρ.val = 1024 * I + r.val)
    (hcol : ∀ k, (col k).val = 1024 * J + k.val)
    (h0 : ∀ d, x0 (ix2 r d) = Z (ix2 ρ d)) (h1 : ∀ k d, x1 (ix2 k d) = Z (ix2 (col k) d)) :
    blockSum I J x0 x1 r = ∑ k : Fin 1024, entry Z ρ (col k) := by
  unfold blockSum entry
  refine Finset.sum_congr rfl fun k _ => ?_
  have hc : (1024 * I + r.val = 1024 * J + k.val) ↔ ρ = col k := by
    rw [Fin.ext_iff, hρ, hcol k]
  by_cases e : ρ = col k
  · rw [if_pos (hc.2 e), if_pos e]
  · rw [if_neg (fun h => e (hc.1 h)), if_neg e]
    simp only [h0, h1]

/-- THE TOTALS OF A ROW when its row block's last column block is done: the sum over all rows of the matrix. -/
theorem rowTot_last (c : Dev nD) (n : ℕ) (I : Fin 16) (hn : n = 16 * I.val + 15) (r : Fin 1024) (ρ : Fin 16384)
    (hρ : ρ.val = 1024 * I.val + r.val) :
    rowTot m c n r = ∑ k : Fin 16384, entry (Zb m c) ρ k := by
  subst hn
  have hN : cfg0.N = 256 := N_0
  rw [← LseAlgebra.sum_blocks_16_1024 (fun k => entry (Zb m c) ρ k)]
  unfold rowTot
  rw [show (16 * I.val + 15) % 16 + 1 = 16 by omega, show (16 * I.val + 15) / 16 = I.val by omega, Finset.sum_range]
  refine Finset.sum_congr rfl fun j _ => ?_
  have hlt : 16 * I.val + j.val < cfg0.N := by omega
  have e1 : (16 * I.val + j.val) / 16 = I.val := by omega
  have e2 : (16 * I.val + j.val) % 16 = j.val := by omega
  have ht := term_of_lt m c ⟨16 * I.val + j.val, hlt⟩ r
  dsimp only at ht
  rw [ht, e1, e2]
  exact blockSum_eq I.val j.val _ _ (Zb m c) r ρ (fun k => ⟨1024 * j.val + k.val, by omega⟩) hρ (fun k => rfl)
    (fun d => iblk0_apply m c ⟨16 * I.val + j.val, hlt⟩ r d ρ (by dsimp only; rw [e1]; exact hρ))
    (fun k d => iblk1_apply m c ⟨16 * I.val + j.val, hlt⟩ k d _ (by dsimp only; rw [e2]))

/-! ## The result array -/

/-- The log-sum-exp of row `ρ` of the masked, scaled similarity matrix of `Z`, shifted by `μ`. -/
def lse (Z : S16384x256.Idx → EReal) (ρ : Fin 16384) : EReal := μ + Ideal.log (∑ k : Fin 16384, entry Z ρ k)

/-- The result array as one function of the matrix: at row `ρ`, that row's log-sum-exp. -/
def G (Z : S16384x256.Idx → EReal) : S16384x1.Idx → EReal := fun i => lse Z ⟨(i 0).val, idx2_lt0 i⟩

/-- WHAT A LAST COLUMN POINT WRITES BACK is its block of `G` of the matrix. -/
theorem flushed_eq (c : Dev nD) (t : Fin cfg0.N) (hf : (cfg0.win 2).flush t = true) :
    (dats m 0 c).flushed 2 t = ((cfg0.win 2).blk t).view.read (Elt Ideal) (G (Zb m c)) := by
  have h15 : t.val % 16 = 15 := (flush0_2 t).mp hf
  have hN : cfg0.N = 256 := N_0
  have htl := t.isLt
  obtain ⟨-, -, -, -, e0, e1⟩ := idx_facts t
  show (cfg0.win 2).cut (grid0.coords t) ((dats m 0 c).after 2 t) = _
  rw [after0_2]
  funext j
  obtain ⟨r, z, rfl⟩ : ∃ (r : Fin 1024) (z : Fin 1), (j : S1024x1.Idx) = ix2 r z := ⟨j 0, j 1, eq_ix2 j⟩
  obtain rfl : z = 0 := Subsingleton.elim _ _
  show (outsAt m c t.val t.isLt).1 (ix2 r (0 : Fin 1)) = G (Zb m c) (((cfg0.win 2).blk t).view.emb (ix2 r (0 : Fin 1)))
  rw [result_eq m c t h15 r]
  unfold G lse
  refine congrArg (fun s => μ + Ideal.log s) ?_
  refine rowTot_last m c t.val ⟨t.val / 16, by omega⟩ (by dsimp only; omega) r _ ?_
  show win0_2.index t (0 : Fin 2) * 1024 + 1 * r.val = 1024 * (t.val / 16) + r.val
  rw [e0]; omega

/-- An index of the result array is in point `t`'s block iff each coordinate is in the block's range on its axis. -/
theorem mem_blk (t : Fin cfg0.N) (i : S16384x1.Idx) :
    i ∈ ((cfg0.win 2).blk t).view.set ↔ ∀ a : Fin 2, win0_2.index t a * S1024x1.size a ≤ (i a).val
      ∧ (i a).val < win0_2.index t a * S1024x1.size a + S1024x1.size a := by
  show i ∈ ((View.whole main_v42).slice (win0_2.rect t)).set ↔ _
  rw [View.set_slice_whole, Rect.mem_set_unit]
  exact Iff.rfl

/-- THE RESULT ARRAY after the region: `G` of the matrix — row `ρ` is written back by the last column point of
    its row block, `16 · (ρ / 1024) + 15`. -/
theorem final (c : Dev nD) : (dats m 0 c).arrAt 2 cfg0.N = G (Zb m c) :=
  (dats m 0 c).arrAt_eq_of_cover 2 (G (Zb m c)) (flushed_eq m c) fun i => by
    have hN : cfg0.N = 256 := N_0
    have hi0 : (i 0).val < 16384 := (i 0).isLt
    have hi1 : (i 1).val < 1 := (i 1).isLt
    have hlt : 16 * ((i 0).val / 1024) + 15 < cfg0.N := by omega
    refine ⟨⟨16 * ((i 0).val / 1024) + 15, hlt⟩, (flush0_2 _).mpr (by dsimp only; omega), ?_⟩
    rw [mem_blk]
    obtain ⟨-, -, -, -, e0, e1⟩ := idx_facts ⟨16 * ((i 0).val / 1024) + 15, hlt⟩
    dsimp only at e0
    intro a
    match a with
    | ⟨0, _⟩ =>
      show win0_2.index ⟨16 * ((i 0).val / 1024) + 15, hlt⟩ (0 : Fin 2) * 1024 ≤ (i 0).val
        ∧ (i 0).val < win0_2.index ⟨16 * ((i 0).val / 1024) + 15, hlt⟩ (0 : Fin 2) * 1024 + 1024
      rw [e0]; omega
    | ⟨1, _⟩ =>
      show win0_2.index ⟨16 * ((i 0).val / 1024) + 15, hlt⟩ (1 : Fin 2) * 1 ≤ (i 1).val
        ∧ (i 1).val < win0_2.index ⟨16 * ((i 0).val / 1024) + 15, hlt⟩ (1 : Fin 2) * 1 + 1
      rw [e1]; omega

end Cert.KernelIdeal.ResultArray

end
-- ==== Proof.TailAt.lean ====
/- The host lines after the region, read at their one index, over the extended reals.

   They take the supervised scalar `s`, the column of row-wise log-sum-exps, and the two normalised inputs
   `a`, `b`; form per row `r` of the inputs the partner similarity `(∑_d a_rd · b_rd) / c`; lay that column twice,
   one copy above the other; subtract it from the log-sum-exps; average over the 16384 rows; scale by the weight
   word and add `s`. Read at the result's one index this is `s + c · (∑_i (lse_i - p_{i mod 8192})) / 16384`. -/
import proofs.«138523_j48455821033481_2_alg».proof.Proof.TailValue
import proofs.«138523_j48455821033481_2_alg».proof.Proof.ResultArray
import Idealize.ShloMosaic.Lib.ValueIdx
import Idealize.ShloMosaic.Lib.Pipeline.Value
import Idealize.ShloMosaic.PureOps.Ideal.Laws

set_option maxRecDepth 16384

noncomputable section

namespace Cert.KernelIdeal.TailAt

open Cert.KernelIdeal
open Idealize.ShloMosaic Idealize.ShloMosaic.TcCoe
open Idealize.ShloMosaic.ValueIdx
open Cert.KernelIdeal.Facts₀ Cert.KernelIdeal.Facts

/-! ## The partner similarity of a row -/

/-- The temperature word. -/
abbrev C : EReal := Ideal.ofBits .f32 0x3DCCCCCD#32

/-- The sum along the rows of a `[8192, 256]` array, from the zero word. -/
theorem rowsum_at (y : FVec Ideal S8192x256 .f32) (r : Fin 8192) :
    Host.reduceAdd (F := Ideal) y (constant (F := Ideal) S_ .f32 0x00000000#32) reducesTo_S8192x256_S8192_d1 h_S_ (ix1 r)
      = ∑ d : Fin 256, y (ix2 r d) := by
  simp only [Host.reduceAdd, Ideal.hostReduceAdd_def]
  rw [Ideal.hostReduceAdd_single reducesTo_S8192x256_S8192_d1 (by decide)]
  rw [show constant (F := Ideal) S_ .f32 0x00000000#32 (Shape.Idx.first h_S_) = 0 from Ideal.ofBits_zero_f32, zero_add]
  exact Finset.sum_congr rfl fun k _ => congrArg y (funext fun a => Fin.ext (by match a with | ⟨0, _⟩ => rfl | ⟨1, _⟩ => rfl))

/-- A length-8192 vector laid as a column reads, at `(r, 0)`, the vector at `r`. -/
theorem column_at {α : Type} (y : S8192.Idx → α) (r : Fin 8192) :
    broadcastInDim S8192x1 ![0] bcast_S8192_S8192x1_0 y (ix2 r (0 : Fin 1)) = y (ix1 r) :=
  broadcastInDim_apply _ bcast_S8192_S8192x1_0 y (ix2 r (0 : Fin 1)) (ix1 r) (fun a => match a with
    | ⟨0, _⟩ => by show r.val = if (8192 : Nat) = 1 then 0 else r.val; rw [if_neg (by decide)])

/-- A scalar spread over a column reads the scalar everywhere. -/
theorem splat_at {α : Type} (y : S_.Idx → α) (j : S8192x1.Idx) :
    broadcastInDim S8192x1 (![] : Fin 0 → Fin S8192x1.rank) bcast_S_S8192x1 y j = y ix0 :=
  broadcastInDim_apply _ bcast_S_S8192x1 y j ix0 (fun a => a.elim0)

/-- THE PARTNER SIMILARITY of row `r`: the inner product of the two inputs' rows `r`, over the temperature. -/
theorem partnerCol_at (a b : FVec Ideal S8192x256 .f32) (r : Fin 8192) :
    RowLse.partnerCol (F := Ideal) a b (ix2 r (0 : Fin 1)) = Ideal.div (∑ d : Fin 256, a (ix2 r d) * b (ix2 r d)) C := by
  unfold RowLse.partnerCol
  refine (congrArg₂ Ideal.div (column_at _ r) (splat_at _ (ix2 r (0 : Fin 1)))).trans ?_
  rw [rowsum_at]
  rfl

/-! ## The column laid twice -/

/-- Row `i` of the 16384 and row `i - 8192` of the second half have the same partner: the row of the inputs. -/
def half (i : Fin 16384) : Fin 8192 := ⟨i.val % 8192, Nat.mod_lt _ (by norm_num)⟩

theorem doubled_lo {α : Type} (x : S8192x1.Idx → α) (h : Shape.Concatenates [S8192x1, S8192x1] S16384x1 0)
    (i : Fin 16384) (hi : i.val < 8192) :
    concatenate S16384x1 0 [⟨S8192x1, x⟩, ⟨S8192x1, x⟩] h (ix2 i (0 : Fin 1)) = x (ix2 ⟨i.val, hi⟩ (0 : Fin 1)) :=
  concatenate_pair_apply_left 0 x x h (ix2 i (0 : Fin 1)) rfl (ix2 ⟨i.val, hi⟩ (0 : Fin 1))
    (fun b => match b with | ⟨0, _⟩ => rfl | ⟨1, _⟩ => rfl)

theorem doubled_hi {α : Type} (x : S8192x1.Idx → α) (h : Shape.Concatenates [S8192x1, S8192x1] S16384x1 0)
    (i : Fin 16384) (hi : 8192 ≤ i.val) :
    concatenate S16384x1 0 [⟨S8192x1, x⟩, ⟨S8192x1, x⟩] h (ix2 i (0 : Fin 1))
      = x (ix2 ⟨i.val - 8192, by have := i.isLt; omega⟩ (0 : Fin 1)) :=
  concatenate_pair_apply_right 0 x x h (ix2 i (0 : Fin 1)) rfl rfl (ix2 ⟨i.val - 8192, by have := i.isLt; omega⟩ (0 : Fin 1))
    (fun b => match b with
      | ⟨0, _⟩ => fun hb => absurd rfl hb
      | ⟨1, _⟩ => fun _ => rfl)
    (by show i.val - 8192 + 8192 = i.val; omega)

/-- A column laid twice, one copy above the other, reads at row `i` the column at row `i mod 8192`. -/
theorem doubled_at {α : Type} (x : S8192x1.Idx → α) (h : Shape.Concatenates [S8192x1, S8192x1] S16384x1 0)
    (i : Fin 16384) :
    concatenate S16384x1 0 [⟨S8192x1, x⟩, ⟨S8192x1, x⟩] h (ix2 i (0 : Fin 1)) = x (ix2 (half i) (0 : Fin 1)) := by
  have hi := i.isLt
  by_cases hlo : i.val < 8192
  · rw [doubled_lo x h i hlo]
    exact congrArg (fun r => x (ix2 r (0 : Fin 1))) (Fin.ext (by show i.val = i.val % 8192; omega))
  · rw [doubled_hi x h i (by omega)]
    exact congrArg (fun r => x (ix2 r (0 : Fin 1))) (Fin.ext (by show i.val - 8192 = i.val % 8192; omega))

/-! ## The lines after the region, at their one index -/

/-- The partner similarity of row `i` of the 16384. -/
def partner (a b : FVec Ideal S8192x256 .f32) (i : Fin 16384) : EReal :=
  Ideal.div (∑ d : Fin 256, a (ix2 (half i) d) * b (ix2 (half i) d)) C

/-- A sum over the `[16384, 1]` column's indices is the sum over its 16384 rows. -/
theorem sum_column {M : Type*} [AddCommMonoid M] (f : S16384x1.Idx → M) :
    ∑ j : S16384x1.Idx, f j = ∑ i : Fin 16384, f (ix2 i (0 : Fin 1)) := by
  rw [sum_idx2]
  exact Finset.sum_congr rfl fun i _ => Fin.sum_univ_one _

/-- THE RESULT: the supervised scalar plus the weight word times the mean, over the 16384 rows, of the row's
    log-sum-exp less its partner similarity. -/
theorem tailFn_at (s : FVec Ideal S_ .f32) (lse : FVec Ideal S16384x1 .f32) (a b : FVec Ideal S8192x256 .f32) :
    RowLse.tailFn (F := Ideal) s lse a b ix0
      = s ix0 + C * Ideal.div (∑ i : Fin 16384, (lse (ix2 i (0 : Fin 1)) - partner a b i))
          (Ideal.ofBits .f32 0x46800000#32) := by
  unfold RowLse.tailFn
  show s ix0 + Ideal.ofBits .f32 0x3DCCCCCD#32 * Ideal.div
      (Host.reduceAdd (F := Ideal) _ (constant (F := Ideal) S_ .f32 0x00000000#32) reducesTo_S16384x1_S_d0_1 h_S_ ix0)
      (Ideal.ofBits .f32 0x46800000#32) = _
  refine congrArg (fun v => s ix0 + C * Ideal.div v (Ideal.ofBits .f32 0x46800000#32)) ?_
  simp only [Host.reduceAdd, Ideal.hostReduceAdd_def]
  rw [Ideal.hostReduceAdd_total reducesTo_S16384x1_S_d0_1 (fun b => b.elim0)]
  rw [show constant (F := Ideal) S_ .f32 0x00000000#32 (Shape.Idx.first h_S_) = 0 from Ideal.ofBits_zero_f32, zero_add,
    sum_column]
  refine Finset.sum_congr rfl fun i _ => ?_
  show lse (ix2 i (0 : Fin 1)) - concatenate S16384x1 0 _ _ (ix2 i (0 : Fin 1)) = _
  rw [doubled_at, partnerCol_at]
  rfl

/-- The same with the result column the region leaves: the summand is the row's shifted log-sum-exp over the
    whole matrix less its partner similarity. -/
theorem tailFn_G (s : FVec Ideal S_ .f32) (Z : S16384x256.Idx → EReal) (a b : FVec Ideal S8192x256 .f32) :
    RowLse.tailFn (F := Ideal) s (ResultArray.G Z) a b ix0
      = s ix0 + C * Ideal.div (∑ i : Fin 16384, ((TotalsValue.μ + Ideal.log (∑ k : Fin 16384, ResultArray.entry Z i k)) - partner a b i))
          (Ideal.ofBits .f32 0x46800000#32) :=
  tailFn_at s (ResultArray.G Z) a b

end Cert.KernelIdeal.TailAt

end
-- ==== Proof.KernelStages.lean ====
/-
  What the region and the lines after it read, as functions of the argument arrays: before the region the
  kernel's host lines are, operation for operation, the reference's — the supervised scalar, each input with
  its rows divided by their Euclidean norms, and the two laid one above the other — so each buffer the kernel
  passes on is the reference's stage of the same arguments. (The kernel narrows the matrix to bf16 for the
  region; on exact reals a change of float format is the identity.)
-/
import proofs.«138523_j48455821033481_2_alg».proof.Proof.RegionLaunch
import proofs.«138523_j48455821033481_2_alg».proof.Proof.RefReadP
import Idealize.ShloMosaic.Lib.StableHlo.Run

set_option maxRecDepth 16384

noncomputable section

namespace Cert.KernelIdeal.RowLse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (arrRef withArrays)
variable (m : (ℓ : Loc nD τ sig) → Buf (Elt Ideal) ℓ)

set_option maxHeartbeats 8000000 in
/-- The supervised scalar. -/
theorem V_sup (c : Dev nD) :
    V m c main_v23 = Cert.ReferenceIdeal.ReadP.val_main_v23 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  dsimp only [V, V0]
  simp only [hostOps0, List.flatten_cons, List.flatten_nil, List.append_nil]
  after_results
  rfl

set_option maxHeartbeats 8000000 in
/-- The first input, its rows normalised. -/
theorem V_rows1 (c : Dev nD) : V m c main_v31 = Cert.ReferenceIdeal.ReadP.val_main_v31 (F := Ideal) (m ((c.tc : Thread nD τ).loc main_arg6)) := by
  dsimp only [V, V0]
  simp only [hostOps0, List.flatten_cons, List.flatten_nil, List.append_nil]
  after_results
  rfl

set_option maxHeartbeats 8000000 in
/-- The second input, its rows normalised. -/
theorem V_rows2 (c : Dev nD) : V m c main_v39 = Cert.ReferenceIdeal.ReadP.val_main_v39 (F := Ideal) (m ((c.tc : Thread nD τ).loc main_arg7)) := by
  dsimp only [V, V0]
  simp only [hostOps0, List.flatten_cons, List.flatten_nil, List.append_nil]
  after_results
  rfl

set_option maxHeartbeats 8000000 in
/-- The matrix the region's two input windows read: the two normalised inputs, one above the other. -/
theorem V_matrix (c : Dev nD) :
    (V m c main_v41 : S16384x256.Idx → EReal) = Cert.ReferenceIdeal.ReadP.val_main_v40 (F := Ideal) (m ((c.tc : Thread nD τ).loc main_arg6)) (m ((c.tc : Thread nD τ).loc main_arg7)) := by
  dsimp only [V, V0]
  simp only [hostOps0, List.flatten_cons, List.flatten_nil, List.append_nil]
  after_results
  rfl

end Cert.KernelIdeal.RowLse

end
-- ==== Proof.RefSpec.lean ====
/-
  Layout operations of the reference read at a symbolic index, over variables of the literal shapes.

  The reference joins the two normalised embedding arrays along the rows, joins two columns of index words along
  axis 1, overwrites the diagonal of the similarity matrix through a scatter whose update indices are (n, n), takes
  a row maximum with a one-axis max-reduce, and reads one entry per row through a gather at (i, p i). None of
  these reads "one element of each operand at the same index", so each is stated here once, element by element,
  at an index given by its coordinates. Nothing here enumerates an axis: every statement is at a symbolic index.
-/
import proofs.«138523_j48455821033481_2_alg».proof.Proof.Gen.ReferenceIdeal
import Idealize.ShloMosaic.Lib.Pipeline.Value
import Idealize.ShloMosaic.Lib.ValueIdx
import Idealize.ShloMosaic.PureOps.Ideal.Laws

noncomputable section

namespace Cert.RefSpec

open Cert.ReferenceIdeal Cert.ReferenceIdeal.Gen Idealize.ShloMosaic Idealize.ShloMosaic.ValueIdx
open scoped BigOperators

variable {α : Type}

/-! ## Joining two arrays along an axis -/

/-- Two [8192, 256] arrays joined along the rows: a row below 8192 is the first array's row. -/
theorem concat_rows_lo (x₁ x₂ : S8192x256.Idx → α) (h : Shape.Concatenates [S8192x256, S8192x256] S16384x256 0)
    (i : Fin 16384) (d : Fin 256) (hi : i.val < 8192) :
    concatenate S16384x256 0 [⟨S8192x256, x₁⟩, ⟨S8192x256, x₂⟩] h (ix2 i d) = x₁ (ix2 ⟨i.val, hi⟩ d) :=
  concatenate_pair_apply_left 0 x₁ x₂ h (ix2 i d) rfl (ix2 ⟨i.val, hi⟩ d)
    (fun b => match b with | ⟨0, _⟩ => rfl | ⟨1, _⟩ => rfl)

/-- Two [8192, 256] arrays joined along the rows: a row from 8192 on is the second array's row, 8192 less. -/
theorem concat_rows_hi (x₁ x₂ : S8192x256.Idx → α) (h : Shape.Concatenates [S8192x256, S8192x256] S16384x256 0)
    (i : Fin 16384) (d : Fin 256) (hi : 8192 ≤ i.val) :
    concatenate S16384x256 0 [⟨S8192x256, x₁⟩, ⟨S8192x256, x₂⟩] h (ix2 i d)
      = x₂ (ix2 ⟨i.val - 8192, by have := i.isLt; omega⟩ d) :=
  concatenate_pair_apply_right 0 x₁ x₂ h (ix2 i d) rfl rfl (ix2 ⟨i.val - 8192, by have := i.isLt; omega⟩ d)
    (fun b => match b with
      | ⟨0, _⟩ => fun hb => absurd rfl hb
      | ⟨1, _⟩ => fun _ => rfl)
    (by show i.val - 8192 + 8192 = i.val; omega)

/-- Two [16384, 1] columns joined along axis 1: column 0 is the first. -/
theorem concat_cols_0 (x₁ x₂ : S16384x1.Idx → α) (h : Shape.Concatenates [S16384x1, S16384x1] S16384x2 1)
    (i : Fin 16384) :
    concatenate S16384x2 1 [⟨S16384x1, x₁⟩, ⟨S16384x1, x₂⟩] h (ix2 i (0 : Fin 2)) = x₁ (ix2 i (0 : Fin 1)) :=
  concatenate_pair_apply_left 1 x₁ x₂ h (ix2 i (0 : Fin 2)) rfl (ix2 i (0 : Fin 1))
    (fun b => match b with | ⟨0, _⟩ => rfl | ⟨1, _⟩ => rfl)

/-- Two [16384, 1] columns joined along axis 1: column 1 is the second. -/
theorem concat_cols_1 (x₁ x₂ : S16384x1.Idx → α) (h : Shape.Concatenates [S16384x1, S16384x1] S16384x2 1)
    (i : Fin 16384) :
    concatenate S16384x2 1 [⟨S16384x1, x₁⟩, ⟨S16384x1, x₂⟩] h (ix2 i (1 : Fin 2)) = x₂ (ix2 i (0 : Fin 1)) :=
  concatenate_pair_apply_right 1 x₁ x₂ h (ix2 i (1 : Fin 2)) rfl rfl (ix2 i (0 : Fin 1))
    (fun b => match b with
      | ⟨0, _⟩ => fun _ => rfl
      | ⟨1, _⟩ => fun hb => absurd rfl hb)
    rfl

/-- Two length-8192 vectors joined: an entry below 8192 is the first vector's. -/
theorem concat_vec_lo (x₁ x₂ : S8192.Idx → α) (h : Shape.Concatenates [S8192, S8192] S16384 0)
    (i : Fin 16384) (hi : i.val < 8192) :
    concatenate S16384 0 [⟨S8192, x₁⟩, ⟨S8192, x₂⟩] h (ix1 i) = x₁ (ix1 ⟨i.val, hi⟩) :=
  concatenate_pair_apply_left 0 x₁ x₂ h (ix1 i) rfl (ix1 ⟨i.val, hi⟩)
    (fun b => match b with | ⟨0, _⟩ => rfl)

/-- Two length-8192 vectors joined: an entry from 8192 on is the second vector's, 8192 less. -/
theorem concat_vec_hi (x₁ x₂ : S8192.Idx → α) (h : Shape.Concatenates [S8192, S8192] S16384 0)
    (i : Fin 16384) (hi : 8192 ≤ i.val) :
    concatenate S16384 0 [⟨S8192, x₁⟩, ⟨S8192, x₂⟩] h (ix1 i) = x₂ (ix1 ⟨i.val - 8192, by have := i.isLt; omega⟩) :=
  concatenate_pair_apply_right 0 x₁ x₂ h (ix1 i) rfl rfl (ix1 ⟨i.val - 8192, by have := i.isLt; omega⟩)
    (fun b => match b with | ⟨0, _⟩ => fun hb => absurd rfl hb)
    (by show i.val - 8192 + 8192 = i.val; omega)

/-! ## The gather at one (row, column) pair per result entry -/

/-- The gather reads, for result entry i, the operand at (r, c) where r and c are the two index words stored at
    (i, 0) and (i, 1), each read as a signed integer and clamped into [0, 16383]. -/
theorem gather_pair_apply {w : Nat} (x : S16384x16384.Idx → α) (idx : IVec S16384x2 w) (i : Fin 16384) :
    Host.gather gather_S16384x16384_S16384x2_S16384_n_01_n_n_01_1_11 x idx (ix1 i)
      = x (ix2 (⟨min (idx (ix2 i (0 : Fin 2))).toInt.toNat 16383, by omega⟩ : Fin 16384)
            (⟨min (idx (ix2 i (1 : Fin 2))).toInt.toNat 16383, by omega⟩ : Fin 16384)) := by
  unfold Host.gather
  congr 1
  funext a
  refine Fin.ext ?_
  have hsi : ∀ (c : Fin 2) (hc : c.val < gather_S16384x16384_S16384x2_S16384_n_01_n_n_01_1_11.startIndexMap.length),
      gather_S16384x16384_S16384x2_S16384_n_01_n_n_01_1_11.siIdx (ix1 i) ⟨c.val, hc⟩ = ix2 i c := by
    intro c hc
    funext b; refine Fin.ext ?_
    match b with
    | ⟨0, _⟩ => rfl
    | ⟨1, _⟩ => rfl
  match a with
  | ⟨0, _⟩ =>
    show gather_S16384x16384_S16384x2_S16384_n_01_n_n_01_1_11.start (ix1 i) idx 0
        + gather_S16384x16384_S16384x2_S16384_n_01_n_n_01_1_11.batchCoord (ix1 i) 0
        + gather_S16384x16384_S16384x2_S16384_n_01_n_n_01_1_11.offCoord (ix1 i) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S16384x16384_S16384x2_S16384_n_01_n_n_01_1_11.startIndexMap by decide)]
    rw [show (⟨List.idxOf (0 : Fin 2) gather_S16384x16384_S16384x2_S16384_n_01_n_n_01_1_11.startIndexMap,
        List.idxOf_lt_length_iff.2 (show (0 : Fin 2) ∈ gather_S16384x16384_S16384x2_S16384_n_01_n_n_01_1_11.startIndexMap by decide)⟩
        : Fin gather_S16384x16384_S16384x2_S16384_n_01_n_n_01_1_11.startIndexMap.length) = ⟨(0 : Fin 2).val, by decide⟩ from rfl,
      hsi 0]
    rfl
  | ⟨1, _⟩ =>
    show gather_S16384x16384_S16384x2_S16384_n_01_n_n_01_1_11.start (ix1 i) idx 1
        + gather_S16384x16384_S16384x2_S16384_n_01_n_n_01_1_11.batchCoord (ix1 i) 1
        + gather_S16384x16384_S16384x2_S16384_n_01_n_n_01_1_11.offCoord (ix1 i) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S16384x16384_S16384x2_S16384_n_01_n_n_01_1_11.startIndexMap by decide)]
    rw [show (⟨List.idxOf (1 : Fin 2) gather_S16384x16384_S16384x2_S16384_n_01_n_n_01_1_11.startIndexMap,
        List.idxOf_lt_length_iff.2 (show (1 : Fin 2) ∈ gather_S16384x16384_S16384x2_S16384_n_01_n_n_01_1_11.startIndexMap by decide)⟩
        : Fin gather_S16384x16384_S16384x2_S16384_n_01_n_n_01_1_11.startIndexMap.length) = ⟨(1 : Fin 2).val, by decide⟩ from rfl,
      hsi 1]
    rfl

/-! ## A one-axis maximum -/

/-- The row maximum: a max-reduce along axis 1 is, at row i, the fold of the maximum over the row's entries,
    started from the initial value. -/
theorem reduce_max_row (x : S16384x16384.Idx → Ideal .f32) (init : S_.Idx → Ideal .f32)
    (h' : S16384x16384.ReducesTo [1] S16384) (hu : 0 < S_.numel) (i : Fin 16384) :
    Host.reduce (FloatOps.maximumf (F := Ideal) (φ := .f32)) x init h' hu (ix1 i)
      = (Finset.univ : Finset (Fin 16384)).fold max (init ix0) (fun k => x (ix2 i k)) := by
  have hR : S16384x16384.Reduces [1] S16384 := by decide
  rw [Host.reduce_eq_fold_single (FloatOps.maximumf (F := Ideal) (φ := .f32)) x init h' hR hu (ix1 i)]
  have e0 : init (Shape.Idx.first hu) = init ix0 := congrArg init (funext fun a => a.elim0)
  have e1 : (x ∘ hR.lift (ix1 i)) = fun k : Fin 16384 => x (ix2 i k) := by
    funext k
    show x (hR.lift (ix1 i) k) = x (ix2 i k)
    congr 1
    funext c; refine Fin.ext ?_
    match c with
    | ⟨0, _⟩ => rfl
    | ⟨1, _⟩ => rfl
  rw [e0]
  exact congrArg (fun f => (Finset.univ : Finset (Fin 16384)).fold max (init ix0) f) e1

/-! ## Overwriting the diagonal through a scatter -/

/-- A left fold of overwrites "entry g n becomes c" leaves c exactly at the entries some g n names. -/
theorem foldl_overwrite_const {ι β : Type} [DecidableEq β] (g : ι → β) (c : α) (l : List ι) (x : β → α) (k : β) :
    (l.foldl (fun r n => fun k' => if k' = g n then c else r k') x) k = if ∃ n ∈ l, g n = k then c else x k := by
  induction l generalizing x with
  | nil => simp
  | cons a l ih =>
    rw [List.foldl_cons, ih]
    by_cases h : ∃ n ∈ l, g n = k
    · obtain ⟨n, hn, e⟩ := h
      rw [if_pos ⟨n, hn, e⟩, if_pos ⟨n, List.mem_cons_of_mem _ hn, e⟩]
    · rw [if_neg h]
      by_cases h2 : k = g a
      · rw [if_pos h2, if_pos ⟨a, List.mem_cons_self, h2.symm⟩]
      · rw [if_neg h2, if_neg]
        rintro ⟨n, hn, e⟩
        rcases List.mem_cons.1 hn with rfl | hn
        · exact h2 e.symm
        · exact h ⟨n, hn, e⟩

/-- When the two index words stored for update n are both n, update n lands on the diagonal entry (n, n). -/
theorem resultIdx_diag {w : Nat} (idx : IVec S16384x2 w)
    (hidx : ∀ (n : Fin 16384) (c : Fin 2), (idx (ix2 n c)).toInt = (n.val : Int)) (n : Fin 16384) :
    scatter_S16384x16384_S16384x2_S16384_n_01_01_1.resultIdx? (ix1 n) idx = some (ix2 n n) := by
  have hsi : ∀ (c : Fin 2) (hc : c.val < scatter_S16384x16384_S16384x2_S16384_n_01_01_1.scatterDimsToOperandDims.length),
      scatter_S16384x16384_S16384x2_S16384_n_01_01_1.siIdx (ix1 n) ⟨c.val, hc⟩ = ix2 n c := by
    intro c hc
    funext b; refine Fin.ext ?_
    match b with
    | ⟨0, _⟩ => rfl
    | ⟨1, _⟩ => rfl
  have hk : scatter_S16384x16384_S16384x2_S16384_n_01_01_1.sKept = [] := by decide
  have h01 : ∀ a : Fin 2, a = 0 ∨ a = 1 := by decide
  have hs : ∀ a : Fin 2, scatter_S16384x16384_S16384x2_S16384_n_01_01_1.start (ix1 n) idx a
      + (scatter_S16384x16384_S16384x2_S16384_n_01_01_1.window (ix1 n) a : Int) = (n.val : Int) := by
    intro a
    have hn : a ∉ scatter_S16384x16384_S16384x2_S16384_n_01_01_1.sKept := by rw [hk]; exact List.not_mem_nil
    have hw : scatter_S16384x16384_S16384x2_S16384_n_01_01_1.window (ix1 n) a = 0 := by
      unfold ScatterDims.window
      rw [dif_neg hn]
    rw [hw]
    unfold ScatterDims.start
    rcases h01 a with rfl | rfl
    · rw [dif_pos (show (0 : Fin 2) ∈ scatter_S16384x16384_S16384x2_S16384_n_01_01_1.scatterDimsToOperandDims by decide)]
      rw [show (⟨List.idxOf (0 : Fin 2) scatter_S16384x16384_S16384x2_S16384_n_01_01_1.scatterDimsToOperandDims,
          List.idxOf_lt_length_iff.2 (show (0 : Fin 2) ∈ scatter_S16384x16384_S16384x2_S16384_n_01_01_1.scatterDimsToOperandDims by decide)⟩
          : Fin scatter_S16384x16384_S16384x2_S16384_n_01_01_1.scatterDimsToOperandDims.length) = ⟨(0 : Fin 2).val, by decide⟩ from rfl,
        hsi 0, hidx]
      simp
    · rw [dif_pos (show (1 : Fin 2) ∈ scatter_S16384x16384_S16384x2_S16384_n_01_01_1.scatterDimsToOperandDims by decide)]
      rw [show (⟨List.idxOf (1 : Fin 2) scatter_S16384x16384_S16384x2_S16384_n_01_01_1.scatterDimsToOperandDims,
          List.idxOf_lt_length_iff.2 (show (1 : Fin 2) ∈ scatter_S16384x16384_S16384x2_S16384_n_01_01_1.scatterDimsToOperandDims by decide)⟩
          : Fin scatter_S16384x16384_S16384x2_S16384_n_01_01_1.scatterDimsToOperandDims.length) = ⟨(1 : Fin 2).val, by decide⟩ from rfl,
        hsi 1, hidx]
      simp
  unfold ScatterDims.resultIdx?
  have hj : n.val < 16384 := n.isLt
  have hsz : ∀ a : Fin 2, S16384x16384.size a = 16384 := by decide
  rw [dif_pos (fun a => by
    rw [hs a, hsz a]
    exact ⟨by omega, by omega⟩)]
  congr 1
  funext a
  refine Fin.ext ?_
  show (scatter_S16384x16384_S16384x2_S16384_n_01_01_1.start (ix1 n) idx a
      + (scatter_S16384x16384_S16384x2_S16384_n_01_01_1.window (ix1 n) a : Int)).toNat = _
  rw [hs a]
  rcases h01 a with rfl | rfl
  · simp
  · simp

/-- The scatter that writes the constant c at (n, n) for every n: the result is c on the diagonal and the operand
    elsewhere. -/
theorem scatter_diag_apply {w : Nat} (x : S16384x16384.Idx → α) (idx : IVec S16384x2 w) (upd : S16384.Idx → α) (c : α)
    (hidx : ∀ (n : Fin 16384) (c : Fin 2), (idx (ix2 n c)).toInt = (n.val : Int)) (hupd : ∀ n, upd n = c)
    (i k : Fin 16384) :
    Host.scatter scatter_S16384x16384_S16384x2_S16384_n_01_01_1 (fun _ b => b) x idx upd (ix2 i k)
      = if i = k then c else x (ix2 i k) := by
  unfold Host.scatter
  trans (List.foldl (fun (r : S16384x16384.Idx → α) (m : Fin S16384.numel) => fun k' : S16384x16384.Idx =>
      if k' = (fun m : Fin S16384.numel =>
        (ix2 ((S16384.rowMajor.symm m) 0) ((S16384.rowMajor.symm m) 0) : S16384x16384.Idx)) m then c else r k')
      x (List.finRange S16384.numel)) (ix2 i k)
  · refine congrFun (congrArg (fun f => List.foldl f x (List.finRange S16384.numel)) ?_) (ix2 i k)
    funext r m
    obtain ⟨n, hn⟩ : ∃ n : Fin 16384, S16384.rowMajor.symm m = ix1 n := ⟨_, eq_ix1 _⟩
    have e : (ix2 ((S16384.rowMajor.symm m) 0) ((S16384.rowMajor.symm m) 0) : S16384x16384.Idx) = ix2 n n := by
      first
        | (rw [hn]; done)
        | (rw [hn]; rfl)
    rw [hn, resultIdx_diag idx hidx n]
    funext k'
    simp only [hupd, e]
  · rw [foldl_overwrite_const]
    by_cases hik : i = k
    · subst hik
      rw [if_pos rfl, if_pos]
      refine ⟨S16384.rowMajor (ix1 i), List.mem_finRange _, ?_⟩
      show (ix2 ((S16384.rowMajor.symm (S16384.rowMajor (ix1 i))) 0) ((S16384.rowMajor.symm (S16384.rowMajor (ix1 i))) 0)
        : S16384x16384.Idx) = ix2 i i
      rw [Equiv.symm_apply_apply]
    · rw [if_neg hik, if_neg]
      rintro ⟨n, _, e⟩
      apply hik
      have e0 := congrFun e 0
      have e1 := congrFun e 1
      exact e0.symm.trans e1

/-! ## Index words -/

/-- A natural below 2^31 stored as a 32-bit word reads back, signed, as itself. -/
theorem toInt_ofNat_small (n : Nat) (hn : n < 2 ^ 31) : (BitVec.ofNat 32 n).toInt = (n : Int) := by
  have h1 : (BitVec.ofNat 32 n).toNat = n := by rw [BitVec.toNat_ofNat]; omega
  rw [BitVec.toInt_eq_toNat_of_lt (by rw [h1]; omega), h1]

/-- The sum of two small naturals stored as 32-bit words reads back, signed, as the sum. -/
theorem toInt_add_small (a b : Nat) (h : a + b < 2 ^ 31) :
    (IntOp.addi (BitVec.ofNat 32 a) (BitVec.ofNat 32 b)).toInt = ((a + b : Nat) : Int) := by
  have h1 : (IntOp.addi (BitVec.ofNat 32 a) (BitVec.ofNat 32 b)).toNat = a + b := by
    show (BitVec.ofNat 32 a + BitVec.ofNat 32 b).toNat = a + b
    rw [BitVec.toNat_add, BitVec.toNat_ofNat, BitVec.toNat_ofNat]; omega
  rw [BitVec.toInt_eq_toNat_of_lt (by rw [h1]; omega), h1]

/-- The wrap of a possibly negative index (add the extent when the word is negative) leaves a nonnegative word
    alone. -/
theorem wrap_nonneg (x e : BitVec 32) (hx : 0 ≤ x.toInt) :
    Scalar.select (IntOp.cmpi .slt x 0#32) (IntOp.addi x e) x = x := by
  have h : x.slt 0#32 = false := by
    rw [BitVec.slt_eq_decide, decide_eq_false_iff_not, BitVec.toInt_zero]; omega
  show Scalar.select (BitVec.ofBool (x.slt 0#32)) (IntOp.addi x e) x = x
  rw [h]
  exact select_zero _ _

/-! ## Sums over a rank-1 index set, and the positive partner of a row -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The positive partner of row i among the 16384 rows: i + 8192 in the first half, i − 8192 in the second. -/
def pos (i : Fin 16384) : Fin 16384 :=
  if h : i.val < 8192 then ⟨i.val + 8192, by omega⟩ else ⟨i.val - 8192, by have := i.isLt; omega⟩

theorem pos_lo (i : Fin 16384) (h : i.val < 8192) : (pos i).val = i.val + 8192 := by
  unfold pos; rw [dif_pos h]
theorem pos_hi (i : Fin 16384) (h : 8192 ≤ i.val) : (pos i).val = i.val - 8192 := by
  unfold pos; rw [dif_neg (by omega)]
/-- A row is never its own partner. -/
theorem pos_ne (i : Fin 16384) : pos i ≠ i := by
  intro e
  have := congrArg Fin.val e
  by_cases h : i.val < 8192
  · rw [pos_lo i h] at this; omega
  · rw [pos_hi i (by omega)] at this; have := i.isLt; omega

end Cert.RefSpec

end
-- ==== Proof.RefSide.lean ====
/-
  The reference's result as one formula of its argument arrays.

  With Z the 16384 × 256 array of unit-normalised rows (the first 8192 from one input, the rest from the other) and
  C the constant 0.1, the reference forms the similarity matrix S' i k = (∑ d, Z i d · Z k d) / C off the diagonal
  and −∞ on it, the row maxima M i = max over k of S' i k, the row-wise log-softmax
      logp i k = (S' i k − M i) − log (∑ k', exp (S' i k' − M i)),
  reads it at the positive partner p i of each row (p i = i ± 8192), and returns
      SUP + C · (−((∑ i, logp i (p i)) / 16384)),
  SUP the supervised part, which this module never opens. The statements below read every operation of that
  chain at a symbolic index; the layout operations (the joins, the diagonal overwrite, the row maximum, the
  read at (i, p i)) come from the companion module of layout facts.
-/
import proofs.«138523_j48455821033481_2_alg».proof.Proof.RefReadP
import proofs.«138523_j48455821033481_2_alg».proof.Proof.RefSpec
import proofs.«138523_j48455821033481_2_alg».proof.Proof.LseAlgebra

noncomputable section

namespace Cert.RefSide

open Cert.ReferenceIdeal Cert.ReferenceIdeal.Gen Cert.ReferenceIdeal.ReadP Cert.RefSpec
open Idealize.ShloMosaic Idealize.ShloMosaic.ValueIdx
open scoped BigOperators

/-- The constant 0.1 (temperature and weight), as the word both programs carry. -/
abbrev C : EReal := Ideal.ofBits .f32 0x3DCCCCCD#32

/-- The word of −∞ denotes the bottom extended real. -/
theorem neginf_eq_bot : Ideal.ofBits .f32 0xFF800000#32 = (⊥ : EReal) := by
  simp [Ideal.ofBits, Ideal.ieee]

section
variable (x6 x7 : (⟨S8192x256, .f32⟩ : BufTy).Contents (Elt Ideal))

/-- The joined array of normalised rows. -/
def Z : S16384x256.Idx → EReal := val_main_v40 (F := Ideal) x6 x7

/-- The masked similarity matrix: −∞ on the diagonal, the scaled inner product of rows i and k off it. -/
def S' (i k : Fin 16384) : EReal :=
  if i = k then ⊥ else Ideal.div (∑ d : Fin 256, Z x6 x7 (ix2 i d) * Z x6 x7 (ix2 k d)) C

/-- The row maximum of the masked similarity matrix. -/
def M (i : Fin 16384) : EReal := Finset.univ.sup (fun k => S' x6 x7 i k)

/-- The row-wise log-softmax of the masked similarity matrix. -/
def logp (i k : Fin 16384) : EReal :=
  (S' x6 x7 i k - M x6 x7 i) - Ideal.log (∑ k' : Fin 16384, Ideal.exp (S' x6 x7 i k' - M x6 x7 i))

/-! ## The joined array, row by row -/

/-- A row below 8192 of the joined array is that row of the first normalised input. -/
theorem Z_lo (i : Fin 16384) (d : Fin 256) (hi : i.val < 8192) :
    Z x6 x7 (ix2 i d) = val_main_v31 (F := Ideal) x6 (ix2 ⟨i.val, hi⟩ d) := by
  unfold Z val_main_v40
  exact concat_rows_lo _ _ _ i d hi

/-- A row from 8192 on of the joined array is row i − 8192 of the second normalised input. -/
theorem Z_hi (i : Fin 16384) (d : Fin 256) (hi : 8192 ≤ i.val) :
    Z x6 x7 (ix2 i d) = val_main_v39 (F := Ideal) x7 (ix2 ⟨i.val - 8192, by have := i.isLt; omega⟩ d) := by
  unfold Z val_main_v40
  exact concat_rows_hi _ _ _ i d hi

/-! ## The similarity matrix -/

/-- The scaled product of the joined array with its transpose, entry by entry. -/
theorem v44_apply (i k : Fin 16384) :
    val_main_v44 (F := Ideal) x6 x7 (ix2 i k)
      = Ideal.div (∑ d : Fin 256, Z x6 x7 (ix2 i d) * Z x6 x7 (ix2 k d)) C := by
  rw [val_main_v44_apply, val_main_v42_apply, val_main_v43_apply, val_main_cst_13_apply]
  have hs : ∀ d : Fin 256, val_main_v40 (F := Ideal) x6 x7 (lidx_main_v42 (ix2 i k) d)
      * val_main_v41 (F := Ideal) x6 x7 (ridx_main_v42 (ix2 i k) d)
      = Z x6 x7 (ix2 i d) * Z x6 x7 (ix2 k d) := by
    intro d
    rw [val_main_v41_apply]
    have el : lidx_main_v42 (ix2 i k) d = ix2 i d :=
      funext fun a => Fin.ext (by match a with | ⟨0, _⟩ => rfl | ⟨1, _⟩ => rfl)
    have er : idx_main_v41 (ridx_main_v42 (ix2 i k) d) = ix2 k d :=
      funext fun a => Fin.ext (by match a with | ⟨0, _⟩ => rfl | ⟨1, _⟩ => rfl)
    rw [el, er]
    rfl
  rw [Finset.sum_congr rfl (fun d _ => hs d)]
  rfl

/-- The first wrap of the row counter: the word of n, unchanged. -/
theorem wrap_iota (n : Nat) (hn : n < 16384) (e : BitVec 32) :
    Scalar.select (IntOp.cmpi .slt (BitVec.ofNat 32 n) 0#32) (IntOp.addi (BitVec.ofNat 32 n) e) (BitVec.ofNat 32 n)
      = BitVec.ofNat 32 n :=
  wrap_nonneg _ _ (by rw [toInt_ofNat_small n (by omega)]; omega)

/-- The index words of the diagonal overwrite: both words stored for update n are n. -/
theorem v58_toInt (n : Fin 16384) (c : Fin 2) : (val_main_v58 (F := Ideal) (ix2 n c)).toInt = (n.val : Int) := by
  have h01 : ∀ a : Fin 2, a = 0 ∨ a = 1 := by decide
  unfold val_main_v58
  rcases h01 c with rfl | rfl
  · rw [concat_cols_0, val_main_v56_apply, val_main_v50_apply, val_main_v47_apply, val_main_v49_apply,
      val_main_v46_apply, val_main_v48_apply, val_main_c_apply, val_main_c_14_apply, val_main_v45_apply]
    show (Scalar.select (IntOp.cmpi .slt (BitVec.ofNat 32 n.val) 0#32)
      (IntOp.addi (BitVec.ofNat 32 n.val) 16384#32) (BitVec.ofNat 32 n.val)).toInt = _
    rw [wrap_iota n.val n.isLt, toInt_ofNat_small n.val (by have := n.isLt; omega)]
  · rw [concat_cols_1, val_main_v57_apply, val_main_v55_apply, val_main_v52_apply, val_main_v54_apply,
      val_main_v51_apply, val_main_v53_apply, val_main_c_15_apply, val_main_c_16_apply, val_main_v45_apply]
    show (Scalar.select (IntOp.cmpi .slt (BitVec.ofNat 32 n.val) 0#32)
      (IntOp.addi (BitVec.ofNat 32 n.val) 16384#32) (BitVec.ofNat 32 n.val)).toInt = _
    rw [wrap_iota n.val n.isLt, toInt_ofNat_small n.val (by have := n.isLt; omega)]

/-- The similarity matrix after the diagonal overwrite is the masked matrix. -/
theorem v60_apply (i k : Fin 16384) : val_main_v60 (F := Ideal) x6 x7 (ix2 i k) = S' x6 x7 i k := by
  unfold val_main_v60
  rw [scatter_diag_apply _ _ _ (Ideal.ofBits .f32 0xFF800000#32) (fun n c => v58_toInt n c)
    (fun n => by rw [val_main_v59_apply, val_main_cst_17_apply]; rfl) i k]
  unfold S'
  rw [neginf_eq_bot, v44_apply]

/-! ## The log-softmax -/

/-- The row maximum the log-softmax subtracts is the maximum of the masked row. -/
theorem call0_v2_apply (i : Fin 16384) : val_main_call0_v2 (F := Ideal) x6 x7 (ix1 i) = M x6 x7 i := by
  rw [val_main_call0_v2_apply, val_main_call0_v1_apply, val_main_call0_cst_0_apply]
  unfold val_main_call0_v0
  rw [reduce_max_row]
  have hf : (fun k : Fin 16384 => val_main_v60 (F := Ideal) x6 x7 (ix2 i k)) = fun k => S' x6 x7 i k :=
    funext fun k => v60_apply x6 x7 i k
  rw [hf, val_main_call0_cst_apply]
  show max (Ideal.ofBits .f32 0xFF800000#32)
    ((Finset.univ : Finset (Fin 16384)).fold max (Ideal.ofBits .f32 0xFF800000#32) (fun k => S' x6 x7 i k)) = _
  rw [neginf_eq_bot, max_eq_right bot_le]
  rfl

/-- The shifted similarity: the masked entry less its row's maximum. -/
theorem call0_v5_apply (i k : Fin 16384) :
    val_main_call0_v5 (F := Ideal) x6 x7 (ix2 i k) = S' x6 x7 i k - M x6 x7 i := by
  rw [val_main_call0_v5_apply, val_main_call0_v4_apply, val_main_call0_v3_apply]
  have e : idx_main_call0_v3 (idx_main_call0_v4 (ix2 i k)) = ix1 i :=
    funext fun a => Fin.ext (by match a with | ⟨0, _⟩ => rfl)
  rw [e, v60_apply, call0_v2_apply]
  rfl

/-- The row sum of exponentials of the shifted similarities. -/
theorem call0_v7_apply (i : Fin 16384) :
    val_main_call0_v7 (F := Ideal) x6 x7 (ix1 i) = ∑ k : Fin 16384, Ideal.exp (S' x6 x7 i k - M x6 x7 i) := by
  rw [val_main_call0_v7_apply, val_main_call0_cst_1_apply]
  have hs : ∀ k : Fin 16384, val_main_call0_v6 (F := Ideal) x6 x7 (idx_main_call0_v7 (ix1 i) k)
      = Ideal.exp (S' x6 x7 i k - M x6 x7 i) := by
    intro k
    have e : idx_main_call0_v7 (ix1 i) k = ix2 i k :=
      funext fun a => Fin.ext (by match a with | ⟨0, _⟩ => rfl | ⟨1, _⟩ => rfl)
    rw [val_main_call0_v6_apply, e, call0_v5_apply]
    rfl
  rw [Finset.sum_congr rfl (fun k _ => hs k)]
  show Ideal.ofBits .f32 0x00000000#32 + _ = _
  rw [Ideal.ofBits_zero_f32, zero_add]

/-- THE LOG-SOFTMAX ENTRY in elementary form. -/
theorem v66_apply (i k : Fin 16384) : val_main_v66 (F := Ideal) x6 x7 (ix2 i k) = logp x6 x7 i k := by
  rw [val_main_v66_apply, val_main_call0_v10_apply, val_main_call0_v9_apply, val_main_call0_v8_apply]
  have e : idx_main_call0_v8 (idx_main_call0_v10 (ix2 i k)) = ix1 i :=
    funext fun a => Fin.ext (by match a with | ⟨0, _⟩ => rfl)
  rw [e, call0_v5_apply, call0_v7_apply]
  unfold logp
  rw [Ideal.subf_def, Ideal.hostUnary_log_def]

/-! ## The read at the positive partner -/

/-- The row word of the read: entry i reads row i. -/
theorem v79_row_toInt (i : Fin 16384) : (val_main_v79 (F := Ideal) (ix2 i (0 : Fin 2))).toInt = (i.val : Int) := by
  unfold val_main_v79
  rw [concat_cols_0, val_main_v77_apply, val_main_v71_apply, val_main_v68_apply, val_main_v70_apply,
    val_main_v67_apply, val_main_v69_apply, val_main_c_19_apply, val_main_c_20_apply, val_main_v45_apply]
  show (Scalar.select (IntOp.cmpi .slt (BitVec.ofNat 32 i.val) 0#32)
    (IntOp.addi (BitVec.ofNat 32 i.val) 16384#32) (BitVec.ofNat 32 i.val)).toInt = _
  rw [wrap_iota i.val i.isLt, toInt_ofNat_small i.val (by have := i.isLt; omega)]

/-- The partner word before the wrap: 8192 + i in the first half, i − 8192 in the second. -/
theorem v65_toInt (i : Fin 16384) : (val_main_v65 (F := Ideal) (ix1 i)).toInt = ((pos i).val : Int) := by
  unfold val_main_v65
  by_cases h : i.val < 8192
  · rw [concat_vec_lo _ _ _ i h, val_main_v63_apply, val_main_v62_apply, val_main_c_18_apply, val_main_v61_apply]
    show (IntOp.addi (BitVec.ofNat 32 8192) (BitVec.ofNat 32 i.val)).toInt = _
    rw [toInt_add_small 8192 i.val (by omega), pos_lo i h]
    congr 1; omega
  · have h' : 8192 ≤ i.val := by omega
    rw [concat_vec_hi _ _ _ i h', val_main_v64_apply]
    show (BitVec.ofNat 32 (i.val - 8192)).toInt = _
    rw [toInt_ofNat_small _ (by have := i.isLt; omega), pos_hi i h']

/-- The column word of the read: entry i reads the column of its positive partner. -/
theorem v79_col_toInt (i : Fin 16384) : (val_main_v79 (F := Ideal) (ix2 i (1 : Fin 2))).toInt = ((pos i).val : Int) := by
  unfold val_main_v79
  rw [concat_cols_1, val_main_v78_apply, val_main_v76_apply, val_main_v73_apply, val_main_v75_apply,
    val_main_v72_apply, val_main_v74_apply, val_main_c_21_apply, val_main_c_22_apply]
  have e : idx_main_v78 (ix2 i (0 : Fin 1)) = ix1 i :=
    funext fun a => Fin.ext (by match a with | ⟨0, _⟩ => rfl)
  rw [e]
  show (Scalar.select (IntOp.cmpi .slt (val_main_v65 (F := Ideal) (ix1 i)) 0#32)
    (IntOp.addi (val_main_v65 (F := Ideal) (ix1 i)) 16384#32) (val_main_v65 (F := Ideal) (ix1 i))).toInt = _
  rw [wrap_nonneg _ _ (by rw [v65_toInt]; omega), v65_toInt]

/-- The gathered entry: the log-softmax at (i, partner of i). -/
theorem v80_apply (i : Fin 16384) :
    val_main_v80 (F := Ideal) x6 x7 (ix1 i) = val_main_v66 (F := Ideal) x6 x7 (ix2 i (pos i)) := by
  unfold val_main_v80
  rw [gather_pair_apply]
  congr 1
  have h0 : (⟨min (val_main_v79 (F := Ideal) (ix2 i (0 : Fin 2))).toInt.toNat 16383, by omega⟩ : Fin 16384) = i :=
    Fin.ext (by show min _ 16383 = i.val; rw [v79_row_toInt]; have := i.isLt; simp; omega)
  have h1 : (⟨min (val_main_v79 (F := Ideal) (ix2 i (1 : Fin 2))).toInt.toNat 16383, by omega⟩ : Fin 16384) = pos i :=
    Fin.ext (by show min _ 16383 = (pos i).val; rw [v79_col_toInt]; have := (pos i).isLt; simp; omega)
  rw [h0, h1]

end

/-! ## Real values

When the two inputs hold real numbers every normalised row is real (a real over the larger of a square root of a
nonnegative real and the positive floor), so every entry of the joined array is real; then every off-diagonal
similarity is the real inner product over 0.1, the diagonal is −∞, and each row maximum is real: the entry at
the positive partner is off the diagonal and bounds it below, and no entry is +∞. -/

/-- The word of 16384 denotes the real 16384. -/
theorem ofBits_rows : Ideal.ofBits .f32 0x46800000#32 = ((16384 : ℝ) : EReal) := by
  simp [Ideal.ofBits, Ideal.ieee, -EReal.coe_mul]; norm_num

/-- A real row over the larger of its Euclidean norm and the floor 9223372 / 2^63. -/
def nrm (u : Fin 256 → ℝ) (d : Fin 256) : ℝ :=
  u d / max (Real.sqrt (∑ d' : Fin 256, u d' * u d')) (9223372 / 9223372036854775808)

/-- The joined array of two families of normalised real rows. -/
def zreal (u6 u7 : Fin 8192 → Fin 256 → ℝ) (i : Fin 16384) (d : Fin 256) : ℝ :=
  if h : i.val < 8192 then nrm (u6 ⟨i.val, h⟩) d else nrm (u7 ⟨i.val - 8192, by have := i.isLt; omega⟩) d

/-- The real similarity of rows i and k: their inner product over 0.1. -/
def sreal (z : Fin 16384 → Fin 256 → ℝ) (i k : Fin 16384) : ℝ :=
  (∑ d : Fin 256, z i d * z k d) / (13421773 / 134217728)

section
variable (x6 x7 : (⟨S8192x256, .f32⟩ : BufTy).Contents (Elt Ideal))

/-- The first input's normalised entry: the entry over the larger of the root of its row's sum of squares and the
    floor. -/
theorem v31_elem (r : Fin 8192) (d : Fin 256) :
    val_main_v31 (F := Ideal) x6 (ix2 r d)
      = Ideal.div (x6 (ix2 r d))
          (max (Ideal.sqrt (∑ d' : Fin 256, x6 (ix2 r d') * x6 (ix2 r d'))) (Ideal.ofBits .f32 0x2B8CBCCC#32)) := by
  rw [val_main_v31_apply, val_main_v30_apply, val_main_v29_apply, val_main_v27_apply, val_main_v26_apply,
    val_main_v25_apply, val_main_v28_apply, val_main_cst_10_apply, val_main_cst_9_apply]
  have hs : ∀ d' : Fin 256, val_main_v24 (F := Ideal) x6 (idx_main_v25 (idx_main_v26 (idx_main_v30 (ix2 r d))) d')
      = x6 (ix2 r d') * x6 (ix2 r d') := by
    intro d'
    have e : idx_main_v25 (idx_main_v26 (idx_main_v30 (ix2 r d))) d' = ix2 r d' :=
      funext fun a => Fin.ext (by match a with | ⟨0, _⟩ => rfl | ⟨1, _⟩ => rfl)
    rw [val_main_v24_apply, e]
    rfl
  rw [Finset.sum_congr rfl (fun d' _ => hs d')]
  show Ideal.div (x6 (ix2 r d)) (max (Ideal.sqrt (Ideal.ofBits .f32 0x00000000#32 + _)) (Ideal.ofBits .f32 0x2B8CBCCC#32)) = _
  rw [Ideal.ofBits_zero_f32, zero_add]

/-- The second input's normalised entry, likewise. -/
theorem v39_elem (r : Fin 8192) (d : Fin 256) :
    val_main_v39 (F := Ideal) x7 (ix2 r d)
      = Ideal.div (x7 (ix2 r d))
          (max (Ideal.sqrt (∑ d' : Fin 256, x7 (ix2 r d') * x7 (ix2 r d'))) (Ideal.ofBits .f32 0x2B8CBCCC#32)) := by
  rw [val_main_v39_apply, val_main_v38_apply, val_main_v37_apply, val_main_v35_apply, val_main_v34_apply,
    val_main_v33_apply, val_main_v36_apply, val_main_cst_12_apply, val_main_cst_11_apply]
  have hs : ∀ d' : Fin 256, val_main_v32 (F := Ideal) x7 (idx_main_v33 (idx_main_v34 (idx_main_v38 (ix2 r d))) d')
      = x7 (ix2 r d') * x7 (ix2 r d') := by
    intro d'
    have e : idx_main_v33 (idx_main_v34 (idx_main_v38 (ix2 r d))) d' = ix2 r d' :=
      funext fun a => Fin.ext (by match a with | ⟨0, _⟩ => rfl | ⟨1, _⟩ => rfl)
    rw [val_main_v32_apply, e]
    rfl
  rw [Finset.sum_congr rfl (fun d' _ => hs d')]
  show Ideal.div (x7 (ix2 r d)) (max (Ideal.sqrt (Ideal.ofBits .f32 0x00000000#32 + _)) (Ideal.ofBits .f32 0x2B8CBCCC#32)) = _
  rw [Ideal.ofBits_zero_f32, zero_add]

/-- A real first input has real normalised rows. -/
theorem v31_real (u : Fin 8192 → Fin 256 → ℝ) (hx : ∀ r d, x6 (ix2 r d) = ((u r d : ℝ) : EReal))
    (r : Fin 8192) (d : Fin 256) : val_main_v31 (F := Ideal) x6 (ix2 r d) = ((nrm (u r) d : ℝ) : EReal) := by
  rw [v31_elem, hx, Finset.sum_congr rfl (fun d' _ => by rw [hx r d'])]
  exact Cert.LseAlgebra.normalise_row Finset.univ (u r) d

/-- A real second input has real normalised rows. -/
theorem v39_real (u : Fin 8192 → Fin 256 → ℝ) (hx : ∀ r d, x7 (ix2 r d) = ((u r d : ℝ) : EReal))
    (r : Fin 8192) (d : Fin 256) : val_main_v39 (F := Ideal) x7 (ix2 r d) = ((nrm (u r) d : ℝ) : EReal) := by
  rw [v39_elem, hx, Finset.sum_congr rfl (fun d' _ => by rw [hx r d'])]
  exact Cert.LseAlgebra.normalise_row Finset.univ (u r) d

/-- With real inputs every entry of the joined array is real. -/
theorem Z_real (u6 u7 : Fin 8192 → Fin 256 → ℝ) (h6 : ∀ r d, x6 (ix2 r d) = ((u6 r d : ℝ) : EReal))
    (h7 : ∀ r d, x7 (ix2 r d) = ((u7 r d : ℝ) : EReal)) (i : Fin 16384) (d : Fin 256) :
    Z x6 x7 (ix2 i d) = ((zreal u6 u7 i d : ℝ) : EReal) := by
  unfold zreal
  by_cases h : i.val < 8192
  · rw [dif_pos h, Z_lo x6 x7 i d h, v31_real x6 u6 h6]
  · rw [dif_neg h, Z_hi x6 x7 i d (by omega), v39_real x7 u7 h7]

/-- Real inputs, stated entry by entry without naming the reals, give a real joined array. -/
theorem Z_real_of_real (h6 : ∀ j, ∃ r : ℝ, x6 j = ((r : ℝ) : EReal)) (h7 : ∀ j, ∃ r : ℝ, x7 j = ((r : ℝ) : EReal)) :
    ∃ z : Fin 16384 → Fin 256 → ℝ, ∀ i d, Z x6 x7 (ix2 i d) = ((z i d : ℝ) : EReal) := by
  choose u6 hu6 using h6
  choose u7 hu7 using h7
  exact ⟨zreal (fun r d => u6 (ix2 r d)) (fun r d => u7 (ix2 r d)),
    Z_real x6 x7 _ _ (fun r d => hu6 (ix2 r d)) (fun r d => hu7 (ix2 r d))⟩

/-- The diagonal of the masked similarity matrix is −∞. -/
theorem S'_diag (i : Fin 16384) : S' x6 x7 i i = ⊥ := by
  unfold S'; rw [if_pos rfl]

/-- THE MASKED ROW: −∞ on the diagonal, the real similarity off it. -/
theorem S'_eq (z : Fin 16384 → Fin 256 → ℝ) (hZ : ∀ i d, Z x6 x7 (ix2 i d) = ((z i d : ℝ) : EReal))
    (i k : Fin 16384) : S' x6 x7 i k = if i = k then ⊥ else ((sreal z i k : ℝ) : EReal) := by
  unfold S'
  by_cases h : i = k
  · rw [if_pos h, if_pos h]
  · rw [if_neg h, if_neg h]
    have hs : ∑ d : Fin 256, Z x6 x7 (ix2 i d) * Z x6 x7 (ix2 k d) = ((∑ d : Fin 256, z i d * z k d : ℝ) : EReal) := by
      rw [← Cert.LseAlgebra.dot_eq_coe]
      exact Finset.sum_congr rfl (fun d _ => by rw [hZ, hZ])
    rw [hs]
    exact Cert.LseAlgebra.div_temp_coe _

/-- Off the diagonal the masked similarity is real. -/
theorem S'_offdiag (z : Fin 16384 → Fin 256 → ℝ) (hZ : ∀ i d, Z x6 x7 (ix2 i d) = ((z i d : ℝ) : EReal))
    (i k : Fin 16384) (h : i ≠ k) : S' x6 x7 i k = ((sreal z i k : ℝ) : EReal) := by
  rw [S'_eq x6 x7 z hZ, if_neg h]

/-- Every row maximum is a real number. -/
theorem M_real (z : Fin 16384 → Fin 256 → ℝ) (hZ : ∀ i d, Z x6 x7 (ix2 i d) = ((z i d : ℝ) : EReal))
    (i : Fin 16384) : ∃ r : ℝ, M x6 x7 i = ((r : ℝ) : EReal) :=
  Cert.LseAlgebra.fold_max_masked_real (masked := fun k => i = k) (x := fun k => sreal z i k)
    (y := fun k => S' x6 x7 i k) (fun k => S'_eq x6 x7 z hZ i k) ⟨pos i, fun h => pos_ne i h.symm⟩

end

/-! ## The entry at the positive partner -/

section
variable (x6 x7 : (⟨S8192x256, .f32⟩ : BufTy).Contents (Elt Ideal))

/-- In the first half the similarity of row i with its partner is the scaled inner product of row i of the first
    normalised input with row i of the second. -/
theorem S'_pos_lo (i : Fin 16384) (h : i.val < 8192) :
    S' x6 x7 i (pos i)
      = Ideal.div (∑ d : Fin 256, val_main_v31 (F := Ideal) x6 (ix2 ⟨i.val, h⟩ d)
          * val_main_v39 (F := Ideal) x7 (ix2 ⟨i.val, h⟩ d)) C := by
  unfold S'
  rw [if_neg (pos_ne i).symm]
  have hp : 8192 ≤ (pos i).val := by rw [pos_lo i h]; omega
  have hs : ∀ d : Fin 256, Z x6 x7 (ix2 i d) * Z x6 x7 (ix2 (pos i) d)
      = val_main_v31 (F := Ideal) x6 (ix2 ⟨i.val, h⟩ d) * val_main_v39 (F := Ideal) x7 (ix2 ⟨i.val, h⟩ d) := by
    intro d
    rw [Z_lo x6 x7 i d h, Z_hi x6 x7 (pos i) d hp]
    have e : (⟨(pos i).val - 8192, by have := (pos i).isLt; omega⟩ : Fin 8192) = ⟨i.val, h⟩ :=
      Fin.ext (by show (pos i).val - 8192 = i.val; rw [pos_lo i h]; omega)
    rw [e]
  rw [Finset.sum_congr rfl (fun d _ => hs d)]

/-- In the second half the similarity of row i with its partner is the same scaled inner product, of rows
    i − 8192 of the two normalised inputs. -/
theorem S'_pos_hi (i : Fin 16384) (h : 8192 ≤ i.val) :
    S' x6 x7 i (pos i)
      = Ideal.div (∑ d : Fin 256, val_main_v31 (F := Ideal) x6 (ix2 ⟨i.val - 8192, by have := i.isLt; omega⟩ d)
          * val_main_v39 (F := Ideal) x7 (ix2 ⟨i.val - 8192, by have := i.isLt; omega⟩ d)) C := by
  unfold S'
  rw [if_neg (pos_ne i).symm]
  have hp : (pos i).val < 8192 := by rw [pos_hi i h]; have := i.isLt; omega
  have hs : ∀ d : Fin 256, Z x6 x7 (ix2 i d) * Z x6 x7 (ix2 (pos i) d)
      = val_main_v31 (F := Ideal) x6 (ix2 ⟨i.val - 8192, by have := i.isLt; omega⟩ d)
        * val_main_v39 (F := Ideal) x7 (ix2 ⟨i.val - 8192, by have := i.isLt; omega⟩ d) := by
    intro d
    rw [Z_hi x6 x7 i d h, Z_lo x6 x7 (pos i) d hp]
    have e : (⟨(pos i).val, hp⟩ : Fin 8192) = ⟨i.val - 8192, by have := i.isLt; omega⟩ :=
      Fin.ext (by show (pos i).val = i.val - 8192; rw [pos_hi i h])
    rw [e, mul_comm]
  rw [Finset.sum_congr rfl (fun d _ => hs d)]

end

/-! ## The result -/

/-- THE REFERENCE'S RESULT: the supervised part plus 0.1 times the negated mean, over the 16384 rows, of the
    log-softmax read at each row's positive partner. -/
theorem ref_result_v66 (x0 x1 x2 x3 x4 x5 : (⟨S8192x1, .f32⟩ : BufTy).Contents (Elt Ideal))
    (x6 x7 : (⟨S8192x256, .f32⟩ : BufTy).Contents (Elt Ideal)) :
    val_main_v85 (F := Ideal) x0 x1 x2 x3 x4 x5 x6 x7 ix0
      = val_main_v23 (F := Ideal) x0 x1 x2 x3 x4 x5 ix0
        + C * (-(Ideal.div (∑ i : Fin 16384, val_main_v66 (F := Ideal) x6 x7 (ix2 i (pos i)))
            (Ideal.ofBits .f32 0x46800000#32))) := by
  rw [val_main_v85_apply, val_main_v84_apply, val_main_v83_apply, val_main_v82_apply, val_main_v81_apply,
    val_main_cst_25_apply, val_main_cst_24_apply, val_main_cst_23_apply]
  have hs : ∑ j : S16384.Idx, val_main_v80 (F := Ideal) x6 x7 j
      = ∑ i : Fin 16384, val_main_v66 (F := Ideal) x6 x7 (ix2 i (pos i)) := by
    rw [sum_idx1]
    exact Finset.sum_congr rfl (fun i _ => v80_apply x6 x7 i)
  rw [hs]
  show _ + Ideal.ofBits .f32 0x3DCCCCCD#32
    * (-(Ideal.div (Ideal.ofBits .f32 0x00000000#32 + _) (Ideal.ofBits .f32 0x46800000#32))) = _
  rw [Ideal.ofBits_zero_f32, zero_add]

/-- The same with the log-softmax in elementary form. -/
theorem ref_result (x0 x1 x2 x3 x4 x5 : (⟨S8192x1, .f32⟩ : BufTy).Contents (Elt Ideal))
    (x6 x7 : (⟨S8192x256, .f32⟩ : BufTy).Contents (Elt Ideal)) :
    val_main_v85 (F := Ideal) x0 x1 x2 x3 x4 x5 x6 x7 ix0
      = val_main_v23 (F := Ideal) x0 x1 x2 x3 x4 x5 ix0
        + C * (-(Ideal.div (∑ i : Fin 16384, logp x6 x7 i (pos i)) (Ideal.ofBits .f32 0x46800000#32))) := by
  rw [ref_result_v66]
  have hs : ∑ i : Fin 16384, val_main_v66 (F := Ideal) x6 x7 (ix2 i (pos i)) = ∑ i : Fin 16384, logp x6 x7 i (pos i) :=
    Finset.sum_congr rfl (fun i _ => v66_apply x6 x7 i (pos i))
  rw [hs]

/-- THE REFERENCE'S RESULT IN LOG-SUM-EXP FORM. With a real joined array, for any real shift μ: the supervised part
    plus 0.1 times the mean over the rows of (μ + log ∑ₖ exp (S' i k − μ)) − S' i (p i). The log-softmax's own shift,
    the row maximum, has dropped out: each row has 16383 real entries, so its sum of exponentials is positive and
    a + log ∑ₖ exp (S' i k − a) is the same real for every real a. -/
theorem ref_result_lse (x0 x1 x2 x3 x4 x5 : (⟨S8192x1, .f32⟩ : BufTy).Contents (Elt Ideal))
    (x6 x7 : (⟨S8192x256, .f32⟩ : BufTy).Contents (Elt Ideal))
    (z : Fin 16384 → Fin 256 → ℝ) (hZ : ∀ i d, Z x6 x7 (ix2 i d) = ((z i d : ℝ) : EReal)) (μ : ℝ) :
    val_main_v85 (F := Ideal) x0 x1 x2 x3 x4 x5 x6 x7 ix0
      = val_main_v23 (F := Ideal) x0 x1 x2 x3 x4 x5 ix0
        + C * Ideal.div (∑ i : Fin 16384,
            (((μ : EReal) + Ideal.log (∑ k : Fin 16384, Ideal.exp (S' x6 x7 i k - (μ : EReal)))) - S' x6 x7 i (pos i)))
          (Ideal.ofBits .f32 0x46800000#32) := by
  rw [ref_result]
  choose m hm using M_real x6 x7 z hZ
  have hl : ∀ i : Fin 16384, logp x6 x7 i (pos i)
      = (S' x6 x7 i (pos i) - (m i : EReal)) - Ideal.log (∑ k : Fin 16384, Ideal.exp (S' x6 x7 i k - (m i : EReal))) := by
    intro i; unfold logp; rw [hm i]
  rw [Finset.sum_congr rfl (fun i _ => hl i), ofBits_rows]
  have key := Cert.LseAlgebra.mean_lse_sub_eq_neg_mean_log_softmax (Finset.univ : Finset (Fin 16384))
    (masked := fun i k => i = k) (x := sreal z) (y := S' x6 x7)
    (fun i _ k => S'_eq x6 x7 z hZ i k) pos (fun i _ h => pos_ne i h.symm) μ m (fun i => S' x6 x7 i (pos i))
    (fun i _ => S'_offdiag x6 x7 z hZ i (pos i) (pos_ne i).symm) (n := 16384) (by norm_num)
  rw [key]

end Cert.RefSide

end
-- ==== Proof.Bridge.lean ====
/-
  The two programs compute one function of finite inputs.

  Kernel side: the result is  s + w · mean_i (lse_i − p_i)  with s the supervised scalar, lse_i = μ + log Σ_k e_ik
  the region's row-wise log-sum-exp over the entries  e_ik = exp(T_ik − μ),  T_ik = −∞ on the diagonal and
  (Z_i · Z_k) · μ off it, and p_i the partner similarity over the temperature word c. Reference side: the
  same s and w, and the mean of  (μ + log Σ_k exp(S'_ik − μ)) − S'_{i, pos i}  for ANY real μ, S' being the
  similarity matrix over c with −∞ on its diagonal. They meet because μ is the reciprocal of c —
  x · μ = x / c on the extended reals — so T = S' entry by entry, and because row i's partner similarity is
  S'_{i, pos i} in both halves (the inner product is symmetric).
-/
import proofs.«138523_j48455821033481_2_alg».proof.Proof.TailAt
import proofs.«138523_j48455821033481_2_alg».proof.Proof.KernelStages
import proofs.«138523_j48455821033481_2_alg».proof.Proof.RefSide

set_option maxRecDepth 16384

noncomputable section

namespace Cert.Bridge

open Cert.KernelIdeal Cert.KernelIdeal.Gen Cert.KernelIdeal.RowLse
open Idealize.ShloMosaic Idealize.ShloMosaic.TcCoe Idealize.SL.Sem Idealize.ShloMosaic.ValueIdx
open Cert.ReferenceIdeal.ReadP (val_main_v23 val_main_v31 val_main_v39 val_main_v40 val_main_v85)
open Cert.RefSpec (pos)

/-- The reciprocal of the temperature word, as a real number. -/
abbrev μr : ℝ := 134217728 / 13421773

section
variable (x6 x7 : (⟨Cert.ReferenceIdeal.S8192x256, .f32⟩ : BufTy).Contents (Elt Ideal))

/-- The kernel's entry is the exponential of the reference's masked similarity less the shift: on the diagonal
    both are exp(−∞ − μ); off it, the inner product times μ is the inner product over c. -/
theorem entry_eq (i k : Fin 16384) :
    Cert.KernelIdeal.ResultArray.entry (Cert.RefSide.Z x6 x7) i k = Ideal.exp (Cert.RefSide.S' x6 x7 i k - ((μr : ℝ) : EReal)) := by
  unfold Cert.KernelIdeal.ResultArray.entry Cert.RefSide.S'
  by_cases h : i = k
  · rw [if_pos h, if_pos h]
  · rw [if_neg h, if_neg h, Cert.LseAlgebra.mul_inv_temp_ofBits]

/-- Row i's partner similarity over c is the reference's masked similarity at (i, pos i), in both halves. -/
theorem partner_eq (i : Fin 16384) :
    Cert.KernelIdeal.TailAt.partner (val_main_v31 (F := Ideal) x6) (val_main_v39 (F := Ideal) x7) i = Cert.RefSide.S' x6 x7 i (pos i) := by
  unfold Cert.KernelIdeal.TailAt.partner
  by_cases h : i.val < 8192
  · rw [Cert.RefSide.S'_pos_lo x6 x7 i h]
    have e : Cert.KernelIdeal.TailAt.half i = ⟨i.val, h⟩ := Fin.ext (Nat.mod_eq_of_lt h)
    rw [e]
  · have h' : 8192 ≤ i.val := Nat.le_of_not_lt h
    rw [Cert.RefSide.S'_pos_hi x6 x7 i h']
    have e : Cert.KernelIdeal.TailAt.half i = ⟨i.val - 8192, by have := i.isLt; omega⟩ :=
      Fin.ext (by show i.val % 8192 = i.val - 8192; have := i.isLt; omega)
    rw [e]

/-- Row by row, the kernel's summand is the reference's. -/
theorem rows_eq :
    (∑ i : Fin 16384, ((Cert.KernelIdeal.TotalsValue.μ + Ideal.log (∑ k : Fin 16384, Cert.KernelIdeal.ResultArray.entry (Cert.RefSide.Z x6 x7) i k))
        - Cert.KernelIdeal.TailAt.partner (val_main_v31 (F := Ideal) x6) (val_main_v39 (F := Ideal) x7) i))
      = ∑ i : Fin 16384, ((((μr : ℝ) : EReal) + Ideal.log (∑ k : Fin 16384, Ideal.exp (Cert.RefSide.S' x6 x7 i k - ((μr : ℝ) : EReal))))
          - Cert.RefSide.S' x6 x7 i (pos i)) :=
  Finset.sum_congr rfl fun i _ => by rw [partner_eq]; simp only [entry_eq]

end

variable (m : (ℓ : Loc nD τ sig) → Buf (Elt Ideal) ℓ)

/-- THE VALUE: for real-valued matrix inputs, the kernel's result after its host lines is the reference's
    result stage of the same eight argument arrays. -/
theorem kernel_value (c : Dev nD)
    (h6 : ∀ j, ∃ r : ℝ, (m ((c.tc : Thread nD τ).loc main_arg6)) j = ((r : ℝ) : EReal)) (h7 : ∀ j, ∃ r : ℝ, (m ((c.tc : Thread nD τ).loc main_arg7)) j = ((r : ℝ) : EReal)) :
    (afterTail m c main_v53 : S_.Idx → EReal)
      = val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  funext i
  obtain rfl : i = ix0 := funext fun d => d.elim0
  obtain ⟨z, hZ⟩ := Cert.RefSide.Z_real_of_real _ _ h6 h7
  have hZb : Cert.KernelIdeal.ResultArray.Zb m c = Cert.RefSide.Z (m ((c.tc : Thread nD τ).loc main_arg6)) (m ((c.tc : Thread nD τ).loc main_arg7)) := V_matrix m c
  rw [tail_result, Cert.KernelIdeal.ResultArray.final, V_sup, V_rows1, V_rows2, hZb, Cert.KernelIdeal.TailAt.tailFn_G,
    Cert.RefSide.ref_result_lse _ _ _ _ _ _ _ _ z hZ μr, rows_eq]

end Cert.Bridge

end
-- ==== Proof.FiniteInputs.lean ====
/-
  From the stated precondition to real-valued inputs.

  The precondition is the conjunction, over the eight argument arrays, of "every entry has absolute value below +∞".
  It is printed as a chain of comparisons, all-reductions by "and" from the constant true, and "and"s of the partial
  results, ending in one bit. When that bit is 1 every conjunct is 1, every compared entry satisfies |x| < +∞, and an
  extended real with |x| < +∞ is a real number (for −∞ and +∞ the absolute value is +∞). Only the last two arrays, the
  embeddings, are read back here.
-/
import proofs.«138523_j48455821033481_2_alg».proof.Pre_finite_inputs
import Idealize.ShloMosaic.Lib.ReduceAll
import Idealize.ShloMosaic.Lib.ValueIdx
import Idealize.ShloMosaic.PureOps.Ideal.Laws

noncomputable section

namespace Cert.FiniteInputs

open Cert.Pre_finite_inputs Idealize.ShloMosaic Idealize.ShloMosaic.ValueIdx

variable [Cert.Pre_finite_inputs.Facts]

/-- The scalar shape has one index. -/
instance : Subsingleton S_.Idx := ⟨fun a b => funext fun d => d.elim0⟩

/-- The word of +∞ denotes the top extended real. -/
theorem posinf_eq_top : Ideal.ofBits .f32 0x7F800000#32 = (⊤ : EReal) := by
  simp [Ideal.ofBits, Ideal.ieee]

/-- An extended real whose absolute value compares below +∞ is a real number. -/
theorem real_of_abs_lt_top (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = ((r : ℝ) : EReal) := by
  have hc : Ideal.cmp .olt (max x (-x)) (Ideal.ofBits .f32 0x7F800000#32) = 1#1 := h
  rw [posinf_eq_top] at hc
  have hlt : max x (-x) < ⊤ := by
    change BitVec.ofBool (decide (max x (-x) < ⊤)) = 1#1 at hc
    by_contra hn
    rw [decide_eq_false hn] at hc
    exact absurd hc (by decide)
  induction x using EReal.rec with
  | bot => simp at hlt
  | coe r => exact ⟨r, rfl⟩
  | top => simp at hlt

/-- Under the precondition both embedding arrays hold real numbers. -/
theorem real_of_pre (x0 x1 x2 x3 x4 x5 : FVec Ideal S8192x1 .f32) (x6 x7 : FVec Ideal S8192x256 .f32)
    (h : Cert.Pre_finite_inputs.fn (F := Ideal) x0 x1 x2 x3 x4 x5 x6 x7 = (fun _ => 1#1)) :
    (∀ i, ∃ r : ℝ, x6 i = ((r : ℝ) : EReal)) ∧ (∀ i, ∃ r : ℝ, x7 i = ((r : ℝ) : EReal)) := by
  have h0 := congrFun h ix0
  dsimp only [fn, fn_part1, fn_part2] at h0
  obtain ⟨h33, h37⟩ := IntOp.andi_eq_one.1 h0
  obtain ⟨_, h32⟩ := IntOp.andi_eq_one.1 h33
  exact ⟨fun i => real_of_abs_lt_top (x6 i) (Host.reduce_andi_all _ _ _ _ _ h32 i),
    fun i => real_of_abs_lt_top (x7 i) (Host.reduce_andi_all _ _ _ _ _ h37 i)⟩

end Cert.FiniteInputs

end
-- ==== Proof.RefRun.lean ====
/-
  The reference's run, read back in pieces.

  The reference is a straight line of 128 host operations. Its run ends with every buffer at the value the
  operations, applied in order, give it from the launch contents. Composing all 128 into one closed term is what makes
  that statement heavy, so the line is cut into six stretches — the supervised part; the two normalisations, their
  join and the scaled product; the index words, the diagonal overwrite and the partner table; the log-softmax; the
  index words of the read at the partners; that read and the final mean — and each stretch is read on its own, from ANY contents W of the buffers
  before it: the few buffers later stretches still need come out as the corresponding stage of the argument arrays,
  given that the few buffers the stretch reads hold theirs. Chaining the six gives the result buffer as the last
  stage of the eight argument arrays, and no operation writes an argument.
-/
import proofs.«138523_j48455821033481_2_alg».proof.Proof.Gen.ReferenceIdeal
import proofs.«138523_j48455821033481_2_alg».proof.Proof.RefReadP
import Idealize.ShloMosaic.Lib.StableHlo.Run
import Idealize.ShloMosaic.Lib.Pipeline.Frame

noncomputable section

namespace Cert.RefRun

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-- Operations 1–34: the supervised part. -/
abbrev opsA : List (HloOp τ sig (Elt F)) :=
  [ binary main_arg0 main_arg1 main_v0 (subf : (⟨S8192x1, .f32⟩ : BufTy).Contents (Elt F) → (⟨S8192x1, .f32⟩ : BufTy).Contents (Elt F) → (⟨S8192x1, .f32⟩ : BufTy).Contents (Elt F)),
    binary main_v0 main_v0 main_v1 (mulf : (⟨S8192x1, .f32⟩ : BufTy).Contents (Elt F) → (⟨S8192x1, .f32⟩ : BufTy).Contents (Elt F) → (⟨S8192x1, .f32⟩ : BufTy).Contents (Elt F)),
    nullary main_cst (constant S_ .f32 0x00000000#32),
    binary main_v1 main_cst main_v2 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F)),
    nullary main_cst_0 (constant S_ .f32 0x46000000#32),
    binary main_v2 main_cst_0 main_v3 (Host.divf : (⟨S_, .f32⟩ : BufTy).Contents (Elt F) → (⟨S_, .f32⟩ : BufTy).Contents (Elt F) → (⟨S_, .f32⟩ : BufTy).Contents (Elt F)),
    binary main_arg2 main_arg3 main_v4 (subf : (⟨S8192x1, .f32⟩ : BufTy).Contents (Elt F) → (⟨S8192x1, .f32⟩ : BufTy).Contents (Elt F) → (⟨S8192x1, .f32⟩ : BufTy).Contents (Elt F)),
    binary main_v4 main_v4 main_v5 (mulf : (⟨S8192x1, .f32⟩ : BufTy).Contents (Elt F) → (⟨S8192x1, .f32⟩ : BufTy).Contents (Elt F) → (⟨S8192x1, .f32⟩ : BufTy).Contents (Elt F)),
    nullary main_cst_1 (constant S_ .f32 0x00000000#32),
    binary main_v5 main_cst_1 main_v6 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F)),
    nullary main_cst_2 (constant S_ .f32 0x46000000#32),
    binary main_v6 main_cst_2 main_v7 (Host.divf : (⟨S_, .f32⟩ : BufTy).Contents (Elt F) → (⟨S_, .f32⟩ : BufTy).Contents (Elt F) → (⟨S_, .f32⟩ : BufTy).Contents (Elt F)),
    nullary main_cst_3 (constant S_ .f32 0x00000000#32),
    unary main_cst_3 main_v8 (broadcastInDim S8192x1 ![] bcast_S_S8192x1 : (⟨S_, .f32⟩ : BufTy).Contents (Elt F) → (⟨S8192x1, .f32⟩ : BufTy).Contents (Elt F)),
    binary main_arg4 main_v8 main_v9 (maximumf : (⟨S8192x1, .f32⟩ : BufTy).Contents (Elt F) → (⟨S8192x1, .f32⟩ : BufTy).Contents (Elt F) → (⟨S8192x1, .f32⟩ : BufTy).Contents (Elt F)),
    binary main_arg4 main_arg5 main_v10 (mulf : (⟨S8192x1, .f32⟩ : BufTy).Contents (Elt F) → (⟨S8192x1, .f32⟩ : BufTy).Contents (Elt F) → (⟨S8192x1, .f32⟩ : BufTy).Contents (Elt F)),
    binary main_v9 main_v10 main_v11 (subf : (⟨S8192x1, .f32⟩ : BufTy).Contents (Elt F) → (⟨S8192x1, .f32⟩ : BufTy).Contents (Elt F) → (⟨S8192x1, .f32⟩ : BufTy).Contents (Elt F)),
    unary main_arg4 main_v12 (Host.absf : (⟨S8192x1, .f32⟩ : BufTy).Contents (Elt F) → (⟨S8192x1, .f32⟩ : BufTy).Contents (Elt F)),
    unary main_v12 main_v13 (Host.negf : (⟨S8192x1, .f32⟩ : BufTy).Contents (Elt F) → (⟨S8192x1, .f32⟩ : BufTy).Contents (Elt F)),
    unary main_v13 main_v14 (Host.exp : (⟨S8192x1, .f32⟩ : BufTy).Contents (Elt F) → (⟨S8192x1, .f32⟩ : BufTy).Contents (Elt F)),
    unary main_v14 main_v15 (Host.log1p : (⟨S8192x1, .f32⟩ : BufTy).Contents (Elt F) → (⟨S8192x1, .f32⟩ : BufTy).Contents (Elt F)),
    binary main_v11 main_v15 main_v16 (addf : (⟨S8192x1, .f32⟩ : BufTy).Contents (Elt F) → (⟨S8192x1, .f32⟩ : BufTy).Contents (Elt F) → (⟨S8192x1, .f32⟩ : BufTy).Contents (Elt F)),
    nullary main_cst_4 (constant S_ .f32 0x00000000#32),
    binary main_v16 main_cst_4 main_v17 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F)),
    nullary main_cst_5 (constant S_ .f32 0x46000000#32),
    binary main_v17 main_cst_5 main_v18 (Host.divf : (⟨S_, .f32⟩ : BufTy).Contents (Elt F) → (⟨S_, .f32⟩ : BufTy).Contents (Elt F) → (⟨S_, .f32⟩ : BufTy).Contents (Elt F)),
    nullary main_cst_6 (constant S_ .f32 0x3F800000#32),
    binary main_cst_6 main_v3 main_v19 (mulf : (⟨S_, .f32⟩ : BufTy).Contents (Elt F) → (⟨S_, .f32⟩ : BufTy).Contents (Elt F) → (⟨S_, .f32⟩ : BufTy).Contents (Elt F)),
    nullary main_cst_7 (constant S_ .f32 0x3F000000#32),
    binary main_cst_7 main_v7 main_v20 (mulf : (⟨S_, .f32⟩ : BufTy).Contents (Elt F) → (⟨S_, .f32⟩ : BufTy).Contents (Elt F) → (⟨S_, .f32⟩ : BufTy).Contents (Elt F)),
    binary main_v19 main_v20 main_v21 (addf : (⟨S_, .f32⟩ : BufTy).Contents (Elt F) → (⟨S_, .f32⟩ : BufTy).Contents (Elt F) → (⟨S_, .f32⟩ : BufTy).Contents (Elt F)),
    nullary main_cst_8 (constant S_ .f32 0x3E99999A#32),
    binary main_cst_8 main_v18 main_v22 (mulf : (⟨S_, .f32⟩ : BufTy).Contents (Elt F) → (⟨S_, .f32⟩ : BufTy).Contents (Elt F) → (⟨S_, .f32⟩ : BufTy).Contents (Elt F)),
    binary main_v21 main_v22 main_v23 (addf : (⟨S_, .f32⟩ : BufTy).Contents (Elt F) → (⟨S_, .f32⟩ : BufTy).Contents (Elt F) → (⟨S_, .f32⟩ : BufTy).Contents (Elt F)) ]

/-- Operations 35–60: the two normalisations, their join, the product with the transpose, the division by 0.1. -/
abbrev opsB : List (HloOp τ sig (Elt F)) :=
  [ binary main_arg6 main_arg6 main_v24 (mulf : (⟨S8192x256, .f32⟩ : BufTy).Contents (Elt F) → (⟨S8192x256, .f32⟩ : BufTy).Contents (Elt F) → (⟨S8192x256, .f32⟩ : BufTy).Contents (Elt F)),
    nullary main_cst_9 (constant S_ .f32 0x00000000#32),
    binary main_v24 main_cst_9 main_v25 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v25 main_v26 (broadcastInDim S8192x1 ![0] bcast_S8192_S8192x1_0 : (⟨S8192, .f32⟩ : BufTy).Contents (Elt F) → (⟨S8192x1, .f32⟩ : BufTy).Contents (Elt F)),
    unary main_v26 main_v27 (Host.sqrt : (⟨S8192x1, .f32⟩ : BufTy).Contents (Elt F) → (⟨S8192x1, .f32⟩ : BufTy).Contents (Elt F)),
    nullary main_cst_10 (constant S_ .f32 0x2B8CBCCC#32),
    unary main_cst_10 main_v28 (broadcastInDim S8192x1 ![] bcast_S_S8192x1 : (⟨S_, .f32⟩ : BufTy).Contents (Elt F) → (⟨S8192x1, .f32⟩ : BufTy).Contents (Elt F)),
    binary main_v27 main_v28 main_v29 (maximumf : (⟨S8192x1, .f32⟩ : BufTy).Contents (Elt F) → (⟨S8192x1, .f32⟩ : BufTy).Contents (Elt F) → (⟨S8192x1, .f32⟩ : BufTy).Contents (Elt F)),
    unary main_v29 main_v30 (broadcastInDim S8192x256 ![0, 1] bcast_S8192x1_S8192x256_0_1 : (⟨S8192x1, .f32⟩ : BufTy).Contents (Elt F) → (⟨S8192x256, .f32⟩ : BufTy).Contents (Elt F)),
    binary main_arg6 main_v30 main_v31 (Host.divf : (⟨S8192x256, .f32⟩ : BufTy).Contents (Elt F) → (⟨S8192x256, .f32⟩ : BufTy).Contents (Elt F) → (⟨S8192x256, .f32⟩ : BufTy).Contents (Elt F)),
    binary main_arg7 main_arg7 main_v32 (mulf : (⟨S8192x256, .f32⟩ : BufTy).Contents (Elt F) → (⟨S8192x256, .f32⟩ : BufTy).Contents (Elt F) → (⟨S8192x256, .f32⟩ : BufTy).Contents (Elt F)),
    nullary main_cst_11 (constant S_ .f32 0x00000000#32),
    binary main_v32 main_cst_11 main_v33 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v33 main_v34 (broadcastInDim S8192x1 ![0] bcast_S8192_S8192x1_0 : (⟨S8192, .f32⟩ : BufTy).Contents (Elt F) → (⟨S8192x1, .f32⟩ : BufTy).Contents (Elt F)),
    unary main_v34 main_v35 (Host.sqrt : (⟨S8192x1, .f32⟩ : BufTy).Contents (Elt F) → (⟨S8192x1, .f32⟩ : BufTy).Contents (Elt F)),
    nullary main_cst_12 (constant S_ .f32 0x2B8CBCCC#32),
    unary main_cst_12 main_v36 (broadcastInDim S8192x1 ![] bcast_S_S8192x1 : (⟨S_, .f32⟩ : BufTy).Contents (Elt F) → (⟨S8192x1, .f32⟩ : BufTy).Contents (Elt F)),
    binary main_v35 main_v36 main_v37 (maximumf : (⟨S8192x1, .f32⟩ : BufTy).Contents (Elt F) → (⟨S8192x1, .f32⟩ : BufTy).Contents (Elt F) → (⟨S8192x1, .f32⟩ : BufTy).Contents (Elt F)),
    unary main_v37 main_v38 (broadcastInDim S8192x256 ![0, 1] bcast_S8192x1_S8192x256_0_1 : (⟨S8192x1, .f32⟩ : BufTy).Contents (Elt F) → (⟨S8192x256, .f32⟩ : BufTy).Contents (Elt F)),
    binary main_arg7 main_v38 main_v39 (Host.divf : (⟨S8192x256, .f32⟩ : BufTy).Contents (Elt F) → (⟨S8192x256, .f32⟩ : BufTy).Contents (Elt F) → (⟨S8192x256, .f32⟩ : BufTy).Contents (Elt F)),
    binary main_v31 main_v39 main_v40 ((fun a b => concatenate S16384x256 0 [⟨S8192x256, a⟩, ⟨S8192x256, b⟩] concatenates_S8192x256_S8192x256_S16384x256_d0) : (⟨S8192x256, .f32⟩ : BufTy).Contents (Elt F) → (⟨S8192x256, .f32⟩ : BufTy).Contents (Elt F) → (⟨S16384x256, .f32⟩ : BufTy).Contents (Elt F)),
    unary main_v40 main_v41 ((transpose S256x16384 [1, 0] · transposes_S16384x256_S256x16384_1_0) : (⟨S16384x256, .f32⟩ : BufTy).Contents (Elt F) → (⟨S256x16384, .f32⟩ : BufTy).Contents (Elt F)),
    binary main_v40 main_v41 main_v42 ((fun l r => Host.dotGeneral dot_S16384x256_S256x16384_S16384x16384_1_0_0_1_n_n none l r) : (⟨S16384x256, .f32⟩ : BufTy).Contents (Elt F) → (⟨S256x16384, .f32⟩ : BufTy).Contents (Elt F) → (⟨S16384x16384, .f32⟩ : BufTy).Contents (Elt F)),
    nullary main_cst_13 (constant S_ .f32 0x3DCCCCCD#32),
    unary main_cst_13 main_v43 (broadcastInDim S16384x16384 ![] bcast_S_S16384x16384 : (⟨S_, .f32⟩ : BufTy).Contents (Elt F) → (⟨S16384x16384, .f32⟩ : BufTy).Contents (Elt F)),
    binary main_v42 main_v43 main_v44 (Host.divf : (⟨S16384x16384, .f32⟩ : BufTy).Contents (Elt F) → (⟨S16384x16384, .f32⟩ : BufTy).Contents (Elt F) → (⟨S16384x16384, .f32⟩ : BufTy).Contents (Elt F)) ]

/-- Operations 61–87: the index words, the diagonal overwrite, the partner table. -/
abbrev opsC : List (HloOp τ sig (Elt F)) :=
  [ nullary main_v45 (iotaInDim S16384 32 0),
    nullary main_c (constantI S_ 32 0#32),
    unary main_c main_v46 (broadcastInDim S16384 ![] bcast_S_S16384 : (⟨S_, .i32⟩ : BufTy).Contents (Elt F) → (⟨S16384, .i32⟩ : BufTy).Contents (Elt F)),
    binary main_v45 main_v46 main_v47 (cmpi .slt : (⟨S16384, .i32⟩ : BufTy).Contents (Elt F) → (⟨S16384, .i32⟩ : BufTy).Contents (Elt F) → (⟨S16384, .i1⟩ : BufTy).Contents (Elt F)),
    nullary main_c_14 (constantI S_ 32 16384#32),
    unary main_c_14 main_v48 (broadcastInDim S16384 ![] bcast_S_S16384 : (⟨S_, .i32⟩ : BufTy).Contents (Elt F) → (⟨S16384, .i32⟩ : BufTy).Contents (Elt F)),
    binary main_v45 main_v48 main_v49 (addi : (⟨S16384, .i32⟩ : BufTy).Contents (Elt F) → (⟨S16384, .i32⟩ : BufTy).Contents (Elt F) → (⟨S16384, .i32⟩ : BufTy).Contents (Elt F)),
    ternary main_v47 main_v49 main_v45 main_v50 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_15 (constantI S_ 32 0#32),
    unary main_c_15 main_v51 (broadcastInDim S16384 ![] bcast_S_S16384 : (⟨S_, .i32⟩ : BufTy).Contents (Elt F) → (⟨S16384, .i32⟩ : BufTy).Contents (Elt F)),
    binary main_v45 main_v51 main_v52 (cmpi .slt : (⟨S16384, .i32⟩ : BufTy).Contents (Elt F) → (⟨S16384, .i32⟩ : BufTy).Contents (Elt F) → (⟨S16384, .i1⟩ : BufTy).Contents (Elt F)),
    nullary main_c_16 (constantI S_ 32 16384#32),
    unary main_c_16 main_v53 (broadcastInDim S16384 ![] bcast_S_S16384 : (⟨S_, .i32⟩ : BufTy).Contents (Elt F) → (⟨S16384, .i32⟩ : BufTy).Contents (Elt F)),
    binary main_v45 main_v53 main_v54 (addi : (⟨S16384, .i32⟩ : BufTy).Contents (Elt F) → (⟨S16384, .i32⟩ : BufTy).Contents (Elt F) → (⟨S16384, .i32⟩ : BufTy).Contents (Elt F)),
    ternary main_v52 main_v54 main_v45 main_v55 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v50 main_v56 (broadcastInDim S16384x1 ![0] bcast_S16384_S16384x1_0 : (⟨S16384, .i32⟩ : BufTy).Contents (Elt F) → (⟨S16384x1, .i32⟩ : BufTy).Contents (Elt F)),
    unary main_v55 main_v57 (broadcastInDim S16384x1 ![0] bcast_S16384_S16384x1_0 : (⟨S16384, .i32⟩ : BufTy).Contents (Elt F) → (⟨S16384x1, .i32⟩ : BufTy).Contents (Elt F)),
    binary main_v56 main_v57 main_v58 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    nullary main_cst_17 (constant S_ .f32 0xFF800000#32),
    unary main_cst_17 main_v59 (broadcastInDim S16384 ![] bcast_S_S16384 : (⟨S_, .f32⟩ : BufTy).Contents (Elt F) → (⟨S16384, .f32⟩ : BufTy).Contents (Elt F)),
    ternary main_v44 main_v58 main_v59 main_v60 ((fun x i u => Host.scatter scatter_S16384x16384_S16384x2_S16384_n_01_01_1 (fun _ b => b) x i u) : (⟨S16384x16384, .f32⟩ : BufTy).Contents (Elt F) → (⟨S16384x2, .i32⟩ : BufTy).Contents (Elt F) → (⟨S16384, .f32⟩ : BufTy).Contents (Elt F) → (⟨S16384x16384, .f32⟩ : BufTy).Contents (Elt F)),
    nullary main_v61 (iotaInDim S8192 32 0),
    nullary main_c_18 (constantI S_ 32 8192#32),
    unary main_c_18 main_v62 (broadcastInDim S8192 ![] bcast_S_S8192 : (⟨S_, .i32⟩ : BufTy).Contents (Elt F) → (⟨S8192, .i32⟩ : BufTy).Contents (Elt F)),
    binary main_v62 main_v61 main_v63 (addi : (⟨S8192, .i32⟩ : BufTy).Contents (Elt F) → (⟨S8192, .i32⟩ : BufTy).Contents (Elt F) → (⟨S8192, .i32⟩ : BufTy).Contents (Elt F)),
    nullary main_v64 (iotaInDim S8192 32 0),
    binary main_v63 main_v64 main_v65 ((fun a b => concatenate S16384 0 [⟨S8192, a⟩, ⟨S8192, b⟩] concatenates_S8192_S8192_S16384_d0) : (⟨S8192, .i32⟩ : BufTy).Contents (Elt F) → (⟨S8192, .i32⟩ : BufTy).Contents (Elt F) → (⟨S16384, .i32⟩ : BufTy).Contents (Elt F)) ]

/-- Operations 88–102: the row-wise log-softmax. -/
abbrev opsD : List (HloOp τ sig (Elt F)) :=
  [ TRef.nullary (TRef.of (T := ⟨S_, .f32⟩) main_call0_cst) (constant S_ .f32 0xFF800000#32),
    TRef.binary (TRef.of (T := ⟨S16384x16384, .f32⟩) main_v60) (TRef.of (T := ⟨S_, .f32⟩) main_call0_cst) (TRef.of (T := ⟨S16384, .f32⟩) main_call0_v0) (fun x v => Host.reduce FloatOps.maximumf x v reducesTo_S16384x16384_S16384_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S16384, .f32⟩) main_call0_v1) (broadcastInDim S16384 ![] bcast_S_S16384),
    TRef.binary (TRef.of (T := ⟨S16384, .f32⟩) main_call0_v1) (TRef.of (T := ⟨S16384, .f32⟩) main_call0_v0) (TRef.of (T := ⟨S16384, .f32⟩) main_call0_v2) maximumf,
    TRef.unary (TRef.of (T := ⟨S16384, .f32⟩) main_call0_v2) (TRef.of (T := ⟨S16384x1, .f32⟩) main_call0_v3) (broadcastInDim S16384x1 ![0] bcast_S16384_S16384x1_0),
    TRef.unary (TRef.of (T := ⟨S16384x1, .f32⟩) main_call0_v3) (TRef.of (T := ⟨S16384x16384, .f32⟩) main_call0_v4) (broadcastInDim S16384x16384 ![0, 1] bcast_S16384x1_S16384x16384_0_1),
    TRef.binary (TRef.of (T := ⟨S16384x16384, .f32⟩) main_v60) (TRef.of (T := ⟨S16384x16384, .f32⟩) main_call0_v4) (TRef.of (T := ⟨S16384x16384, .f32⟩) main_call0_v5) subf,
    TRef.unary (TRef.of (T := ⟨S16384x16384, .f32⟩) main_call0_v5) (TRef.of (T := ⟨S16384x16384, .f32⟩) main_call0_v6) Host.exp,
    TRef.nullary (TRef.of (T := ⟨S_, .f32⟩) main_call0_cst_1) (constant S_ .f32 0x00000000#32),
    TRef.binary (TRef.of (T := ⟨S16384x16384, .f32⟩) main_call0_v6) (TRef.of (T := ⟨S_, .f32⟩) main_call0_cst_1) (TRef.of (T := ⟨S16384, .f32⟩) main_call0_v7) (fun x v => Host.reduceAdd x v reducesTo_S16384x16384_S16384_d1 h_S_),
    TRef.unary (TRef.of (T := ⟨S16384, .f32⟩) main_call0_v7) (TRef.of (T := ⟨S16384x1, .f32⟩) main_call0_v8) (broadcastInDim S16384x1 ![0] bcast_S16384_S16384x1_0),
    TRef.unary (TRef.of (T := ⟨S16384x1, .f32⟩) main_call0_v8) (TRef.of (T := ⟨S16384x1, .f32⟩) main_call0_v9) Host.log,
    TRef.unary (TRef.of (T := ⟨S16384x1, .f32⟩) main_call0_v9) (TRef.of (T := ⟨S16384x16384, .f32⟩) main_call0_v10) (broadcastInDim S16384x16384 ![0, 1] bcast_S16384x1_S16384x16384_0_1),
    TRef.binary (TRef.of (T := ⟨S16384x16384, .f32⟩) main_call0_v5) (TRef.of (T := ⟨S16384x16384, .f32⟩) main_call0_v10) (TRef.of (T := ⟨S16384x16384, .f32⟩) main_v66) subf ]

/-- Operations 103–118: the two columns of index words for the read at the partners. -/
abbrev opsE : List (HloOp τ sig (Elt F)) :=
  [ nullary main_c_19 (constantI S_ 32 0#32),
    unary main_c_19 main_v67 (broadcastInDim S16384 ![] bcast_S_S16384 : (⟨S_, .i32⟩ : BufTy).Contents (Elt F) → (⟨S16384, .i32⟩ : BufTy).Contents (Elt F)),
    binary main_v45 main_v67 main_v68 (cmpi .slt : (⟨S16384, .i32⟩ : BufTy).Contents (Elt F) → (⟨S16384, .i32⟩ : BufTy).Contents (Elt F) → (⟨S16384, .i1⟩ : BufTy).Contents (Elt F)),
    nullary main_c_20 (constantI S_ 32 16384#32),
    unary main_c_20 main_v69 (broadcastInDim S16384 ![] bcast_S_S16384 : (⟨S_, .i32⟩ : BufTy).Contents (Elt F) → (⟨S16384, .i32⟩ : BufTy).Contents (Elt F)),
    binary main_v45 main_v69 main_v70 (addi : (⟨S16384, .i32⟩ : BufTy).Contents (Elt F) → (⟨S16384, .i32⟩ : BufTy).Contents (Elt F) → (⟨S16384, .i32⟩ : BufTy).Contents (Elt F)),
    ternary main_v68 main_v70 main_v45 main_v71 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_21 (constantI S_ 32 0#32),
    unary main_c_21 main_v72 (broadcastInDim S16384 ![] bcast_S_S16384 : (⟨S_, .i32⟩ : BufTy).Contents (Elt F) → (⟨S16384, .i32⟩ : BufTy).Contents (Elt F)),
    binary main_v65 main_v72 main_v73 (cmpi .slt : (⟨S16384, .i32⟩ : BufTy).Contents (Elt F) → (⟨S16384, .i32⟩ : BufTy).Contents (Elt F) → (⟨S16384, .i1⟩ : BufTy).Contents (Elt F)),
    nullary main_c_22 (constantI S_ 32 16384#32),
    unary main_c_22 main_v74 (broadcastInDim S16384 ![] bcast_S_S16384 : (⟨S_, .i32⟩ : BufTy).Contents (Elt F) → (⟨S16384, .i32⟩ : BufTy).Contents (Elt F)),
    binary main_v65 main_v74 main_v75 (addi : (⟨S16384, .i32⟩ : BufTy).Contents (Elt F) → (⟨S16384, .i32⟩ : BufTy).Contents (Elt F) → (⟨S16384, .i32⟩ : BufTy).Contents (Elt F)),
    ternary main_v73 main_v75 main_v65 main_v76 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v71 main_v77 (broadcastInDim S16384x1 ![0] bcast_S16384_S16384x1_0 : (⟨S16384, .i32⟩ : BufTy).Contents (Elt F) → (⟨S16384x1, .i32⟩ : BufTy).Contents (Elt F)),
    unary main_v76 main_v78 (broadcastInDim S16384x1 ![0] bcast_S16384_S16384x1_0 : (⟨S16384, .i32⟩ : BufTy).Contents (Elt F) → (⟨S16384x1, .i32⟩ : BufTy).Contents (Elt F)) ]

/-- Operations 119–128: the read at the partners, the mean, the weighted sum with the supervised part. -/
abbrev opsG : List (HloOp τ sig (Elt F)) :=
  [ binary main_v77 main_v78 main_v79 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    binary main_v66 main_v79 main_v80 ((fun x i => Host.gather gather_S16384x16384_S16384x2_S16384_n_01_n_n_01_1_11 x i) : (⟨S16384x16384, .f32⟩ : BufTy).Contents (Elt F) → (⟨S16384x2, .i32⟩ : BufTy).Contents (Elt F) → (⟨S16384, .f32⟩ : BufTy).Contents (Elt F)),
    nullary main_cst_23 (constant S_ .f32 0x00000000#32),
    binary main_v80 main_cst_23 main_v81 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_24 (constant S_ .f32 0x46800000#32),
    binary main_v81 main_cst_24 main_v82 (Host.divf : (⟨S_, .f32⟩ : BufTy).Contents (Elt F) → (⟨S_, .f32⟩ : BufTy).Contents (Elt F) → (⟨S_, .f32⟩ : BufTy).Contents (Elt F)),
    unary main_v82 main_v83 (Host.negf : (⟨S_, .f32⟩ : BufTy).Contents (Elt F) → (⟨S_, .f32⟩ : BufTy).Contents (Elt F)),
    nullary main_cst_25 (constant S_ .f32 0x3DCCCCCD#32),
    binary main_cst_25 main_v83 main_v84 (mulf : (⟨S_, .f32⟩ : BufTy).Contents (Elt F) → (⟨S_, .f32⟩ : BufTy).Contents (Elt F) → (⟨S_, .f32⟩ : BufTy).Contents (Elt F)),
    binary main_v23 main_v84 main_v85 (addf : (⟨S_, .f32⟩ : BufTy).Contents (Elt F) → (⟨S_, .f32⟩ : BufTy).Contents (Elt F) → (⟨S_, .f32⟩ : BufTy).Contents (Elt F)) ]

/-- The whole line. -/
abbrev ops : List (HloOp τ sig (Elt F)) := opsA ++ (opsB ++ (opsC ++ (opsD ++ (opsE ++ opsG))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., unary_bufs_sub .., binary_bufs_sub .., binary_bufs_sub .., binary_bufs_sub .., unary_bufs_sub .., unary_bufs_sub .., unary_bufs_sub .., unary_bufs_sub .., binary_bufs_sub .., nullary_bufs_sub .., binary_bufs_sub .., nullary_bufs_sub .., binary_bufs_sub .., nullary_bufs_sub .., binary_bufs_sub .., nullary_bufs_sub .., binary_bufs_sub .., binary_bufs_sub .., nullary_bufs_sub .., binary_bufs_sub .., binary_bufs_sub ..⟩
theorem opsB_sub : (opsB : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., binary_bufs_sub .., nullary_bufs_sub .., unary_bufs_sub .., binary_bufs_sub ..⟩
theorem opsC_sub : (opsC : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., nullary_bufs_sub .., nullary_bufs_sub .., unary_bufs_sub .., binary_bufs_sub .., nullary_bufs_sub .., binary_bufs_sub ..⟩
theorem opsD_sub : (opsD : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem opsE_sub : (opsE : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩
theorem opsG_sub : (opsG : List (HloOp τ sig (Elt F))).Forall fun op => op.bufs ⊆ tcRefs τ sig :=
  ⟨binary_bufs_sub .., binary_bufs_sub .., nullary_bufs_sub .., binary_bufs_sub .., nullary_bufs_sub .., binary_bufs_sub .., unary_bufs_sub .., nullary_bufs_sub .., binary_bufs_sub .., binary_bufs_sub ..⟩
theorem ops_sub : (ops : List (HloOp τ sig (Elt F))).Forall fun op => op.bufs ⊆ tcRefs τ sig :=
  List.forall_append.2 ⟨opsA_sub, List.forall_append.2 ⟨opsB_sub, List.forall_append.2 ⟨opsC_sub,
    List.forall_append.2 ⟨opsD_sub, List.forall_append.2 ⟨opsE_sub, opsG_sub⟩⟩⟩⟩⟩

/-! ## What each stretch writes

A buffer outside the list of a stretch's result buffers comes through the stretch unchanged. -/

/-- The buffers a stretch writes are among the listed ones: each operation writes its one result buffer. -/
local macro "writes_listed" : tactic => `(tactic| (
  simp only [List.Forall, nullary_writes, unary_writes, binary_writes, ternary_writes, Finset.singleton_subset_iff,
    List.mem_toFinset]
  repeat' apply And.intro
  all_goals exact List.mem_map_of_mem (by decide)))

abbrev wA : List (Ref sig .tc) := [main_v0, main_v1, main_cst, main_v2, main_cst_0, main_v3, main_v4, main_v5, main_cst_1, main_v6, main_cst_2, main_v7, main_cst_3, main_v8, main_v9, main_v10, main_v11, main_v12, main_v13, main_v14, main_v15, main_v16, main_cst_4, main_v17, main_cst_5, main_v18, main_cst_6, main_v19, main_cst_7, main_v20, main_v21, main_cst_8, main_v22, main_v23]
abbrev wB : List (Ref sig .tc) := [main_v24, main_cst_9, main_v25, main_v26, main_v27, main_cst_10, main_v28, main_v29, main_v30, main_v31, main_v32, main_cst_11, main_v33, main_v34, main_v35, main_cst_12, main_v36, main_v37, main_v38, main_v39, main_v40, main_v41, main_v42, main_cst_13, main_v43, main_v44]
abbrev wC : List (Ref sig .tc) := [main_v45, main_c, main_v46, main_v47, main_c_14, main_v48, main_v49, main_v50, main_c_15, main_v51, main_v52, main_c_16, main_v53, main_v54, main_v55, main_v56, main_v57, main_v58, main_cst_17, main_v59, main_v60, main_v61, main_c_18, main_v62, main_v63, main_v64, main_v65]
abbrev wD : List (Ref sig .tc) := [main_call0_cst, main_call0_v0, main_call0_cst_0, main_call0_v1, main_call0_v2, main_call0_v3, main_call0_v4, main_call0_v5, main_call0_v6, main_call0_cst_1, main_call0_v7, main_call0_v8, main_call0_v9, main_call0_v10, main_v66]
abbrev wE : List (Ref sig .tc) := [main_c_19, main_v67, main_v68, main_c_20, main_v69, main_v70, main_v71, main_c_21, main_v72, main_v73, main_c_22, main_v74, main_v75, main_v76, main_v77, main_v78]
abbrev wG : List (Ref sig .tc) := [main_v79, main_v80, main_cst_23, main_v81, main_cst_24, main_v82, main_v83, main_cst_25, main_v84, main_v85]

theorem opsA_writes : (opsA : List (HloOp τ sig (Elt F))).Forall fun op =>
    op.writes ⊆ (wA.map (Proc.devRef (τ := τ) .tc)).toFinset := by writes_listed
theorem opsB_writes : (opsB : List (HloOp τ sig (Elt F))).Forall fun op =>
    op.writes ⊆ (wB.map (Proc.devRef (τ := τ) .tc)).toFinset := by writes_listed
theorem opsC_writes : (opsC : List (HloOp τ sig (Elt F))).Forall fun op =>
    op.writes ⊆ (wC.map (Proc.devRef (τ := τ) .tc)).toFinset := by writes_listed
theorem opsD_writes : (opsD : List (HloOp τ sig (Elt F))).Forall fun op =>
    op.writes ⊆ (wD.map (Proc.devRef (τ := τ) .tc)).toFinset := by writes_listed
theorem opsE_writes : (opsE : List (HloOp τ sig (Elt F))).Forall fun op =>
    op.writes ⊆ (wE.map (Proc.devRef (τ := τ) .tc)).toFinset := by writes_listed
theorem opsG_writes : (opsG : List (HloOp τ sig (Elt F))).Forall fun op =>
    op.writes ⊆ (wG.map (Proc.devRef (τ := τ) .tc)).toFinset := by writes_listed

/-- A buffer no stretch writes comes through the whole line unchanged. -/
theorem after_ops_kept (V : Valuation τ sig (Elt F)) (r : Ref sig .tc)
    (hA : r ∉ wA) (hB : r ∉ wB) (hC : r ∉ wC) (hD : r ∉ wD) (hE : r ∉ wE) (hG : r ∉ wG) :
    after ops V (Proc.devRef .tc r) = V (Proc.devRef .tc r) := by
  simp only [ops, after_append]
  rw [after_of_writes_sub opsG _ opsG_writes hG, after_of_writes_sub opsE _ opsE_writes hE, after_of_writes_sub opsD _ opsD_writes hD,
    after_of_writes_sub opsC _ opsC_writes hC, after_of_writes_sub opsB _ opsB_writes hB,
    after_of_writes_sub opsA _ opsA_writes hA]

/-! ## The five stretches, each from any contents -/

/-- The supervised part, from the first six argument arrays. -/
theorem chunkA (W : Valuation τ sig (Elt F)) :
    after opsA W (Proc.devRef .tc main_v23)
      = val_main_v23 (F := F) (W (Proc.devRef .tc main_arg0)) (W (Proc.devRef .tc main_arg1)) (W (Proc.devRef .tc main_arg2))
          (W (Proc.devRef .tc main_arg3)) (W (Proc.devRef .tc main_arg4)) (W (Proc.devRef .tc main_arg5)) := by
  after_results_simp <;> rfl

/-- The scaled similarity matrix, from the two embedding arrays. -/
theorem chunkB (W : Valuation τ sig (Elt F)) (x6 x7 : (⟨S8192x256, .f32⟩ : BufTy).Contents (Elt F))
    (h6 : W (Proc.devRef .tc main_arg6) = x6) (h7 : W (Proc.devRef .tc main_arg7) = x7) :
    after opsB W (Proc.devRef .tc main_v44) = val_main_v44 (F := F) x6 x7 := by
  subst h6 h7
  after_results_simp <;> rfl

/-- The similarity matrix with its diagonal overwritten, from the scaled similarity matrix. -/
theorem chunkC_v60 (W : Valuation τ sig (Elt F)) (x6 x7 : (⟨S8192x256, .f32⟩ : BufTy).Contents (Elt F))
    (h44 : W (Proc.devRef .tc main_v44) = val_main_v44 (F := F) x6 x7) :
    after opsC W (Proc.devRef .tc main_v60) = val_main_v60 (F := F) x6 x7 := by
  after_results_simp
  rw [h44]
  rfl

/-- The row counter. -/
theorem chunkC_v45 (W : Valuation τ sig (Elt F)) :
    after opsC W (Proc.devRef .tc main_v45) = val_main_v45 (F := F) := by
  after_results_simp <;> rfl

/-- The partner table. -/
theorem chunkC_v65 (W : Valuation τ sig (Elt F)) :
    after opsC W (Proc.devRef .tc main_v65) = val_main_v65 (F := F) := by
  after_results_simp <;> rfl

/-- A typed reference's two transports along its type equation undo each other. -/
theorem ofBuf_toBuf {T : BufTy} (x : TRef sig T) (v : T.Contents (Elt F)) : x.ofBuf (x.toBuf v) = v := by
  obtain ⟨r, rfl, _, _⟩ := x
  rfl

/-- The log-softmax, from the masked similarity matrix. The operations of this stretch carry their buffers' types
    along type equations that hold by computation; those transports are removed first, and what is left is the
    log-softmax's own term on both sides. -/
theorem chunkD (W : Valuation τ sig (Elt F)) (x6 x7 : (⟨S8192x256, .f32⟩ : BufTy).Contents (Elt F))
    (h60 : W (Proc.devRef .tc main_v60) = val_main_v60 (F := F) x6 x7) :
    after opsD W (Proc.devRef .tc main_v66) = val_main_v66 (F := F) x6 x7 := by
  after_results_simp
  rw [h60]
  simp only [ofBuf_toBuf]
  unfold val_main_v66 val_main_call0_v10 val_main_call0_v9 val_main_call0_v8 val_main_call0_v7 val_main_call0_v6
    val_main_call0_v5 val_main_call0_v4 val_main_call0_v3 val_main_call0_v2 val_main_call0_v1 val_main_call0_v0
    val_main_call0_cst val_main_call0_cst_0 val_main_call0_cst_1
  generalize val_main_v60 (F := F) x6 x7 = y
  have hof : (TRef.of (T := ⟨S16384x16384, .f32⟩) main_v60).ofBuf y = y := rfl
  have htb : ∀ v : (⟨S16384x16384, .f32⟩ : BufTy).Contents (Elt F),
      (TRef.of (T := ⟨S16384x16384, .f32⟩) main_v66).toBuf v = v := fun v => rfl
  rw [hof, htb]

/-- The row column of the index words of the read, from the row counter. -/
theorem chunkE_v77 (W : Valuation τ sig (Elt F)) (h45 : W (Proc.devRef .tc main_v45) = val_main_v45 (F := F)) :
    after opsE W (Proc.devRef .tc main_v77) = val_main_v77 (F := F) := by
  after_results_simp
  rw [h45]
  rfl

/-- The partner column of the index words of the read, from the partner table. -/
theorem chunkE_v78 (W : Valuation τ sig (Elt F)) (h65 : W (Proc.devRef .tc main_v65) = val_main_v65 (F := F)) :
    after opsE W (Proc.devRef .tc main_v78) = val_main_v78 (F := F) := by
  after_results_simp
  rw [h65]
  rfl

/-- The result, from the supervised part, the two columns of index words and the log-softmax. -/
theorem chunkG (W : Valuation τ sig (Elt F)) (x0 x1 x2 x3 x4 x5 : (⟨S8192x1, .f32⟩ : BufTy).Contents (Elt F))
    (x6 x7 : (⟨S8192x256, .f32⟩ : BufTy).Contents (Elt F))
    (h23 : W (Proc.devRef .tc main_v23) = val_main_v23 (F := F) x0 x1 x2 x3 x4 x5)
    (h77 : W (Proc.devRef .tc main_v77) = val_main_v77 (F := F))
    (h78 : W (Proc.devRef .tc main_v78) = val_main_v78 (F := F))
    (h66 : W (Proc.devRef .tc main_v66) = val_main_v66 (F := F) x6 x7) :
    after opsG W (Proc.devRef .tc main_v85) = val_main_v85 (F := F) x0 x1 x2 x3 x4 x5 x6 x7 := by
  after_results_simp
  rw [h23, h77, h78, h66]
  rfl

/-! ## The whole line -/

/-- The result buffer after the whole line: the last stage of the eight argument arrays. -/
theorem after_v85 (V : Valuation τ sig (Elt F)) :
    after ops V (Proc.devRef .tc main_v85)
      = val_main_v85 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) := by
  have hsplit : after ops V = after opsG (after opsE (after opsD (after opsC (after opsB (after opsA V))))) := by
    simp only [ops, after_append]
  rw [hsplit]
  have k6 : after opsA V (Proc.devRef .tc main_arg6) = V (Proc.devRef .tc main_arg6) :=
    after_of_writes_sub opsA V opsA_writes (by decide)
  have k7 : after opsA V (Proc.devRef .tc main_arg7) = V (Proc.devRef .tc main_arg7) :=
    after_of_writes_sub opsA V opsA_writes (by decide)
  have e23a := chunkA V
  have e44 := chunkB (after opsA V) _ _ k6 k7
  have e23b := (after_of_writes_sub (r := main_v23) opsB (after opsA V) opsB_writes (by decide)).trans e23a
  have e60 := chunkC_v60 (after opsB (after opsA V)) _ _ e44
  have e45 := chunkC_v45 (after opsB (after opsA V))
  have e65 := chunkC_v65 (after opsB (after opsA V))
  have e23c := (after_of_writes_sub (r := main_v23) opsC (after opsB (after opsA V)) opsC_writes (by decide)).trans e23b
  have e66 := chunkD (after opsC (after opsB (after opsA V))) _ _ e60
  have e23d := (after_of_writes_sub (r := main_v23) opsD (after opsC (after opsB (after opsA V))) opsD_writes
    (by decide)).trans e23c
  have e45d := (after_of_writes_sub (r := main_v45) opsD (after opsC (after opsB (after opsA V))) opsD_writes
    (by decide)).trans e45
  have e65d := (after_of_writes_sub (r := main_v65) opsD (after opsC (after opsB (after opsA V))) opsD_writes
    (by decide)).trans e65
  have e77 := chunkE_v77 (after opsD (after opsC (after opsB (after opsA V)))) e45d
  have e78 := chunkE_v78 (after opsD (after opsC (after opsB (after opsA V)))) e65d
  have e23e := (after_of_writes_sub (r := main_v23) opsE (after opsD (after opsC (after opsB (after opsA V)))) opsE_writes
    (by decide)).trans e23d
  have e66e := (after_of_writes_sub (r := main_v66) opsE (after opsD (after opsC (after opsB (after opsA V)))) opsE_writes
    (by decide)).trans e66
  exact chunkG (after opsE (after opsD (after opsC (after opsB (after opsA V))))) _ _ _ _ _ _ _ _ e23e e77 e78 e66e

/-- On every device, from any memory with zero counters: every weakly fair execution of the reference terminates with
    the result buffer at the last stage of the eight argument arrays as launched, and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v85)
        = val_main_v85 (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v85).trans (after_v85 _),
      (h c main_arg0).trans (after_ops_kept _ main_arg0 (by decide) (by decide) (by decide) (by decide) (by decide) (by decide)),
      (h c main_arg1).trans (after_ops_kept _ main_arg1 (by decide) (by decide) (by decide) (by decide) (by decide) (by decide)),
      (h c main_arg2).trans (after_ops_kept _ main_arg2 (by decide) (by decide) (by decide) (by decide) (by decide) (by decide)),
      (h c main_arg3).trans (after_ops_kept _ main_arg3 (by decide) (by decide) (by decide) (by decide) (by decide) (by decide)),
      (h c main_arg4).trans (after_ops_kept _ main_arg4 (by decide) (by decide) (by decide) (by decide) (by decide) (by decide)),
      (h c main_arg5).trans (after_ops_kept _ main_arg5 (by decide) (by decide) (by decide) (by decide) (by decide) (by decide)),
      (h c main_arg6).trans (after_ops_kept _ main_arg6 (by decide) (by decide) (by decide) (by decide) (by decide) (by decide)),
      (h c main_arg7).trans (after_ops_kept _ main_arg7 (by decide) (by decide) (by decide) (by decide) (by decide) (by decide))⟩)
    (run_seq scopedRefs_eq scopedSems_eq defs main (fun _ => ops) main_eq (fun _ => ops_sub) m ρ)

end Cert.RefRun

end
-- ==== Proof.lean ====
/-
  The certificate's claim, assembled.

  The kernel computes, for every row i of the normalised matrix Z (the two inputs' rows, each divided by its
  Euclidean norm, one above the other), the shifted log-sum-exp  μ + log Σ_{k ≠ i} exp(Z_i·Z_k · μ − μ)  of its
  similarities to all OTHER rows, block by block over a 16 x 16 grid; the host then subtracts the similarity to
  the row's partner and averages. The reference forms the whole similarity matrix, masks its diagonal with −∞,
  and takes the log-softmax at the partner's column. With μ the reciprocal of the temperature word both
  programs carry, the two are one function of finite inputs: a + log Σ exp(x_k − a) does not depend on the real
  shift a, and every quantity is a real number.

  The frames: each program runs to its end, nothing faulting, its arguments unchanged — for the kernel, as
  printed and as idealized, by the same argument (two of its three windows read ONE array, dealt to them in
  halves). The idealization's four rewrites each read a scalar constant of the kernel as the value its name
  denotes.
-/
import proofs.«138523_j48455821033481_2_alg».proof.Defs
import proofs.«138523_j48455821033481_2_alg».proof.Proof.Gen.Kernel
import proofs.«138523_j48455821033481_2_alg».proof.Proof.Gen.KernelIdeal
import proofs.«138523_j48455821033481_2_alg».proof.Proof.Gen.ReferenceIdeal
import proofs.«138523_j48455821033481_2_alg».proof.Proof.Gen.Pre_finite_inputs
import proofs.«138523_j48455821033481_2_alg».proof.Proof.ArgsKept
import proofs.«138523_j48455821033481_2_alg».proof.Proof.WArgsKept
import proofs.«138523_j48455821033481_2_alg».proof.Proof.Bridge
import proofs.«138523_j48455821033481_2_alg».proof.Proof.FiniteInputs
import proofs.«138523_j48455821033481_2_alg».proof.Proof.RefRun
import Idealize.ShloMosaic.Adequacy
import Idealize.ShloMosaic.Init

noncomputable section

namespace Cert.Proof

open Idealize.ShloMosaic Idealize.SL.Sem

theorem frame_k [Cert.Kernel.Facts] [Cert.Pre_finite_inputs.Facts] : Cert.frame_Kernel :=
  fun m ρ _ => Cert.Kernel.RowLse.frame (F := Bits) m ρ

theorem frame_ki [Cert.KernelIdeal.Facts] [Cert.Pre_finite_inputs.Facts] : Cert.frame_KernelIdeal :=
  fun m ρ _ => Cert.KernelIdeal.RowLse.frame (F := Ideal) m ρ

/-- Each of the four rewrites reads a scalar constant as its name's value: the reciprocal of the temperature
    word (three times) and −∞ for the mask's fill. -/
theorem preserves : Cert.preserves_Kernel_KernelIdeal :=
  ⟨IdealRules.named_const.statement Cert.KernelIdeal.κ "inv_temp" .f32 0x41200000#32 ((134217728 / 13421773 : ℝ) : EReal) rfl,
   IdealRules.named_const.statement Cert.KernelIdeal.κ "neg_big" .f32 0xFF333332#32 ⊥ rfl,
   IdealRules.named_const.statement Cert.KernelIdeal.κ "inv_temp" .f32 0x41200000#32 ((134217728 / 13421773 : ℝ) : EReal) rfl,
   IdealRules.named_const.statement Cert.KernelIdeal.κ "inv_temp" .f32 0x41200000#32 ((134217728 / 13421773 : ℝ) : EReal) rfl⟩

/-- The reference is host operations only: it runs to its end with its result at its last stage of the arguments
    and the arguments unchanged; the frame is that run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.RefRun.run (F := Ideal) m ρ)

/-- The result buffer bypasses the region: it is unscoped and no window stands on it. -/
theorem mem_result : Cert.KernelIdeal.main_v53 ∈ Pipeline.restRefsP Cert.KernelIdeal.sig Pipeline.Prefetch.none Cert.KernelIdeal.spec0 :=
  Finset.mem_sdiff.mpr ⟨Pipeline.mem_restRefs_of Cert.KernelIdeal.main_v53 (by decide) (by decide),
    fun h => by obtain ⟨k, -, -⟩ := Finset.mem_image.mp h; exact k.elim0⟩

/-- From memories agreeing on the arguments both idealized programs run to their ends with ONE result: the
    kernel's, after its host lines; the reference's last stage is that value because the matrix inputs are finite
    (the precondition), so every quantity is a real number and the two expressions are one function. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.RowLse.afterTail m c Cert.KernelIdeal.main_v53, ?_, ?_⟩
  · exact (θ_run (Cert.KernelIdeal.defs (F := Ideal)) _ _).mono
      (fun _ h c => ⟨(h c).2 Cert.KernelIdeal.main_v53 mem_result,
        ((h c).2 Cert.KernelIdeal.main_arg0 Cert.KernelIdeal.RowLse.mem_arg0).trans (Cert.KernelIdeal.RowLse.tail_arg0 m c),
        ((h c).2 Cert.KernelIdeal.main_arg1 Cert.KernelIdeal.RowLse.mem_arg1).trans (Cert.KernelIdeal.RowLse.tail_arg1 m c),
        ((h c).2 Cert.KernelIdeal.main_arg2 Cert.KernelIdeal.RowLse.mem_arg2).trans (Cert.KernelIdeal.RowLse.tail_arg2 m c),
        ((h c).2 Cert.KernelIdeal.main_arg3 Cert.KernelIdeal.RowLse.mem_arg3).trans (Cert.KernelIdeal.RowLse.tail_arg3 m c),
        ((h c).2 Cert.KernelIdeal.main_arg4 Cert.KernelIdeal.RowLse.mem_arg4).trans (Cert.KernelIdeal.RowLse.tail_arg4 m c),
        ((h c).2 Cert.KernelIdeal.main_arg5 Cert.KernelIdeal.RowLse.mem_arg5).trans (Cert.KernelIdeal.RowLse.tail_arg5 m c),
        ((h c).2 Cert.KernelIdeal.main_arg6 Cert.KernelIdeal.RowLse.mem_arg6).trans (Cert.KernelIdeal.RowLse.tail_arg6 m c),
        ((h c).2 Cert.KernelIdeal.main_arg7 Cert.KernelIdeal.RowLse.mem_arg7).trans (Cert.KernelIdeal.RowLse.tail_arg7 m c)⟩)
      (Cert.KernelIdeal.RowLse.run_main (F := Ideal) m ρ)
  · refine (θ_run Cert.ReferenceIdeal.defs _ _).mono (fun _ h c => ⟨(h c).1.trans ?_, (h c).2⟩) (Cert.RefRun.run (F := Ideal) m' ρ')
    obtain ⟨h6, h7⟩ := Cert.FiniteInputs.real_of_pre _ _ _ _ _ _ _ _ (hpre c)
    rw [(hagree c).1, (hagree c).2.1, (hagree c).2.2.1, (hagree c).2.2.2.1, (hagree c).2.2.2.2.1, (hagree c).2.2.2.2.2.1, (hagree c).2.2.2.2.2.2.1, (hagree c).2.2.2.2.2.2.2]
    exact (Cert.Bridge.kernel_value m c h6 h7).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
